-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1x65536x2 : Shape := ⟨3, ![1, 65536, 2]⟩
abbrev S4x512x512 : Shape := ⟨3, ![4, 512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1x65536x2 : S_.BroadcastsInDim S1x65536x2 (![] : Fin 0 → Fin S1x65536x2.rank)
  reducesTo_S1x65536x2_S_d0_1_2 : S1x65536x2.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S65536x512 .f32) (main_arg1 : FVec F S1x65536x2 .f32) (main_arg2 : FVec F S4x512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1x65536x2 .f32 := Host.absf main_arg1
  let main_cst_0 : FVec F S_ .f32 := constant S_ .f32 0x7F800000#32
  let main_v5 : FVec F S1x65536x2 .f32 := broadcastInDim S1x65536x2 ![] bcast_S_S1x65536x2 main_cst_0
  let main_v6 : IVec S1x65536x2 1 := cmpf .olt main_v4 main_v5
  let main_c_1 : IVec S_ 1 := constantI S_ 1 1#1
  let main_v7 : IVec S_ 1 := (fun x v => Host.reduce IntOp.andi x v reducesTo_S1x65536x2_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  main_v13
-- ==== Kernel.lean ====
abbrev S65536x512 : Shape := ⟨2, ![65536, 512]⟩
abbrev S1x65536x2 : Shape := ⟨3, ![1, 65536, 2]⟩
abbrev S4x512x512 : Shape := ⟨3, ![4, 512, 512]⟩
abbrev S65536x2 : Shape := ⟨2, ![65536, 2]⟩
abbrev S_ : Shape := ⟨0, ![]⟩
abbrev S65536x1 : Shape := ⟨2, ![65536, 1]⟩
abbrev S65536 : Shape := ⟨1, ![65536]⟩
abbrev S4 : Shape := ⟨1, ![4]⟩
abbrev S1x4 : Shape := ⟨2, ![1, 4]⟩
abbrev S65536x4 : Shape := ⟨2, ![65536, 4]⟩
abbrev S65536x1x1 : Shape := ⟨3, ![65536, 1, 1]⟩
abbrev S1 : Shape := ⟨1, ![1]⟩
abbrev S1x1x1 : Shape := ⟨3, ![1, 1, 1]⟩
abbrev S3 : Shape := ⟨1, ![3]⟩
abbrev S69632x512 : Shape := ⟨2, ![69632, 512]⟩
abbrev S68 : Shape := ⟨1, ![68]⟩
abbrev S68x1 : Shape := ⟨2, ![68, 1]⟩
abbrev S68x4 : Shape := ⟨2, ![68, 4]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 187
  | .vmem => 6
  | .smem => 1
  | _ => 0

abbrev hbmTy0_0 (i : Nat) : BufTy := match i % 128 with
  | 0 => ⟨S65536x512, .f32⟩
  | 1 => ⟨S1x65536x2, .f32⟩
  | 2 => ⟨S4x512x512, .f32⟩
  | 3 => ⟨S65536x2, .f32⟩
  | 4 => ⟨S_, .f32⟩
  | 5 => ⟨S65536x2, .f32⟩
  | 6 => ⟨S65536x2, .f32⟩
  | 7 => ⟨S65536x1, .f32⟩
  | 8 => ⟨S65536, .f32⟩
  | 9 => ⟨S65536, .f32⟩
  | 10 => ⟨S65536, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S65536, .i32⟩
  | 18 => ⟨S65536, .i32⟩
  | 19 => ⟨S_, .i32⟩
  | 20 => ⟨S65536, .i32⟩
  | 21 => ⟨S65536, .i1⟩
  | 22 => ⟨S_, .i32⟩
  | 23 => ⟨S65536, .i32⟩
  | 24 => ⟨S65536, .i1⟩
  | 25 => ⟨S_, .i32⟩
  | 26 => ⟨S_, .i1⟩
  | 27 => ⟨S65536, .i1⟩
  | 28 => ⟨S65536, .i1⟩
  | 29 => ⟨S65536, .i1⟩
  | 30 => ⟨S65536, .i32⟩
  | 31 => ⟨S65536, .i32⟩
  | 32 => ⟨S65536, .i32⟩
  | 33 => ⟨S65536x1, .f32⟩
  | 34 => ⟨S65536, .f32⟩
  | 35 => ⟨S65536, .f32⟩
  | 36 => ⟨S65536, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S65536, .i32⟩
  | 44 => ⟨S65536, .i32⟩
  | 45 => ⟨S_, .i32⟩
  | 46 => ⟨S65536, .i32⟩
  | 47 => ⟨S65536, .i1⟩
  | 48 => ⟨S_, .i32⟩
  | 49 => ⟨S65536, .i32⟩
  | 50 => ⟨S65536, .i1⟩
  | 51 => ⟨S_, .i32⟩
  | 52 => ⟨S_, .i1⟩
  | 53 => ⟨S65536, .i1⟩
  | 54 => ⟨S65536, .i1⟩
  | 55 => ⟨S65536, .i1⟩
  | 56 => ⟨S65536, .i32⟩
  | 57 => ⟨S65536, .i32⟩
  | 58 => ⟨S65536, .i32⟩
  | 59 => ⟨S_, .i32⟩
  | 60 => ⟨S65536, .i32⟩
  | 61 => ⟨S65536, .i32⟩
  | 62 => ⟨S65536, .i32⟩
  | 63 => ⟨S65536x1, .i32⟩
  | 64 => ⟨S4, .i32⟩
  | 65 => ⟨S1x4, .i32⟩
  | 66 => ⟨S65536x4, .i32⟩
  | 67 => ⟨S65536x4, .i32⟩
  | 68 => ⟨S65536x4, .i1⟩
  | 69 => ⟨S65536x4, .i32⟩
  | 70 => ⟨S_, .i32⟩
  | 71 => ⟨S_, .i32⟩
  | 72 => ⟨S65536x4, .i32⟩
  | 73 => ⟨S65536x1, .i32⟩
  | 74 => ⟨S_, .i32⟩
  | 75 => ⟨S65536x1, .i32⟩
  | 76 => ⟨S65536x1, .i1⟩
  | 77 => ⟨S_, .i32⟩
  | 78 => ⟨S65536x1, .i32⟩
  | 79 => ⟨S65536x1, .i32⟩
  | 80 => ⟨S65536x1, .i32⟩
  | 81 => ⟨S65536x1x1, .i32⟩
  | 82 => ⟨S1, .i32⟩
  | 83 => ⟨S_, .i32⟩
  | 84 => ⟨S65536x1x1, .i32⟩
  | 85 => ⟨S65536x1x1, .i1⟩
  | 86 => ⟨S1x1x1, .i32⟩
  | 87 => ⟨S65536x1x1, .i32⟩
  | 88 => ⟨S65536x1x1, .i1⟩
  | 89 => ⟨S65536x1x1, .i1⟩
  | 90 => ⟨S_, .i1⟩
  | 91 => ⟨S65536x1, .i1⟩
  | 92 => ⟨S65536x1, .i32⟩
  | 93 => ⟨S_, .i32⟩
  | 94 => ⟨S65536x1, .i32⟩
  | 95 => ⟨S65536x1, .i32⟩
  | 96 => ⟨S65536, .i32⟩
  | 97 => ⟨S_, .i32⟩
  | 98 => ⟨S65536, .i32⟩
  | 99 => ⟨S65536, .i32⟩
  | 100 => ⟨S1x4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S_, .i32⟩
  | 109 => ⟨S_, .i32⟩
  | 110 => ⟨S4, .i32⟩
  | 111 => ⟨S4, .i32⟩
  | 112 => ⟨S4, .i32⟩
  | 113 => ⟨S_, .i32⟩
  | 114 => ⟨S4, .i32⟩
  | 115 => ⟨S4, .i1⟩
  | 116 => ⟨S4, .i32⟩
  | 117 => ⟨S4, .i32⟩
  | 118 => ⟨S_, .i32⟩
  | 119 => ⟨S4, .i32⟩
  | 120 => ⟨S4, .i1⟩
  | 121 => ⟨S4, .i1⟩
  | 122 => ⟨S_, .i32⟩
  | 123 => ⟨S4, .i32⟩
  | 124 => ⟨S4, .i32⟩
  | 125 => ⟨S4, .i32⟩
  | 126 => ⟨S_, .i32⟩
  | 127 => ⟨S4, .i32⟩
  | _ => ⟨S65536x512, .f32⟩

abbrev hbmTy0_1 (i : Nat) : BufTy := match i % 128 with
  | 0 => ⟨S4, .i32⟩
  | 1 => ⟨S_, .i32⟩
  | 2 => ⟨S1, .i32⟩
  | 3 => ⟨S_, .i32⟩
  | 4 => ⟨S_, .i32⟩
  | 5 => ⟨S4, .i32⟩
  | 6 => ⟨S3, .i32⟩
  | 7 => ⟨S4, .i32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S65536, .i32⟩
  | 17 => ⟨S65536, .i32⟩
  | 18 => ⟨S65536x512, .bf16⟩
  | 19 => ⟨S_, .bf16⟩
  | 20 => ⟨S69632x512, .bf16⟩
  | 21 => ⟨S_, .i32⟩
  | 22 => ⟨S65536, .i32⟩
  | 23 => ⟨S65536, .i1⟩
  | 24 => ⟨S_, .i32⟩
  | 25 => ⟨S65536, .i32⟩
  | 26 => ⟨S65536, .i32⟩
  | 27 => ⟨S65536, .i32⟩
  | 28 => ⟨S65536x1, .i32⟩
  | 29 => ⟨S69632x512, .bf16⟩
  | 30 => ⟨S68, .i32⟩
  | 31 => ⟨S_, .i32⟩
  | 32 => ⟨S68, .i32⟩
  | 33 => ⟨S68, .i32⟩
  | 34 => ⟨S_, .i32⟩
  | 35 => ⟨S_, .i32⟩
  | 36 => ⟨S4, .i32⟩
  | 37 => ⟨S68x1, .i32⟩
  | 38 => ⟨S1x4, .i32⟩
  | 39 => ⟨S68x4, .i32⟩
  | 40 => ⟨S68x4, .i32⟩
  | 41 => ⟨S68x4, .i1⟩
  | 42 => ⟨S68x4, .i32⟩
  | 43 => ⟨S_, .i32⟩
  | 44 => ⟨S68, .i32⟩
  | 45 => ⟨S_, .i32⟩
  | 46 => ⟨S68, .i32⟩
  | 47 => ⟨S4x512x512, .f32⟩
  | 48 => ⟨S4x512x512, .bf16⟩
  | 49 => ⟨S69632x512, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x512, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .smem, ⟨0, _⟩ => ⟨S68, .i32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v12 : Ref sig .tc := ⟨.hbm, 58, rfl⟩
abbrev main_c_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_call2_call0_c : Ref sig .tc := ⟨.hbm, 70, rfl⟩
abbrev main_call2_call0_v0 : Ref sig .tc := ⟨.hbm, 71, rfl⟩
abbrev main_v23 : Ref sig .tc := ⟨.hbm, 72, rfl⟩
abbrev main_v24 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_c_4 : Ref sig .tc := ⟨.hbm, 93, rfl⟩
abbrev main_call3_v14 : Ref sig .tc := ⟨.hbm, 94, rfl⟩
abbrev main_v25 : Ref sig .tc := ⟨.hbm, 95, rfl⟩
abbrev main_v26 : Ref sig .tc := ⟨.hbm, 96, rfl⟩
abbrev main_c_2 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_c_3 : Ref sig .tc := ⟨.hbm, 102, rfl⟩
abbrev main_v31 : Ref sig .tc := ⟨.hbm, 103, rfl⟩
abbrev main_v32 : Ref sig .tc := ⟨.hbm, 104, rfl⟩
abbrev main_c_4 : Ref sig .tc := ⟨.hbm, 105, rfl⟩
abbrev main_v33 : Ref sig .tc := ⟨.hbm, 106, rfl⟩
abbrev main_v34 : Ref sig .tc := ⟨.hbm, 107, rfl⟩
abbrev main_c_5 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_c : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_0 : Ref sig .tc := ⟨.hbm, 122, rfl⟩
abbrev main_call4_v12 : Ref sig .tc := ⟨.hbm, 123, rfl⟩
abbrev main_call4_v13 : Ref sig .tc := ⟨.hbm, 124, rfl⟩
abbrev main_v35 : Ref sig .tc := ⟨.hbm, 125, rfl⟩
abbrev main_c_6 : Ref sig .tc := ⟨.hbm, 126, rfl⟩
abbrev main_v36 : Ref sig .tc := ⟨.hbm, 127, rfl⟩
abbrev main_v37 : Ref sig .tc := ⟨.hbm, 128, rfl⟩
abbrev main_c_7 : Ref sig .tc := ⟨.hbm, 129, rfl⟩
abbrev main_v38 : Ref sig .tc := ⟨.hbm, 130, rfl⟩
abbrev main_call5_call0_c : Ref sig .tc := ⟨.hbm, 131, rfl⟩
abbrev main_call5_call0_v0 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_c_8 : Ref sig .tc := ⟨.hbm, 136, rfl⟩
abbrev main_v42 : Ref sig .tc := ⟨.hbm, 137, rfl⟩
abbrev main_v43 : Ref sig .tc := ⟨.hbm, 138, rfl⟩
abbrev main_c_9 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_cst_10 : Ref sig .tc := ⟨.hbm, 147, rfl⟩
abbrev main_v51 : Ref sig .tc := ⟨.hbm, 148, rfl⟩
abbrev main_c_11 : Ref sig .tc := ⟨.hbm, 149, rfl⟩
abbrev main_v52 : Ref sig .tc := ⟨.hbm, 150, rfl⟩
abbrev main_v53 : Ref sig .tc := ⟨.hbm, 151, rfl⟩
abbrev main_c_12 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_c_13 : Ref sig .tc := ⟨.hbm, 159, rfl⟩
abbrev main_v60 : Ref sig .tc := ⟨.hbm, 160, rfl⟩
abbrev main_v61 : Ref sig .tc := ⟨.hbm, 161, rfl⟩
abbrev main_call6_call0_c : Ref sig .tc := ⟨.hbm, 162, rfl⟩
abbrev main_call6_call0_v0 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_c_14 : Ref sig .tc := ⟨.hbm, 171, rfl⟩
abbrev main_v69 : Ref sig .tc := ⟨.hbm, 172, rfl⟩
abbrev main_c_15 : Ref sig .tc := ⟨.hbm, 173, rfl⟩
abbrev main_v70 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_c_16 : Ref sig .tc := ⟨.hbm, 178, rfl⟩
abbrev main_v75 : Ref sig .tc := ⟨.hbm, 179, rfl⟩
abbrev main_v76 : Ref sig .tc := ⟨.hbm, 180, rfl⟩
abbrev main_c_17 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v71 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![68], ![false]⟩

abbrev pre0 : Pipeline.Prefetch sig := ⟨1, ![main_v71.idx], fun | 0 => main_v71.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x65536x2_S65536x2 : S1x65536x2.ShapeCasts S65536x2
  bcast_S_S65536x2 : S_.BroadcastsInDim S65536x2 (![] : Fin 0 → Fin S65536x2.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  slices_S65536x2_S65536x1_0_1 : S65536x2.Slices ![0, 1] S65536x1
  bcast_S65536_S65536x1_0 : S65536.BroadcastsInDim S65536x1 (![0] : Fin 1 → Fin S65536x1.rank)
  bcast_S4_S1x4_1 : S4.BroadcastsInDim S1x4 (![1] : Fin 1 → Fin S1x4.rank)
  bcast_S65536x1_S65536x4_0_1 : S65536x1.BroadcastsInDim S65536x4 (![0, 1] : Fin 2 → Fin S65536x4.rank)
  bcast_S1x4_S65536x4_0_1 : S1x4.BroadcastsInDim S65536x4 (![0, 1] : Fin 2 → Fin S65536x4.rank)
  natLt_1_32 : 1 < 32
  bcast_S_S_ : S_.BroadcastsInDim S_ (![] : Fin 0 → Fin S_.rank)
  reduceWindows_S65536x4_S65536x4_w65536s1p65535_0_w1s1p0_0 : S65536x4.ReduceWindows (![65536, 1] : Fin 2 → Nat) ![1, 1] ![65535, 0] ![0, 0] S65536x4
  h_S_ : 0 < S_.numel
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  slices_S65536x4_S1x4_65535_0 : S65536x4.Slices ![65535, 0] S1x4
  shapeCasts_S1x4_S4 : S1x4.ShapeCasts S4
  bcast_S_S4 : S_.BroadcastsInDim S4 (![] : Fin 0 → Fin S4.rank)
  bcast_S_S1 : S_.BroadcastsInDim S1 (![] : Fin 0 → Fin S1.rank)
  reduceWindows_S4_S4_w4s1p3_0 : S4.ReduceWindows (![4] : Fin 1 → Nat) ![1] ![3] ![0] S4
  slices_S4_S3_0 : S4.Slices ![0] S3
  concatenates_S1_S3_S4_d0 : Shape.Concatenates [S1, S3] S4 0
  bitsLt_bf16_f32 : FTy.bits .bf16 < FTy.bits .f32
  bcast_S_S69632x512 : S_.BroadcastsInDim S69632x512 (![] : Fin 0 → Fin S69632x512.rank)
  bcast_S_S68 : S_.BroadcastsInDim S68 (![] : Fin 0 → Fin S68.rank)
  bcast_S68_S68x1_0 : S68.BroadcastsInDim S68x1 (![0] : Fin 1 → Fin S68x1.rank)
  bcast_S68x1_S68x4_0_1 : S68x1.BroadcastsInDim S68x4 (![0, 1] : Fin 2 → Fin S68x4.rank)
  bcast_S1x4_S68x4_0_1 : S1x4.BroadcastsInDim S68x4 (![0, 1] : Fin 2 → Fin S68x4.rank)
  reducesTo_S68x4_S68_d1 : S68x4.ReducesTo [1] S68
  transposes_S4x512x512_S4x512x512_0_2_1 : S4x512x512.Transposes [0, 2, 1] S4x512x512
  numel1_S1 : S1.numel = 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  gather_S65536x4_S65536x1x1_S65536x1_n_1_0_0_1_2_11_wf : GatherDims.WF S65536x4 S65536x1x1 S65536x1 [] [1] [0] [1] [0] 2 ![1, 1]
  gather_S4_S65536x1_S65536_n_0_n_n_0_1_1_wf : GatherDims.WF S4 S65536x1 S65536 [] [0] [] [0] [] 1 ![1]
  scatter_S69632x512_S65536x1_S65536x512_1_0_0_1_wf : ScatterDims.WF S69632x512 S65536x1 S65536x512 [1] [0] [0] 1
  dot_S1024x512_S512x512_S1024x512_1_0_0_1_n_n_wf : DotDims.WF S1024x512 S512x512 S1024x512 [1] [0] [0] [1] [] []
  gather_S69632x512_S65536x1_S65536x512_1_0_n_n_0_1_1512_wf : GatherDims.WF S69632x512 S65536x1 S65536x512 [1] [0] [] [0] [] 1 ![1, 512]
  hrank0 : 0 < grid0.rank
  k0_off1_inb : ∀ i : grid0.Coords, ∀ a, (k0_off1 i) a + S1.size a ≤ S68.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S69632x512.size a
  hwx0_0 : ∀ i : grid0.Coords, EltTy.bits .bf16 = 32 ∨ (Rect.block (s := S69632x512) S1024x512.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S69632x512.size a
  hwx0_2 : ∀ i : grid0.Coords, EltTy.bits .f32 = 32 ∨ (Rect.block (s := S69632x512) S1024x512.size (cc0_transform_2 i) (hinb0_2 i)).WholeWords (EltTy.packing .f32)

variable [Facts₀]

def gather_S65536x4_S65536x1x1_S65536x1_n_1_0_0_1_2_11 : GatherDims S65536x4 S65536x1x1 S65536x1 where
  offsetDims := []
  collapsedSliceDims := [1]
  operandBatchingDims := [0]
  startIndicesBatchingDims := [0]
  startIndexMap := [1]
  indexVectorDim := 2
  sliceSizes := ![1, 1]
  wf := gather_S65536x4_S65536x1x1_S65536x1_n_1_0_0_1_2_11_wf
def gather_S4_S65536x1_S65536_n_0_n_n_0_1_1 : GatherDims S4 S65536x1 S65536 where
  offsetDims := []
  collapsedSliceDims := [0]
  operandBatchingDims := []
  startIndicesBatchingDims := []
  startIndexMap := [0]
  indexVectorDim := 1
  sliceSizes := ![1]
  wf := gather_S4_S65536x1_S65536_n_0_n_n_0_1_1_wf
def scatter_S69632x512_S65536x1_S65536x512_1_0_0_1 : ScatterDims S69632x512 S65536x1 S65536x512 where
  updateWindowDims := [1]
  insertedWindowDims := [0]
  scatterDimsToOperandDims := [0]
  indexVectorDim := 1
  wf := scatter_S69632x512_S65536x1_S65536x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S69632x512_S65536x1_S65536x512_1_0_n_n_0_1_1512 : GatherDims S69632x512 S65536x1 S65536x512 where
  offsetDims := [1]
  collapsedSliceDims := [0]
  operandBatchingDims := []
  startIndicesBatchingDims := []
  startIndexMap := [0]
  indexVectorDim := 1
  sliceSizes := ![1, 512]
  wf := gather_S69632x512_S65536x1_S65536x512_1_0_n_n_0_1_1512_wf

abbrev spec0_0 : Pipeline.WinSpec sig grid0.rank :=
  Pipeline.WinSpec.ofSpec (Memref.whole main_v58) S1024x512.size reads0_0 false false 2 stage0_0 sem0_0 nbuf0_0 hstage0_0

abbrev spec0_1 : Pipeline.WinSpec sig grid0.rank :=
  Pipeline.WinSpec.ofSpec (Memref.whole main_v73) S1x512x512.size reads0_1 false false 2 stage0_1 sem0_1 nbuf0_1 hstage0_1

abbrev spec0_2 : Pipeline.WinSpec sig grid0.rank :=
  Pipeline.WinSpec.ofSpec (Memref.whole main_v74) S1024x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x512.size a ≤ S4x512x512.size a), EltTy.bits .bf16 = 32 ∨ (Rect.block (s := S4x512x512) S1x512x512.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S65536x512 : Shape := ⟨2, ![65536, 512]⟩
abbrev S1x65536x2 : Shape := ⟨3, ![1, 65536, 2]⟩
abbrev S4x512x512 : Shape := ⟨3, ![4, 512, 512]⟩
abbrev S65536x2 : Shape := ⟨2, ![65536, 2]⟩
abbrev S_ : Shape := ⟨0, ![]⟩
abbrev S65536x1 : Shape := ⟨2, ![65536, 1]⟩
abbrev S65536 : Shape := ⟨1, ![65536]⟩
abbrev S1x512x512 : Shape := ⟨3, ![1, 512, 512]⟩
abbrev S512x512 : Shape := ⟨2, ![512, 512]⟩

abbrev nBuf : Space → Nat
  | .hbm => 121
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1x65536x2, .f32⟩
  | .hbm, ⟨2, _⟩ => ⟨S4x512x512, .f32⟩
  | .hbm, ⟨3, _⟩ => ⟨S65536x2, .f32⟩
  | .hbm, ⟨4, _⟩ => ⟨S_, .f32⟩
  | .hbm, ⟨5, _⟩ => ⟨S65536x2, .f32⟩
  | .hbm, ⟨6, _⟩ => ⟨S65536x2, .f32⟩
  | .hbm, ⟨7, _⟩ => ⟨S65536x1, .f32⟩
  | .hbm, ⟨8, _⟩ => ⟨S65536, .f32⟩
  | .hbm, ⟨9, _⟩ => ⟨S65536, .f32⟩
  | .hbm, ⟨10, _⟩ => ⟨S65536, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S_, .i1⟩
  | .hbm, ⟨27, _⟩ => ⟨S65536, .i1⟩
  | .hbm, ⟨28, _⟩ => ⟨S65536, .i1⟩
  | .hbm, ⟨29, _⟩ => ⟨S65536, .i1⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .f32⟩
  | .hbm, ⟨34, _⟩ => ⟨S65536, .f32⟩
  | .hbm, ⟨35, _⟩ => ⟨S65536, .f32⟩
  | .hbm, ⟨36, _⟩ => ⟨S65536, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S_, .i1⟩
  | .hbm, ⟨53, _⟩ => ⟨S65536, .i1⟩
  | .hbm, ⟨54, _⟩ => ⟨S65536, .i1⟩
  | .hbm, ⟨55, _⟩ => ⟨S65536, .i1⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S_, .f32⟩
  | .hbm, ⟨64, _⟩ => ⟨S65536x512, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S65536x1, .i1⟩
  | .hbm, ⟨69, _⟩ => ⟨S1x512x512, .f32⟩
  | .hbm, ⟨70, _⟩ => ⟨S512x512, .f32⟩
  | .hbm, ⟨71, _⟩ => ⟨S512x512, .f32⟩
  | .hbm, ⟨72, _⟩ => ⟨S65536x512, .f32⟩
  | .hbm, ⟨73, _⟩ => ⟨S_, .f32⟩
  | .hbm, ⟨74, _⟩ => ⟨S65536x512, .i1⟩
  | .hbm, ⟨75, _⟩ => ⟨S65536x512, .f32⟩
  | .hbm, ⟨76, _⟩ => ⟨S65536x512, .f32⟩
  | .hbm, ⟨77, _⟩ => ⟨S65536x512, .f32⟩
  | .hbm, ⟨78, _⟩ => ⟨S_, .i32⟩
  | .hbm, ⟨79, _⟩ => ⟨S65536, .i32⟩
  | .hbm, ⟨80, _⟩ => ⟨S65536, .i1⟩
  | .hbm, ⟨81, _⟩ => ⟨S65536x1, .i1⟩
  | .hbm, ⟨82, _⟩ => ⟨S1x512x512, .f32⟩
  | .hbm, ⟨83, _⟩ => ⟨S512x512, .f32⟩
  | .hbm, ⟨84, _⟩ => ⟨S512x512, .f32⟩
  | .hbm, ⟨85, _⟩ => ⟨S65536x512, .f32⟩
  | .hbm, ⟨86, _⟩ => ⟨S_, .f32⟩
  | .hbm, ⟨87, _⟩ => ⟨S65536x512, .i1⟩
  | .hbm, ⟨88, _⟩ => ⟨S65536x512, .f32⟩
  | .hbm, ⟨89, _⟩ => ⟨S65536x512, .f32⟩
  | .hbm, ⟨90, _⟩ => ⟨S65536x512, .f32⟩
  | .hbm, ⟨91, _⟩ => ⟨S_, .i32⟩
  | .hbm, ⟨92, _⟩ => ⟨S65536, .i32⟩
  | .hbm, ⟨93, _⟩ => ⟨S65536, .i1⟩
  | .hbm, ⟨94, _⟩ => ⟨S65536x1, .i1⟩
  | .hbm, ⟨95, _⟩ => ⟨S1x512x512, .f32⟩
  | .hbm, ⟨96, _⟩ => ⟨S512x512, .f32⟩
  | .hbm, ⟨97, _⟩ => ⟨S512x512, .f32⟩
  | .hbm, ⟨98, _⟩ => ⟨S65536x512, .f32⟩
  | .hbm, ⟨99, _⟩ => ⟨S_, .f32⟩
  | .hbm, ⟨100, _⟩ => ⟨S65536x512, .i1⟩
  | .hbm, ⟨101, _⟩ => ⟨S65536x512, .f32⟩
  | .hbm, ⟨102, _⟩ => ⟨S65536x512, .f32⟩
  | .hbm, ⟨103, _⟩ => ⟨S65536x512, .f32⟩
  | .hbm, ⟨104, _⟩ => ⟨S_, .i32⟩
  | .hbm, ⟨105, _⟩ => ⟨S65536, .i32⟩
  | .hbm, ⟨106, _⟩ => ⟨S65536, .i1⟩
  | .hbm, ⟨107, _⟩ => ⟨S65536x1, .i1⟩
  | .hbm, ⟨108, _⟩ => ⟨S1x512x512, .f32⟩
  | .hbm, ⟨109, _⟩ => ⟨S512x512, .f32⟩
  | .hbm, ⟨110, _⟩ => ⟨S512x512, .f32⟩
  | .hbm, ⟨111, _⟩ => ⟨S65536x512, .f32⟩
  | .hbm, ⟨112, _⟩ => ⟨S_, .f32⟩
  | .hbm, ⟨113, _⟩ => ⟨S65536x512, .i1⟩
  | .hbm, ⟨114, _⟩ => ⟨S65536x512, .f32⟩
  | .hbm, ⟨115, _⟩ => ⟨S65536x512, .f32⟩
  | .hbm, ⟨116, _⟩ => ⟨S65536x512, .f32⟩
  | .hbm, ⟨117, _⟩ => ⟨S_, .f32⟩
  | .hbm, ⟨118, _⟩ => ⟨S65536x512, .f32⟩
  | .hbm, ⟨119, _⟩ => ⟨S65536x512, .f32⟩
  | .hbm, ⟨120, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v12 : Ref sig .tc := ⟨.hbm, 58, rfl⟩
abbrev main_c_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_2 : Ref sig .tc := ⟨.hbm, 63, rfl⟩
abbrev main_v16 : Ref sig .tc := ⟨.hbm, 64, rfl⟩
abbrev main_c_3 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_v24 : Ref sig .tc := ⟨.hbm, 76, rfl⟩
abbrev main_v25 : Ref sig .tc := ⟨.hbm, 77, rfl⟩
abbrev main_c_5 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_6 : Ref sig .tc := ⟨.hbm, 86, rfl⟩
abbrev main_call3_v0 : Ref sig .tc := ⟨.hbm, 87, rfl⟩
abbrev main_call3_v1 : Ref sig .tc := ⟨.hbm, 88, rfl⟩
abbrev main_v33 : Ref sig .tc := ⟨.hbm, 89, rfl⟩
abbrev main_v34 : Ref sig .tc := ⟨.hbm, 90, rfl⟩
abbrev main_c_7 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_8 : Ref sig .tc := ⟨.hbm, 99, rfl⟩
abbrev main_call4_v0 : Ref sig .tc := ⟨.hbm, 100, rfl⟩
abbrev main_call4_v1 : Ref sig .tc := ⟨.hbm, 101, rfl⟩
abbrev main_v42 : Ref sig .tc := ⟨.hbm, 102, rfl⟩
abbrev main_v43 : Ref sig .tc := ⟨.hbm, 103, rfl⟩
abbrev main_c_9 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_10 : Ref sig .tc := ⟨.hbm, 112, rfl⟩
abbrev main_call5_v0 : Ref sig .tc := ⟨.hbm, 113, rfl⟩
abbrev main_call5_v1 : Ref sig .tc := ⟨.hbm, 114, rfl⟩
abbrev main_v51 : Ref sig .tc := ⟨.hbm, 115, rfl⟩
abbrev main_v52 : Ref sig .tc := ⟨.hbm, 116, rfl⟩
abbrev main_cst_11 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩

abbrev nD : Nat := 1
abbrev τ : Topo := Topo.v7x

variable {F : FTy → Type} [FloatOps F]

class Facts₀ : Prop where
  shapeCasts_S1x65536x2_S65536x2 : S1x65536x2.ShapeCasts S65536x2
  bcast_S_S65536x2 : S_.BroadcastsInDim S65536x2 (![] : Fin 0 → Fin S65536x2.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  slices_S65536x2_S65536x1_0_1 : S65536x2.Slices ![0, 1] S65536x1
  bcast_S_S65536x512 : S_.BroadcastsInDim S65536x512 (![] : Fin 0 → Fin S65536x512.rank)
  bcast_S65536_S65536x1_0 : S65536.BroadcastsInDim S65536x1 (![0] : Fin 1 → Fin S65536x1.rank)
  slices_S4x512x512_S1x512x512_0_0_0 : S4x512x512.Slices ![0, 0, 0] S1x512x512
  shapeCasts_S1x512x512_S512x512 : S1x512x512.ShapeCasts S512x512
  transposes_S512x512_S512x512_1_0 : S512x512.Transposes [1, 0] S512x512
  bcast_S65536x1_S65536x512_0_1 : S65536x1.BroadcastsInDim S65536x512 (![0, 1] : Fin 2 → Fin S65536x512.rank)
  slices_S4x512x512_S1x512x512_1_0_0 : S4x512x512.Slices ![1, 0, 0] S1x512x512
  slices_S4x512x512_S1x512x512_2_0_0 : S4x512x512.Slices ![2, 0, 0] S1x512x512
  slices_S4x512x512_S1x512x512_3_0_0 : S4x512x512.Slices ![3, 0, 0] S1x512x512
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.TableOkBits.lean ====
/-
  The routed kernel's one prefetched table holds, for each of the 68 row blocks, the expert whose weights the block
  is multiplied by: the number of padded group boundaries at or below the block's first row, capped at 3. Whatever
  the boundaries are, that word is a sum of four words each 0 or 1 — so at most 4 — and its signed minimum with 3 is
  one of 0, 1, 2, 3. The weight window's block (table word, 0, 0) of extent [1, 512, 512] therefore lies inside the
  [4, 512, 512] weight array at every grid point, and its 512 rows are whole words at two elements a word: the
  pipeline's side condition on the table holds for EVERY launch memory, with no appeal to the precondition.
-/
import proofs.«132175_j34754875359890_2_alg».proof.Proof.Gen.Kernel.Frame
import Idealize.ShloMosaic.PureOps.Reduce

set_option maxRecDepth 16384

noncomputable section

namespace Cert.Kernel.TableOk

open Cert.Kernel Cert.Kernel.Gen
open Idealize.ShloMosaic Idealize.ShloMosaic.TcCoe Idealize.SL.Sem

variable {F : FTy → Type} [FloatOps F]

/-- A wrapping sum of words that are each 0 or 1, over fewer than 2^31 places, is at most the number of places. -/
theorem fold_addi_le {ι : Type} [DecidableEq ι] (s : Finset ι) (g : ι → BitVec 32) (hg : ∀ k, (g k).toNat ≤ 1)
    (hs : s.card < 2 ^ 31) : (s.fold IntOp.addi 0#32 g).toNat ≤ s.card := by
  induction s using Finset.induction_on with
  | empty => simp
  | insert a s ha ih =>
    rw [Finset.card_insert_of_notMem ha] at hs
    rw [Finset.fold_insert ha, Finset.card_insert_of_notMem ha]
    have h1 := hg a
    have h2 := ih (by omega)
    show (g a + s.fold IntOp.addi 0#32 g).toNat ≤ _
    rw [BitVec.toNat_add]
    omega

/-- The signed minimum of a word in 0..4 with 3 is one of 0, 1, 2, 3. -/
theorem minsi_three (x : BitVec 32) (hx : x.toNat ≤ 4) : (IntOp.minsi x 3#32).toNat < 4 := by
  have hx' : x = BitVec.ofNat 32 x.toNat := by simp
  obtain h | h | h | h | h : x.toNat = 0 ∨ x.toNat = 1 ∨ x.toNat = 2 ∨ x.toNat = 3 ∨ x.toNat = 4 := by omega
  all_goals (rw [hx', h]; decide)

/-- A one-bit word widened to 32 bits is 0 or 1. -/
theorem extui_le_one (b : BitVec 1) : (b.setWidth 32).toNat ≤ 1 := by
  rw [BitVec.toNat_setWidth]
  have := b.isLt
  omega

/-- The capped count of any four one-bit flags per block is below 4. -/
theorem capped_count_lt (X : IVec S68x4 1) (x : S68.Idx) :
    (minsi (Host.reduce IntOp.addi (extui 32 X natLt_1_32) (constantI S_ 32 0#32) reducesTo_S68x4_S68_d1 h_S_)
      (broadcastInDim S68 ![] bcast_S_S68 (constantI S_ 32 3#32)) x).toNat < 4 := by
  show (IntOp.minsi (Host.reduce IntOp.addi (extui 32 X natLt_1_32) (constantI S_ 32 0#32) reducesTo_S68x4_S68_d1 h_S_ x) 3#32).toNat < 4
  refine minsi_three _ ?_
  rw [Host.reduce_eq_fold_single IntOp.addi _ _ reducesTo_S68x4_S68_d1 (by decide : S68x4.Reduces [1] S68) h_S_ x]
  refine (fold_addi_le Finset.univ _ (fun k => extui_le_one _) ?_).trans ?_
  · rw [Finset.card_univ, Fintype.card_fin]; decide
  · rw [Finset.card_univ, Fintype.card_fin]; decide

variable (m : (ℓ : Loc nD τ sig) → Buf (Elt F) ℓ)

/-- Every word of the table, as the region finds it, is below 4: the table is written by the last stretch of host
    operations before the region, whose operands the earlier stretches leave at contents that do not matter here. -/
theorem tbl_lt (x : S68.Idx) : (tbl m 0 x).toNat < 4 := by
  have hsplit : (List.flatten [hostOps0, hostOps0_1, hostOps0_2, hostOps0_3, hostOps0_4, hostOps0_5, hostOps0_6, hostOps0_7,
        hostOps0_8, hostOps0_9, hostOps0_10, hostOps0_11, hostOps0_12, hostOps0_13, hostOps0_14] : List (HloOp τ sig (Elt F)))
      = List.flatten [hostOps0, hostOps0_1, hostOps0_2, hostOps0_3, hostOps0_4, hostOps0_5, hostOps0_6, hostOps0_7,
        hostOps0_8, hostOps0_9, hostOps0_10, hostOps0_11, hostOps0_12, hostOps0_13] ++ hostOps0_14 := by
    simp only [List.flatten_cons, List.flatten_nil, List.append_nil, List.append_assoc]
  show (StableHlo.after (List.flatten [hostOps0, hostOps0_1, hostOps0_2, hostOps0_3, hostOps0_4, hostOps0_5, hostOps0_6, hostOps0_7,
        hostOps0_8, hostOps0_9, hostOps0_10, hostOps0_11, hostOps0_12, hostOps0_13, hostOps0_14]) (fun b => m ((0 : Dev nD), b))
      (Proc.devRef .tc main_v71) x).toNat < 4
  rw [hsplit, StableHlo.after_append]
  generalize StableHlo.after (List.flatten [hostOps0, hostOps0_1, hostOps0_2, hostOps0_3, hostOps0_4, hostOps0_5, hostOps0_6, hostOps0_7,
        hostOps0_8, hostOps0_9, hostOps0_10, hostOps0_11, hostOps0_12, hostOps0_13]) (fun b => m ((0 : Dev nD), b)) = W
  have e : StableHlo.after hostOps0_14 W (Proc.devRef .tc main_v71)
      = minsi (Host.reduce IntOp.addi (extui 32 (cmpi .sge
            (broadcastInDim S68x4 ![0, 1] bcast_S68x1_S68x4_0_1 (broadcastInDim S68x1 ![0] bcast_S68_S68x1_0 (W (Proc.devRef .tc main_v61))))
            (broadcastInDim S68x4 ![0, 1] bcast_S1x4_S68x4_0_1 (broadcastInDim S1x4 ![1] bcast_S4_S1x4_1 (W (Proc.devRef .tc main_v62))))) natLt_1_32)
          (constantI S_ 32 0#32) reducesTo_S68x4_S68_d1 h_S_)
        (broadcastInDim S68 ![] bcast_S_S68 (constantI S_ 32 3#32)) := by
    simp only [hostOps0_14]
    after_results
  rw [e]
  exact capped_count_lt _ x

/-- The pipeline's side condition on the table, of any launch memory. -/
theorem ok (m : (ℓ : Loc nD τ sig) → Buf (Elt F) ℓ) : Ok m := by
  intro i
  obtain ⟨w, hw, e⟩ : ∃ w : BitVec 32, w.toNat < 4 ∧ cc0_transform_1 k0_off1_inb numel1_S1 (tbl m) i = ![w.toNat, 0, 0] :=
    ⟨_, tbl_lt m _, rfl⟩
  have hin : ∀ a, (cc0_transform_1 k0_off1_inb numel1_S1 (tbl m) i a + 1) * S1x512x512.size a ≤ S4x512x512.size a := by
    intro a
    rw [e]
    fin_cases a <;> simp [S1x512x512, S4x512x512] <;> omega
  exact ⟨hin, Or.inr (Affine.block_words_dvd (of_decide_eq_true rfl) (by decide))⟩

end Cert.Kernel.TableOk

end
-- ==== Proof.TableOkIdeal.lean ====
/-
  The routed kernel's one prefetched table holds, for each of the 68 row blocks, the expert whose weights the block
  is multiplied by: the number of padded group boundaries at or below the block's first row, capped at 3. Whatever
  the boundaries are, that word is a sum of four words each 0 or 1 — so at most 4 — and its signed minimum with 3 is
  one of 0, 1, 2, 3. The weight window's block (table word, 0, 0) of extent [1, 512, 512] therefore lies inside the
  [4, 512, 512] weight array at every grid point, and its 512 rows are whole words at two elements a word: the
  pipeline's side condition on the table holds for EVERY launch memory, with no appeal to the precondition.
-/
import proofs.«132175_j34754875359890_2_alg».proof.Proof.Gen.KernelIdeal.Frame
import Idealize.ShloMosaic.PureOps.Reduce

set_option maxRecDepth 16384

noncomputable section

namespace Cert.KernelIdeal.TableOk

open Cert.KernelIdeal Cert.KernelIdeal.Gen
open Idealize.ShloMosaic Idealize.ShloMosaic.TcCoe Idealize.SL.Sem

variable {F : FTy → Type} [FloatOps F]

/-- A wrapping sum of words that are each 0 or 1, over fewer than 2^31 places, is at most the number of places. -/
theorem fold_addi_le {ι : Type} [DecidableEq ι] (s : Finset ι) (g : ι → BitVec 32) (hg : ∀ k, (g k).toNat ≤ 1)
    (hs : s.card < 2 ^ 31) : (s.fold IntOp.addi 0#32 g).toNat ≤ s.card := by
  induction s using Finset.induction_on with
  | empty => simp
  | insert a s ha ih =>
    rw [Finset.card_insert_of_notMem ha] at hs
    rw [Finset.fold_insert ha, Finset.card_insert_of_notMem ha]
    have h1 := hg a
    have h2 := ih (by omega)
    show (g a + s.fold IntOp.addi 0#32 g).toNat ≤ _
    rw [BitVec.toNat_add]
    omega

/-- The signed minimum of a word in 0..4 with 3 is one of 0, 1, 2, 3. -/
theorem minsi_three (x : BitVec 32) (hx : x.toNat ≤ 4) : (IntOp.minsi x 3#32).toNat < 4 := by
  have hx' : x = BitVec.ofNat 32 x.toNat := by simp
  obtain h | h | h | h | h : x.toNat = 0 ∨ x.toNat = 1 ∨ x.toNat = 2 ∨ x.toNat = 3 ∨ x.toNat = 4 := by omega
  all_goals (rw [hx', h]; decide)

/-- A one-bit word widened to 32 bits is 0 or 1. -/
theorem extui_le_one (b : BitVec 1) : (b.setWidth 32).toNat ≤ 1 := by
  rw [BitVec.toNat_setWidth]
  have := b.isLt
  omega

/-- The capped count of any four one-bit flags per block is below 4. -/
theorem capped_count_lt (X : IVec S68x4 1) (x : S68.Idx) :
    (minsi (Host.reduce IntOp.addi (extui 32 X natLt_1_32) (constantI S_ 32 0#32) reducesTo_S68x4_S68_d1 h_S_)
      (broadcastInDim S68 ![] bcast_S_S68 (constantI S_ 32 3#32)) x).toNat < 4 := by
  show (IntOp.minsi (Host.reduce IntOp.addi (extui 32 X natLt_1_32) (constantI S_ 32 0#32) reducesTo_S68x4_S68_d1 h_S_ x) 3#32).toNat < 4
  refine minsi_three _ ?_
  rw [Host.reduce_eq_fold_single IntOp.addi _ _ reducesTo_S68x4_S68_d1 (by decide : S68x4.Reduces [1] S68) h_S_ x]
  refine (fold_addi_le Finset.univ _ (fun k => extui_le_one _) ?_).trans ?_
  · rw [Finset.card_univ, Fintype.card_fin]; decide
  · rw [Finset.card_univ, Fintype.card_fin]; decide

variable (m : (ℓ : Loc nD τ sig) → Buf (Elt F) ℓ)

/-- Every word of the table, as the region finds it, is below 4: the table is written by the last stretch of host
    operations before the region, whose operands the earlier stretches leave at contents that do not matter here. -/
theorem tbl_lt (x : S68.Idx) : (tbl m 0 x).toNat < 4 := by
  have hsplit : (List.flatten [hostOps0, hostOps0_1, hostOps0_2, hostOps0_3, hostOps0_4, hostOps0_5, hostOps0_6, hostOps0_7,
        hostOps0_8, hostOps0_9, hostOps0_10, hostOps0_11, hostOps0_12, hostOps0_13, hostOps0_14] : List (HloOp τ sig (Elt F)))
      = List.flatten [hostOps0, hostOps0_1, hostOps0_2, hostOps0_3, hostOps0_4, hostOps0_5, hostOps0_6, hostOps0_7,
        hostOps0_8, hostOps0_9, hostOps0_10, hostOps0_11, hostOps0_12, hostOps0_13] ++ hostOps0_14 := by
    simp only [List.flatten_cons, List.flatten_nil, List.append_nil, List.append_assoc]
  show (StableHlo.after (List.flatten [hostOps0, hostOps0_1, hostOps0_2, hostOps0_3, hostOps0_4, hostOps0_5, hostOps0_6, hostOps0_7,
        hostOps0_8, hostOps0_9, hostOps0_10, hostOps0_11, hostOps0_12, hostOps0_13, hostOps0_14]) (fun b => m ((0 : Dev nD), b))
      (Proc.devRef .tc main_v71) x).toNat < 4
  rw [hsplit, StableHlo.after_append]
  generalize StableHlo.after (List.flatten [hostOps0, hostOps0_1, hostOps0_2, hostOps0_3, hostOps0_4, hostOps0_5, hostOps0_6, hostOps0_7,
        hostOps0_8, hostOps0_9, hostOps0_10, hostOps0_11, hostOps0_12, hostOps0_13]) (fun b => m ((0 : Dev nD), b)) = W
  have e : StableHlo.after hostOps0_14 W (Proc.devRef .tc main_v71)
      = minsi (Host.reduce IntOp.addi (extui 32 (cmpi .sge
            (broadcastInDim S68x4 ![0, 1] bcast_S68x1_S68x4_0_1 (broadcastInDim S68x1 ![0] bcast_S68_S68x1_0 (W (Proc.devRef .tc main_v61))))
            (broadcastInDim S68x4 ![0, 1] bcast_S1x4_S68x4_0_1 (broadcastInDim S1x4 ![1] bcast_S4_S1x4_1 (W (Proc.devRef .tc main_v62))))) natLt_1_32)
          (constantI S_ 32 0#32) reducesTo_S68x4_S68_d1 h_S_)
        (broadcastInDim S68 ![] bcast_S_S68 (constantI S_ 32 3#32)) := by
    simp only [hostOps0_14]
    after_results
  rw [e]
  exact capped_count_lt _ x

/-- The pipeline's side condition on the table, of any launch memory. -/
theorem ok (m : (ℓ : Loc nD τ sig) → Buf (Elt F) ℓ) : Ok m := by
  intro i
  obtain ⟨w, hw, e⟩ : ∃ w : BitVec 32, w.toNat < 4 ∧ cc0_transform_1 k0_off1_inb numel1_S1 (tbl m) i = ![w.toNat, 0, 0] :=
    ⟨_, tbl_lt m _, rfl⟩
  have hin : ∀ a, (cc0_transform_1 k0_off1_inb numel1_S1 (tbl m) i a + 1) * S1x512x512.size a ≤ S4x512x512.size a := by
    intro a
    rw [e]
    fin_cases a <;> simp [S1x512x512, S4x512x512] <;> omega
  exact ⟨hin, Or.inr (Affine.block_words_dvd (of_decide_eq_true rfl) (by decide))⟩

end Cert.KernelIdeal.TableOk

end
-- ==== Proof.RefRun.lean ====
/-
  The reference program's @main as the list of its 118 host operations, in order — the tile computation with the two
  calls of the integer remainder written out at their call sites over each call's own buffers, then for each of the
  four experts the expert's weight slice transposed, the product with the features, the select on "this row's tile is
  this expert" written out at its call site, and the running sum, and last the scaling by 30 and the sine — and its run
  read back: every weakly fair execution of @main terminates with each buffer at the operations' fold over the launch
  contents. None of the operations writes an argument, so the three argument arrays end as they started.
  The list is cut where the printed @main is cut (after its 60th statement), so that each half is compared with its
  own printed window.
-/
import proofs.«132175_j34754875359890_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first printed window's operations: the tile of every row, and the masked products of experts 0, 1, 2 with
    their running sum, up to the slice of expert 3's weights. -/
abbrev ops0 : List (HloOp τ sig (Elt F)) :=
  [ reshape main_arg1 main_v0 rfl shapeCasts_S1x65536x2_S65536x2,
    nullary main_cst (constant S_ .f32 0x41800000#32),
    unary main_cst main_v1 (broadcastInDim S65536x2 ![] bcast_S_S65536x2 : (⟨S_, .f32⟩ : BufTy).Contents (Elt F) → (⟨S65536x2, .f32⟩ : BufTy).Contents (Elt F)),
    binary main_v0 main_v1 main_v2 (mulf : (⟨S65536x2, .f32⟩ : BufTy).Contents (Elt F) → (⟨S65536x2, .f32⟩ : BufTy).Contents (Elt F) → (⟨S65536x2, .f32⟩ : BufTy).Contents (Elt F)),
    unary main_v2 main_v3 ((extractStridedSlice S65536x1 ![0, 0] · slices_S65536x2_S65536x1_0_0) : (⟨S65536x2, .f32⟩ : BufTy).Contents (Elt F) → (⟨S65536x1, .f32⟩ : BufTy).Contents (Elt F)),
    reshape main_v3 main_v4 rfl shapeCasts_S65536x1_S65536,
    unary main_v4 main_v5 (Host.floor : (⟨S65536, .f32⟩ : BufTy).Contents (Elt F) → (⟨S65536, .f32⟩ : BufTy).Contents (Elt F)),
    unary main_v5 main_v6 (fptosi 32 : (⟨S65536, .f32⟩ : BufTy).Contents (Elt F) → (⟨S65536, .i32⟩ : BufTy).Contents (Elt F)),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S65536 ![] bcast_S_S65536),
    TRef.binary (.of main_v6 : TRef sig ⟨S65536, .i32⟩) main_call0.v3 main_call0.v4 Host.remsi,
    TRef.nullary main_call0.c_1 (constantI S_ 32 0#32),
    TRef.unary main_call0.c_1 main_call0.v5 (broadcastInDim S65536 ![] bcast_S_S65536),
    TRef.binary main_call0.v4 main_call0.v5 main_call0.v6 (cmpi .ne),
    TRef.nullary main_call0.c_2 (constantI S_ 32 0#32),
    TRef.unary main_call0.c_2 main_call0.v7 (broadcastInDim S65536 ![] bcast_S_S65536),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S65536 ![] bcast_S_S65536),
    TRef.binary main_call0.v8 main_call0.v10 main_call0.v11 (cmpi .ne),
    TRef.binary main_call0.v11 main_call0.v6 main_call0.v12 andi,
    TRef.unary main_call0.call0.v0 main_call0.v13 (broadcastInDim S65536 ![] bcast_S_S65536),
    TRef.binary main_call0.v4 main_call0.v13 main_call0.v14 addi,
    TRef.ternary main_call0.v12 main_call0.v14 main_call0.v4 main_call0.v15 select,
    unary main_v2 main_v8 ((extractStridedSlice S65536x1 ![0, 1] · slices_S65536x2_S65536x1_0_1) : (⟨S65536x2, .f32⟩ : BufTy).Contents (Elt F) → (⟨S65536x1, .f32⟩ : BufTy).Contents (Elt F)),
    reshape main_v8 main_v9 rfl shapeCasts_S65536x1_S65536,
    unary main_v9 main_v10 (Host.floor : (⟨S65536, .f32⟩ : BufTy).Contents (Elt F) → (⟨S65536, .f32⟩ : BufTy).Contents (Elt F)),
    unary main_v10 main_v11 (fptosi 32 : (⟨S65536, .f32⟩ : BufTy).Contents (Elt F) → (⟨S65536, .i32⟩ : BufTy).Contents (Elt F)),
    nullary main_c_0 (constantI S_ 32 2#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S65536 ![] bcast_S_S65536),
    TRef.binary (.of main_v11 : TRef sig ⟨S65536, .i32⟩) main_call1.v3 main_call1.v4 Host.remsi,
    TRef.nullary main_call1.c_1 (constantI S_ 32 0#32),
    TRef.unary main_call1.c_1 main_call1.v5 (broadcastInDim S65536 ![] bcast_S_S65536),
    TRef.binary main_call1.v4 main_call1.v5 main_call1.v6 (cmpi .ne),
    TRef.nullary main_call1.c_2 (constantI S_ 32 0#32),
    TRef.unary main_call1.c_2 main_call1.v7 (broadcastInDim S65536 ![] bcast_S_S65536),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S65536 ![] bcast_S_S65536),
    TRef.binary main_call1.v8 main_call1.v10 main_call1.v11 (cmpi .ne),
    TRef.binary main_call1.v11 main_call1.v6 main_call1.v12 andi,
    TRef.unary main_call1.call0.v0 main_call1.v13 (broadcastInDim S65536 ![] bcast_S_S65536),
    TRef.binary main_call1.v4 main_call1.v13 main_call1.v14 addi,
    TRef.ternary main_call1.v12 main_call1.v14 main_call1.v4 main_call1.v15 select,
    nullary main_c_1 (constantI S_ 32 2#32),
    unary main_c_1 main_v13 (broadcastInDim S65536 ![] bcast_S_S65536 : (⟨S_, .i32⟩ : BufTy).Contents (Elt F) → (⟨S65536, .i32⟩ : BufTy).Contents (Elt F)),
    binary main_v13 main_v7 main_v14 (muli : (⟨S65536, .i32⟩ : BufTy).Contents (Elt F) → (⟨S65536, .i32⟩ : BufTy).Contents (Elt F) → (⟨S65536, .i32⟩ : BufTy).Contents (Elt F)),
    binary main_v14 main_v12 main_v15 (addi : (⟨S65536, .i32⟩ : BufTy).Contents (Elt F) → (⟨S65536, .i32⟩ : BufTy).Contents (Elt F) → (⟨S65536, .i32⟩ : BufTy).Contents (Elt F)),
    nullary main_cst_2 (constant S_ .f32 0x00000000#32),
    unary main_cst_2 main_v16 (broadcastInDim S65536x512 ![] bcast_S_S65536x512 : (⟨S_, .f32⟩ : BufTy).Contents (Elt F) → (⟨S65536x512, .f32⟩ : BufTy).Contents (Elt F)),
    nullary main_c_3 (constantI S_ 32 0#32),
    unary main_c_3 main_v17 (broadcastInDim S65536 ![] bcast_S_S65536 : (⟨S_, .i32⟩ : BufTy).Contents (Elt F) → (⟨S65536, .i32⟩ : BufTy).Contents (Elt F)),
    binary main_v15 main_v17 main_v18 (cmpi .eq : (⟨S65536, .i32⟩ : BufTy).Contents (Elt F) → (⟨S65536, .i32⟩ : BufTy).Contents (Elt F) → (⟨S65536, .i1⟩ : BufTy).Contents (Elt F)),
    unary main_v18 main_v19 (broadcastInDim S65536x1 ![0] bcast_S65536_S65536x1_0 : (⟨S65536, .i1⟩ : BufTy).Contents (Elt F) → (⟨S65536x1, .i1⟩ : BufTy).Contents (Elt F)),
    unary main_arg2 main_v20 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v20 main_v21 rfl shapeCasts_S1x512x512_S512x512,
    unary main_v21 main_v22 ((transpose S512x512 [1, 0] · transposes_S512x512_S512x512_1_0) : (⟨S512x512, .f32⟩ : BufTy).Contents (Elt F) → (⟨S512x512, .f32⟩ : BufTy).Contents (Elt F)),
    binary main_arg0 main_v22 main_v23 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_4 (constant S_ .f32 0x00000000#32),
    TRef.unary (.of main_v19 : TRef sig ⟨S65536x1, .i1⟩) main_call2.v0 (broadcastInDim S65536x512 ![0, 1] bcast_S65536x1_S65536x512_0_1),
    TRef.unary (.of main_cst_4 : TRef sig ⟨S_, .f32⟩) main_call2.v1 (broadcastInDim S65536x512 ![] bcast_S_S65536x512),
    TRef.ternary main_call2.v0 (.of main_v23 : TRef sig ⟨S65536x512, .f32⟩) main_call2.v1 main_call2.v2 select,
    binary main_v16 main_v24 main_v25 (addf : (⟨S65536x512, .f32⟩ : BufTy).Contents (Elt F) → (⟨S65536x512, .f32⟩ : BufTy).Contents (Elt F) → (⟨S65536x512, .f32⟩ : BufTy).Contents (Elt F)),
    nullary main_c_5 (constantI S_ 32 1#32),
    unary main_c_5 main_v26 (broadcastInDim S65536 ![] bcast_S_S65536 : (⟨S_, .i32⟩ : BufTy).Contents (Elt F) → (⟨S65536, .i32⟩ : BufTy).Contents (Elt F)),
    binary main_v15 main_v26 main_v27 (cmpi .eq : (⟨S65536, .i32⟩ : BufTy).Contents (Elt F) → (⟨S65536, .i32⟩ : BufTy).Contents (Elt F) → (⟨S65536, .i1⟩ : BufTy).Contents (Elt F)),
    unary main_v27 main_v28 (broadcastInDim S65536x1 ![0] bcast_S65536_S65536x1_0 : (⟨S65536, .i1⟩ : BufTy).Contents (Elt F) → (⟨S65536x1, .i1⟩ : BufTy).Contents (Elt F)),
    unary main_arg2 main_v29 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v29 main_v30 rfl shapeCasts_S1x512x512_S512x512,
    unary main_v30 main_v31 ((transpose S512x512 [1, 0] · transposes_S512x512_S512x512_1_0) : (⟨S512x512, .f32⟩ : BufTy).Contents (Elt F) → (⟨S512x512, .f32⟩ : BufTy).Contents (Elt F)),
    binary main_arg0 main_v31 main_v32 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_6 (constant S_ .f32 0x00000000#32),
    TRef.unary (.of main_v28 : TRef sig ⟨S65536x1, .i1⟩) main_call3.v0 (broadcastInDim S65536x512 ![0, 1] bcast_S65536x1_S65536x512_0_1),
    TRef.unary (.of main_cst_6 : TRef sig ⟨S_, .f32⟩) main_call3.v1 (broadcastInDim S65536x512 ![] bcast_S_S65536x512),
    TRef.ternary main_call3.v0 (.of main_v32 : TRef sig ⟨S65536x512, .f32⟩) main_call3.v1 main_call3.v2 select,
    binary main_v25 main_v33 main_v34 (addf : (⟨S65536x512, .f32⟩ : BufTy).Contents (Elt F) → (⟨S65536x512, .f32⟩ : BufTy).Contents (Elt F) → (⟨S65536x512, .f32⟩ : BufTy).Contents (Elt F)),
    nullary main_c_7 (constantI S_ 32 2#32),
    unary main_c_7 main_v35 (broadcastInDim S65536 ![] bcast_S_S65536 : (⟨S_, .i32⟩ : BufTy).Contents (Elt F) → (⟨S65536, .i32⟩ : BufTy).Contents (Elt F)),
    binary main_v15 main_v35 main_v36 (cmpi .eq : (⟨S65536, .i32⟩ : BufTy).Contents (Elt F) → (⟨S65536, .i32⟩ : BufTy).Contents (Elt F) → (⟨S65536, .i1⟩ : BufTy).Contents (Elt F)),
    unary main_v36 main_v37 (broadcastInDim S65536x1 ![0] bcast_S65536_S65536x1_0 : (⟨S65536, .i1⟩ : BufTy).Contents (Elt F) → (⟨S65536x1, .i1⟩ : BufTy).Contents (Elt F)),
    unary main_arg2 main_v38 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v38 main_v39 rfl shapeCasts_S1x512x512_S512x512,
    unary main_v39 main_v40 ((transpose S512x512 [1, 0] · transposes_S512x512_S512x512_1_0) : (⟨S512x512, .f32⟩ : BufTy).Contents (Elt F) → (⟨S512x512, .f32⟩ : BufTy).Contents (Elt F)),
    binary main_arg0 main_v40 main_v41 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_8 (constant S_ .f32 0x00000000#32),
    TRef.unary (.of main_v37 : TRef sig ⟨S65536x1, .i1⟩) main_call4.v0 (broadcastInDim S65536x512 ![0, 1] bcast_S65536x1_S65536x512_0_1),
    TRef.unary (.of main_cst_8 : TRef sig ⟨S_, .f32⟩) main_call4.v1 (broadcastInDim S65536x512 ![] bcast_S_S65536x512),
    TRef.ternary main_call4.v0 (.of main_v41 : TRef sig ⟨S65536x512, .f32⟩) main_call4.v1 main_call4.v2 select,
    binary main_v34 main_v42 main_v43 (addf : (⟨S65536x512, .f32⟩ : BufTy).Contents (Elt F) → (⟨S65536x512, .f32⟩ : BufTy).Contents (Elt F) → (⟨S65536x512, .f32⟩ : BufTy).Contents (Elt F)),
    nullary main_c_9 (constantI S_ 32 3#32),
    unary main_c_9 main_v44 (broadcastInDim S65536 ![] bcast_S_S65536 : (⟨S_, .i32⟩ : BufTy).Contents (Elt F) → (⟨S65536, .i32⟩ : BufTy).Contents (Elt F)),
    binary main_v15 main_v44 main_v45 (cmpi .eq : (⟨S65536, .i32⟩ : BufTy).Contents (Elt F) → (⟨S65536, .i32⟩ : BufTy).Contents (Elt F) → (⟨S65536, .i1⟩ : BufTy).Contents (Elt F)),
    unary main_v45 main_v46 (broadcastInDim S65536x1 ![0] bcast_S65536_S65536x1_0 : (⟨S65536, .i1⟩ : BufTy).Contents (Elt F) → (⟨S65536x1, .i1⟩ : BufTy).Contents (Elt F)),
    unary main_arg2 main_v47 ((extractStridedSlice S1x512x512 ![3, 0, 0] · slices_S4x512x512_S1x512x512_3_0_0) : (⟨S4x512x512, .f32⟩ : BufTy).Contents (Elt F) → (⟨S1x512x512, .f32⟩ : BufTy).Contents (Elt F)) ]

/-- The second printed window's operations: expert 3's masked product, the last sum, the scaling and the sine. -/
abbrev ops1 : List (HloOp τ sig (Elt F)) :=
  [ reshape main_v47 main_v48 rfl shapeCasts_S1x512x512_S512x512,
    unary main_v48 main_v49 ((transpose S512x512 [1, 0] · transposes_S512x512_S512x512_1_0) : (⟨S512x512, .f32⟩ : BufTy).Contents (Elt F) → (⟨S512x512, .f32⟩ : BufTy).Contents (Elt F)),
    binary main_arg0 main_v49 main_v50 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_10 (constant S_ .f32 0x00000000#32),
    TRef.unary (.of main_v46 : TRef sig ⟨S65536x1, .i1⟩) main_call5.v0 (broadcastInDim S65536x512 ![0, 1] bcast_S65536x1_S65536x512_0_1),
    TRef.unary (.of main_cst_10 : TRef sig ⟨S_, .f32⟩) main_call5.v1 (broadcastInDim S65536x512 ![] bcast_S_S65536x512),
    TRef.ternary main_call5.v0 (.of main_v50 : TRef sig ⟨S65536x512, .f32⟩) main_call5.v1 main_call5.v2 select,
    binary main_v43 main_v51 main_v52 (addf : (⟨S65536x512, .f32⟩ : BufTy).Contents (Elt F) → (⟨S65536x512, .f32⟩ : BufTy).Contents (Elt F) → (⟨S65536x512, .f32⟩ : BufTy).Contents (Elt F)),
    nullary main_cst_11 (constant S_ .f32 0x41F00000#32),
    unary main_cst_11 main_v53 (broadcastInDim S65536x512 ![] bcast_S_S65536x512 : (⟨S_, .f32⟩ : BufTy).Contents (Elt F) → (⟨S65536x512, .f32⟩ : BufTy).Contents (Elt F)),
    binary main_v53 main_v52 main_v54 (mulf : (⟨S65536x512, .f32⟩ : BufTy).Contents (Elt F) → (⟨S65536x512, .f32⟩ : BufTy).Contents (Elt F) → (⟨S65536x512, .f32⟩ : BufTy).Contents (Elt F)),
    unary main_v54 main_v55 (Host.sin : (⟨S65536x512, .f32⟩ : BufTy).Contents (Elt F) → (⟨S65536x512, .f32⟩ : BufTy).Contents (Elt F)) ]

/-- All of @main's operations, in order. -/
abbrev ops : List (HloOp τ sig (Elt F)) := ops0 ++ ops1

set_option maxRecDepth 8192 in
set_option maxHeartbeats 4000000 in
/-- The first window is its operations run in order: the called functions' bodies unfolded at their calls, the
    sequencing reassociated. -/
theorem part0_eq (c : Dev nD) : main_part0 (F := F) c = seq ops0 := by
  simp only [main_part0, fn_remainder.body, fn_where.body, fn_where_0.body, seq, bind_assoc, pure_bind]
  rfl

set_option maxRecDepth 8192 in
theorem part1_eq (c : Dev nD) : main_part1 (F := F) c = seq ops1 := by
  simp only [main_part1, fn_where_0.body, seq, bind_assoc, pure_bind]

theorem main_eq (c : Dev nD) : main (F := F) c = seq ops := by
  rw [seq_append]
  show (main_part0 (F := F) c >>= fun _ => main_part1 (F := F) c) = _
  rw [part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨reshape_bufs_sub .., nullary_bufs_sub .., unary_bufs_sub .., binary_bufs_sub .., unary_bufs_sub .., reshape_bufs_sub ..,
    unary_bufs_sub .., unary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    unary_bufs_sub .., reshape_bufs_sub .., unary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., binary_bufs_sub ..,
    nullary_bufs_sub .., unary_bufs_sub .., nullary_bufs_sub .., unary_bufs_sub .., binary_bufs_sub .., unary_bufs_sub ..,
    unary_bufs_sub .., reshape_bufs_sub .., unary_bufs_sub .., binary_bufs_sub .., nullary_bufs_sub .., unary_bufs_sub ..,
    unary_bufs_sub .., ternary_bufs_sub .., binary_bufs_sub .., nullary_bufs_sub .., unary_bufs_sub .., binary_bufs_sub ..,
    unary_bufs_sub .., unary_bufs_sub .., reshape_bufs_sub .., unary_bufs_sub .., binary_bufs_sub .., nullary_bufs_sub ..,
    unary_bufs_sub .., unary_bufs_sub .., ternary_bufs_sub .., binary_bufs_sub .., nullary_bufs_sub .., unary_bufs_sub ..,
    binary_bufs_sub .., unary_bufs_sub .., unary_bufs_sub .., reshape_bufs_sub .., unary_bufs_sub .., binary_bufs_sub ..,
    nullary_bufs_sub .., unary_bufs_sub .., unary_bufs_sub .., ternary_bufs_sub .., binary_bufs_sub .., nullary_bufs_sub ..,
    unary_bufs_sub .., binary_bufs_sub .., unary_bufs_sub .., unary_bufs_sub ..⟩

theorem ops1_sub : (ops1 : List (HloOp τ sig (Elt F))).Forall fun op => op.bufs ⊆ tcRefs τ sig :=
  ⟨reshape_bufs_sub .., unary_bufs_sub .., binary_bufs_sub .., nullary_bufs_sub .., unary_bufs_sub .., unary_bufs_sub ..,
    ternary_bufs_sub .., binary_bufs_sub .., nullary_bufs_sub .., unary_bufs_sub .., binary_bufs_sub .., unary_bufs_sub ..⟩

theorem ops_sub : (ops : List (HloOp τ sig (Elt F))).Forall fun op => op.bufs ⊆ tcRefs τ sig :=
  List.forall_iff_forall_mem.mpr fun op hop => (List.mem_append.mp hop).elim
    (List.forall_iff_forall_mem.mp ops0_sub op) (List.forall_iff_forall_mem.mp ops1_sub op)

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the features. -/
theorem arg0_kept0 (V : Valuation τ sig (Elt F)) : after ops0 V (Proc.devRef .tc main_arg0) = V (Proc.devRef .tc main_arg0) :=
  after_of_forall_not_mem (b := Proc.devRef .tc main_arg0) _ _ (List.forall_iff_forall_mem.mp (by
    simp only [ops0, List.Forall, nullary_writes, unary_writes, binary_writes, ternary_writes, reshape_writes, Finset.mem_singleton]
    repeat' apply And.intro
    all_goals exact devRef_ne_of_ne (by decide)))
theorem arg0_kept1 (V : Valuation τ sig (Elt F)) : after ops1 V (Proc.devRef .tc main_arg0) = V (Proc.devRef .tc main_arg0) :=
  after_of_forall_not_mem (b := Proc.devRef .tc main_arg0) _ _ (List.forall_iff_forall_mem.mp (by
    simp only [ops1, List.Forall, nullary_writes, unary_writes, binary_writes, ternary_writes, reshape_writes, Finset.mem_singleton]
    repeat' apply And.intro
    all_goals exact devRef_ne_of_ne (by decide)))
/-- No operation writes the coordinates. -/
theorem arg1_kept0 (V : Valuation τ sig (Elt F)) : after ops0 V (Proc.devRef .tc main_arg1) = V (Proc.devRef .tc main_arg1) :=
  after_of_forall_not_mem (b := Proc.devRef .tc main_arg1) _ _ (List.forall_iff_forall_mem.mp (by
    simp only [ops0, List.Forall, nullary_writes, unary_writes, binary_writes, ternary_writes, reshape_writes, Finset.mem_singleton]
    repeat' apply And.intro
    all_goals exact devRef_ne_of_ne (by decide)))
theorem arg1_kept1 (V : Valuation τ sig (Elt F)) : after ops1 V (Proc.devRef .tc main_arg1) = V (Proc.devRef .tc main_arg1) :=
  after_of_forall_not_mem (b := Proc.devRef .tc main_arg1) _ _ (List.forall_iff_forall_mem.mp (by
    simp only [ops1, List.Forall, nullary_writes, unary_writes, binary_writes, ternary_writes, reshape_writes, Finset.mem_singleton]
    repeat' apply And.intro
    all_goals exact devRef_ne_of_ne (by decide)))
/-- No operation writes the weights. -/
theorem arg2_kept0 (V : Valuation τ sig (Elt F)) : after ops0 V (Proc.devRef .tc main_arg2) = V (Proc.devRef .tc main_arg2) :=
  after_of_forall_not_mem (b := Proc.devRef .tc main_arg2) _ _ (List.forall_iff_forall_mem.mp (by
    simp only [ops0, List.Forall, nullary_writes, unary_writes, binary_writes, ternary_writes, reshape_writes, Finset.mem_singleton]
    repeat' apply And.intro
    all_goals exact devRef_ne_of_ne (by decide)))
theorem arg2_kept1 (V : Valuation τ sig (Elt F)) : after ops1 V (Proc.devRef .tc main_arg2) = V (Proc.devRef .tc main_arg2) :=
  after_of_forall_not_mem (b := Proc.devRef .tc main_arg2) _ _ (List.forall_iff_forall_mem.mp (by
    simp only [ops1, List.Forall, nullary_writes, unary_writes, binary_writes, ternary_writes, reshape_writes, Finset.mem_singleton]
    repeat' apply And.intro
    all_goals exact devRef_ne_of_ne (by decide)))

/-- The whole list keeps each argument: the second window keeps what the first window kept. -/
theorem arg0_kept (V : Valuation τ sig (Elt F)) : after ops V (Proc.devRef .tc main_arg0) = V (Proc.devRef .tc main_arg0) := by
  rw [StableHlo.after_append, arg0_kept1, arg0_kept0]
theorem arg1_kept (V : Valuation τ sig (Elt F)) : after ops V (Proc.devRef .tc main_arg1) = V (Proc.devRef .tc main_arg1) := by
  rw [StableHlo.after_append, arg1_kept1, arg1_kept0]
theorem arg2_kept (V : Valuation τ sig (Elt F)) : after ops V (Proc.devRef .tc main_arg2) = V (Proc.devRef .tc main_arg2) := by
  rw [StableHlo.after_append, arg2_kept1, arg2_kept0]

/-- The reference's frame: it runs, and its three argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (arg0_kept _), (h c main_arg1).trans (arg1_kept _),
    (h c main_arg2).trans (arg2_kept _)⟩) (run_main m ρ)

end Cert.ReferenceIdeal.RefRun

end
-- ==== Proof.BlockProduct.lean ====
/-
  One grid point of the routed kernel. The body loads the point's 1024 × 512 block of (padded, sorted) feature rows and
  the ONE 512 × 512 expert weight block the point's table word names, multiplies them into a zero accumulator, scales
  by 30, takes the sine, and stores the 1024 × 512 result over the whole output block. So what the point leaves in
  the output block is one pure function of the two loaded blocks (the generated skeleton's payload), and at the ideal
  instance that function at row p, column q is  sin (30 · Σ_c rows[p, c] · weights[0, c, q]) :  the matmul into the
  zero splat is the plain sum over the contracted axis, whose index is one coordinate below 512.
-/
import proofs.«132175_j34754875359890_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockProduct

open Cert.KernelIdeal Cert.KernelIdeal.Gen
open Idealize.ShloMosaic Idealize.ShloMosaic.TcCoe Idealize.SL.Sem Idealize.ShloMosaic.ValueIdx

variable {F : FTy → Type} [FloatOps F]

/-- The output block after the body, at any float instance, is the payload of the two loaded blocks: the body's one
    store covers the block, and each load through a whole staging buffer reads the block it holds. -/
theorem stored_eq_payload (c : Dev nD) (i : grid0.Coords) (arg2 : Memref sig .tc .vmem S1024x512 .bf16) (harg2 : arg2.IsWhole)
    (arg3 : Memref sig .tc .vmem S1x512x512 .bf16) (harg3 : arg3.IsWhole) (arg4 : Memref sig .tc .vmem S1024x512 .f32) (harg4 : arg4.IsWhole)
    (x0 : Vec F S1024x512 .bf16) (x1 : Vec F S1x512x512 .bf16) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  rw [View.canon_unit_zero (S := S1024x512) (by funext a; fin_cases a <;> rfl)]
  simp only [View.readAt_eq_ld, harg2.read_unread, harg3.read_unread]
  rw [View.ld_unit_zero (S := S1024x512) (by funext a; fin_cases a <;> rfl), View.ld_unit_zero (S := S1x512x512) (by funext a; fin_cases a <;> rfl)]

/-- The body's contraction: rows [1024, 512] against weights [512, 512] over the rows' axis 1 and the weights' axis 0. -/
abbrev DK := dot_S1024x512_S512x512_S1024x512_1_0_0_1_n_n

theorem DK_rank : DK.contr.rank = 1 := by decide
theorem DK_size : DK.contr.size ⟨0, by rw [DK_rank]; exact Nat.one_pos⟩ = 512 := by decide

/-- The contracted index is one coordinate below 512. -/
def depth : DK.contr.Idx ≃ Fin 512 := contrEquiv1 DK 512 DK_rank DK_size

/-- At output (p, q) and depth c the product reads the rows at (p, c) -/
theorem lhs_at (p : Fin 1024) (q : Fin 512) (c : Fin 512) : DK.lhsIdx (ix2 p q) (depth.symm c) = ix2 p c := by
  funext a
  apply Fin.ext
  match a with
  | ⟨0, _⟩ => simp [DotDims.lhsIdx, DK, dot_S1024x512_S512x512_S1024x512_1_0_0_1_n_n]; rfl
  | ⟨1, _⟩ =>
    refine (DotDims.lhsIdx_val_of_single (d := DK) (cl := (1 : Fin 2)) rfl (ix2 p q) (depth.symm c)).trans ?_
    exact contrEquiv1_symm_val DK 512 DK_rank DK_size c

/-- and the weights at (c, q). -/
theorem rhs_at (p : Fin 1024) (q : Fin 512) (c : Fin 512) : DK.rhsIdx (ix2 p q) (depth.symm c) = ix2 c q := by
  funext a
  apply Fin.ext
  match a with
  | ⟨0, _⟩ =>
    refine (DotDims.rhsIdx_val_of_single (d := DK) (cr := (0 : Fin 2)) rfl (ix2 p q) (depth.symm c)).trans ?_
    exact contrEquiv1_symm_val DK 512 DK_rank DK_size c
  | ⟨1, _⟩ => simp [DotDims.rhsIdx, DK, dot_S1024x512_S512x512_S1024x512_1_0_0_1_n_n]; rfl

/-- THE PAYLOAD AT AN INDEX, at the ideal instance: sin (30 · Σ_c rows[p, c] · weights[0, c, q]). The 30 stays the
    literal's own word: the reference scales by the same word. -/
theorem payload_apply (x0 : Vec Ideal S1024x512 .bf16) (x1 : Vec Ideal S1x512x512 .bf16) (p : Fin 1024) (q : Fin 512) :
    k0_pay1 (F := Ideal) x0 x1 (ix2 p q)
      = Ideal.sin (Ideal.ofBits .f32 0x41F00000#32 * ∑ c : Fin 512, x0 (ix2 p c) * x1 (ix3 (0 : Fin 1) c q)) := by
  unfold k0_pay1
  show Ideal.sin (Ideal.ofBits .f32 0x41F00000#32 * matmul (F := Ideal) DK none (shapeCast S1024x512 x0 shapeCasts_S1024x512_S1024x512)
    (shapeCast S512x512 x1 shapeCasts_S1x512x512_S512x512) (constant (F := Ideal) S1024x512 .f32 0x00000000#32) (ix2 p q)) = _
  refine congrArg (fun z => Ideal.sin (Ideal.ofBits .f32 0x41F00000#32 * z)) ?_
  refine (Ideal.matmul_constant_zero_apply DK none _ _ (ix2 p q)).trans ?_
  rw [← Equiv.sum_comp depth.symm]
  refine Finset.sum_congr rfl fun c _ => ?_
  rw [lhs_at, rhs_at, shapeCast_self, shapeCast_1ab_ab_apply]

end Cert.KernelIdeal.BlockProduct

end
-- ==== Proof.PaddedOutput.lean ====
/-
  The padded output array after the region. Grid point t (68 of them) stages rows t·1024 … t·1024 + 1023 of the padded
  sorted features, and the ONE expert weight block whose number is the table's word t; it writes back rows t·1024 …
  of the padded output. So block t of the padded output is block t of one whole-array function: at padded row r and
  output column q,   sin (30 · Σ_c rows[r, c] · weightsT[expert (r / 1024), c, q]),
  where `expert` is the table read as block ↦ expert. The 68 blocks tile the 69632 rows, so the array ends holding
  that function everywhere. Everything about the pipeline's windows is stated at ARBITRARY admissible table contents
  and used at the launch memory's table only in the last step.
-/
import proofs.«132175_j34754875359890_2_alg».proof.Proof.Gen.KernelIdeal.Frame
import proofs.«132175_j34754875359890_2_alg».proof.Proof.TableOkIdeal
import proofs.«132175_j34754875359890_2_alg».proof.Proof.BlockProduct
import Idealize.ShloMosaic.Lib.Pipeline.Value
import Idealize.ShloMosaic.Lib.ValueIdx

set_option maxRecDepth 16384

noncomputable section

namespace Cert.KernelIdeal.PaddedOutput

open Cert.KernelIdeal Cert.KernelIdeal.Gen Cert.KernelIdeal.BlockProduct
open Idealize.ShloMosaic Idealize.ShloMosaic.TcCoe Idealize.SL.Sem Idealize.ShloMosaic.ValueIdx
open Idealize.ShloMosaic.Pipeline (Dat)

/-! ## The whole-array function -/

/-- Padded row r, output column q: the row times the weight matrix of the row's block's expert, scaled, through sine. -/
def cell (R : S69632x512.Idx → EReal) (Wt : S4x512x512.Idx → EReal) (ex : Fin 68 → Fin 4) (r : Fin 69632) (q : Fin 512) : EReal :=
  Ideal.sin (Ideal.ofBits .f32 0x41F00000#32 * ∑ c : Fin 512, R (ix2 r c) * Wt (ix3 (ex ⟨r.val / 1024, by have := r.isLt; omega⟩) c q))

/-- The padded output as one function of the padded rows, the transposed weights and the block-to-expert map. -/
def padded (R : S69632x512.Idx → EReal) (Wt : S4x512x512.Idx → EReal) (ex : Fin 68 → Fin 4) : S69632x512.Idx → EReal :=
  fun i => cell R Wt ex (i 0) (i 1)

/-! ## The windows, at any admissible table -/

/-- The rows' window and the output's window sit at block (t, 0); the table window's offset is t. -/
theorem idx_facts : ∀ t : Fin grid0.N, cc0_transform_0 (grid0.coords t) = ![t.val, 0] ∧ cc0_transform_2 (grid0.coords t) = ![t.val, 0]
    ∧ k0_off1 (grid0.coords t) = ![t.val] := by
  decide +kernel

variable (a : (pcfg0 (F := Ideal)).Adm)

theorem t_lt (t : Fin (cfg0 a).N) : t.val < 68 := by have h := t.isLt; have hN : (cfg0 a).N = 68 := N_0; omega

theorem win0_index (t : Fin (cfg0 a).N) : ((cfg0 a).win 0).index t = ![t.val, 0] := (idx_facts t).1
theorem win2_index (t : Fin (cfg0 a).N) : ((cfg0 a).win 2).index t = ![t.val, 0] := (idx_facts t).2.1

/-- Block t of a [69632, 512] array read through the rows' window: rows t·1024 + p. -/
theorem rows_read (t : Fin (cfg0 a).N) (f : (⟨S69632x512, .bf16⟩ : BufTy).Contents (Elt Ideal)) (p : Fin 1024) (q : Fin 512) :
    (((cfg0 a).win 0).blk t).view.read (Elt Ideal) f (ix2 p q)
      = f (ix2 (⟨t.val * 1024 + p.val, by have := t_lt a t; have := p.isLt; omega⟩ : Fin 69632) q) := by
  show f ((((cfg0 a).win 0).blk t).view.emb (ix2 p q)) = f (ix2 _ q)
  refine congrArg f ?_
  have e0 := win0_index a t
  funext b
  apply Fin.ext
  match b with
  | ⟨0, _⟩ =>
    show ((cfg0 a).win 0).index t (0 : Fin 2) * 1024 + 1 * p.val = t.val * 1024 + p.val
    have : ((cfg0 a).win 0).index t (0 : Fin 2) = t.val := congrFun e0 (0 : Fin 2)
    omega
  | ⟨1, _⟩ =>
    show ((cfg0 a).win 0).index t (1 : Fin 2) * 512 + 1 * q.val = q.val
    have : ((cfg0 a).win 0).index t (1 : Fin 2) = 0 := congrFun e0 (1 : Fin 2)
    omega

/-- The same through the output's window. -/
theorem out_read (t : Fin (cfg0 a).N) (f : (⟨S69632x512, .f32⟩ : BufTy).Contents (Elt Ideal)) (p : Fin 1024) (q : Fin 512) :
    (((cfg0 a).win 2).blk t).view.read (Elt Ideal) f (ix2 p q)
      = f (ix2 (⟨t.val * 1024 + p.val, by have := t_lt a t; have := p.isLt; omega⟩ : Fin 69632) q) := by
  show f ((((cfg0 a).win 2).blk t).view.emb (ix2 p q)) = f (ix2 _ q)
  refine congrArg f ?_
  have e0 := win2_index a t
  funext b
  apply Fin.ext
  match b with
  | ⟨0, _⟩ =>
    show ((cfg0 a).win 2).index t (0 : Fin 2) * 1024 + 1 * p.val = t.val * 1024 + p.val
    have : ((cfg0 a).win 2).index t (0 : Fin 2) = t.val := congrFun e0 (0 : Fin 2)
    omega
  | ⟨1, _⟩ =>
    show ((cfg0 a).win 2).index t (1 : Fin 2) * 512 + 1 * q.val = q.val
    have : ((cfg0 a).win 2).index t (1 : Fin 2) = 0 := congrFun e0 (1 : Fin 2)
    omega

/-- The one index of a [1] rectangle is 0. -/
theorem first_S1 (h : 0 < S1.numel) : (Shape.Idx.first h (0 : Fin 1)).val = 0 := by
  have h1 := (Shape.Idx.first h (0 : Fin 1)).isLt
  have e : S1.size (0 : Fin 1) = 1 := by decide
  omega

/-- The table word the weight window's index map reads at point t is the table's entry t. -/
theorem word_at (t : Fin (cfg0 a).N) (off : Fin 1 → Nat) (hoff : off = ![t.val]) (inb : ∀ b, off b + S1.size b ≤ S68.size b) (h1 : 0 < S1.numel) :
    (Rect.unit (s := S68) off S1.size inb).emb (Shape.Idx.first h1) = ix1 (⟨t.val, t_lt a t⟩ : Fin 68) := by
  subst hoff
  funext b
  apply Fin.ext
  match b with
  | ⟨0, _⟩ =>
    show t.val + 1 * (Shape.Idx.first h1 (0 : Fin 1)).val = t.val
    rw [first_S1]; omega

/-- The table's entry for block t, at the table contents `a`. -/
abbrev entry (t : Fin (cfg0 a).N) : BitVec 32 := a.1 0 (ix1 (⟨t.val, t_lt a t⟩ : Fin 68))

/-- The weight window sits at block (entry t, 0, 0). -/
theorem win1_index (t : Fin (cfg0 a).N) : ((cfg0 a).win 1).index t = ![(entry a t).toNat, 0, 0] := by
  show cc0_transform_1 k0_off1_inb numel1_S1 a.1 (grid0.coords t) = _
  have e := (idx_facts t).2.2
  exact congrArg (fun w : BitVec 32 => (![w.toNat, 0, 0] : Fin 3 → Nat))
    (congrArg (a.1 0) (word_at a t _ e (k0_off1_inb (grid0.coords t)) (numel1_S1.symm ▸ Nat.one_pos)))

/-- The weight block of point t, read through the window: the weights of expert (entry t). -/
theorem wts_read (t : Fin (cfg0 a).N) (f : (⟨S4x512x512, .bf16⟩ : BufTy).Contents (Elt Ideal)) (e : Fin 4) (he : (entry a t).toNat = e.val)
    (k q : Fin 512) :
    (((cfg0 a).win 1).blk t).view.read (Elt Ideal) f (ix3 (0 : Fin 1) k q) = f (ix3 e k q) := by
  show f ((((cfg0 a).win 1).blk t).view.emb (ix3 (0 : Fin 1) k q)) = f (ix3 e k q)
  refine congrArg f ?_
  have e1 := win1_index a t
  funext b
  apply Fin.ext
  match b with
  | ⟨0, _⟩ =>
    show ((cfg0 a).win 1).index t (0 : Fin 3) * 1 + 1 * 0 = e.val
    have : ((cfg0 a).win 1).index t (0 : Fin 3) = (entry a t).toNat := congrFun e1 (0 : Fin 3)
    omega
  | ⟨1, _⟩ =>
    show ((cfg0 a).win 1).index t (1 : Fin 3) * 512 + 1 * k.val = k.val
    have : ((cfg0 a).win 1).index t (1 : Fin 3) = 0 := congrFun e1 (1 : Fin 3)
    omega
  | ⟨2, _⟩ =>
    show ((cfg0 a).win 1).index t (2 : Fin 3) * 512 + 1 * q.val = q.val
    have : ((cfg0 a).win 1).index t (2 : Fin 3) = 0 := congrFun e1 (2 : Fin 3)
    omega

/-! ## One block -/

/-- WHAT POINT t COMPUTES is block t of `padded`: the payload of the rows' block and the weight block the table names,
    read at (p, q), is `cell` at padded row t·1024 + p. -/
theorem block_eq (t : Fin (cfg0 a).N) (R : (⟨S69632x512, .bf16⟩ : BufTy).Contents (Elt Ideal)) (Wt : (⟨S4x512x512, .bf16⟩ : BufTy).Contents (Elt Ideal))
    (ex : Fin 68 → Fin 4) (hex : (entry a t).toNat = (ex ⟨t.val, t_lt a t⟩).val) :
    k0_pay1 (F := Ideal) ((((cfg0 a).win 0).blk t).view.read (Elt Ideal) R) ((((cfg0 a).win 1).blk t).view.read (Elt Ideal) Wt)
      = (((cfg0 a).win 2).blk t).view.read (Elt Ideal) (padded R Wt ex) := by
  funext j
  obtain ⟨p, q, rfl⟩ : ∃ (p : Fin 1024) (q : Fin 512), j = ix2 p q := ⟨j 0, j 1, eq_ix2 j⟩
  refine (payload_apply _ _ p q).trans ?_
  refine Eq.trans ?_ (out_read a t (padded R Wt ex) p q).symm
  show _ = cell R Wt ex ⟨t.val * 1024 + p.val, _⟩ q
  unfold cell
  refine congrArg (fun z => Ideal.sin (Ideal.ofBits .f32 0x41F00000#32 * z)) (Finset.sum_congr rfl fun c _ => ?_)
  rw [rows_read a t R p c, wts_read a t Wt (ex ⟨t.val, t_lt a t⟩) hex c q]
  have hdiv : (⟨(t.val * 1024 + p.val) / 1024, by have := t_lt a t; have := p.isLt; omega⟩ : Fin 68) = ⟨t.val, t_lt a t⟩ :=
    Fin.ext (by have := p.isLt; show (t.val * 1024 + p.val) / 1024 = t.val; omega)
  rw [hdiv]

/-- THE WRITE-BACK AT POINT t, for any contents X of the output's staging buffer that are the payload of the two
    staged blocks: the output window is never cut, so what is written back is X itself. -/
theorem writeback_eq (t : Fin (cfg0 a).N) (R : (⟨S69632x512, .bf16⟩ : BufTy).Contents (Elt Ideal)) (Wt : (⟨S4x512x512, .bf16⟩ : BufTy).Contents (Elt Ideal))
    (ex : Fin 68 → Fin 4) (hex : (entry a t).toNat = (ex ⟨t.val, t_lt a t⟩).val)
    (X : ((cfg0 a).win 2).block.Idx → Elt Ideal ((cfg0 a).win 2).elt)
    (hX : X = k0_pay1 (F := Ideal) ((((cfg0 a).win 0).blk t).view.read (Elt Ideal) R) ((((cfg0 a).win 1).blk t).view.read (Elt Ideal) Wt)) :
    ((cfg0 a).win 2).cut ((cfg0 a).grid.coords t) X = (((cfg0 a).win 2).blk t).view.read (Elt Ideal) (padded R Wt ex) := by
  subst hX
  exact block_eq a t R Wt ex hex

/-! ## The blocks tile the array -/

/-- Every index of the padded output is in the block of the point its row's block names. -/
theorem cover (i : S69632x512.Idx) : ∃ t : Fin (cfg0 a).N, ((cfg0 a).win 2).flush t = true ∧ i ∈ (((cfg0 a).win 2).blk t).view.set := by
  have hi0 : (i 0).val < 69632 := (i 0).isLt
  have hi1 : (i 1).val < 512 := (i 1).isLt
  have ht : (i 0).val / 1024 < (cfg0 a).N := Nat.lt_of_lt_of_eq (by omega : (i 0).val / 1024 < 68) N_0.symm
  have e2 := win2_index a ⟨(i 0).val / 1024, ht⟩
  refine ⟨⟨(i 0).val / 1024, ht⟩, flush0_2 a _, ?_⟩
  show i ∈ ((View.whole main_v74).slice (((cfg0 a).win 2).rect ⟨(i 0).val / 1024, ht⟩)).set
  refine (congrArg (fun s : Finset S69632x512.Idx => i ∈ s) (View.set_slice_whole main_v74 (((cfg0 a).win 2).rect ⟨(i 0).val / 1024, ht⟩))).mpr
    (Rect.mem_set_unit.mpr fun b => ?_)
  match b with
  | ⟨0, _⟩ =>
    show ((cfg0 a).win 2).index ⟨(i 0).val / 1024, ht⟩ (0 : Fin 2) * 1024 ≤ (i 0).val
      ∧ (i 0).val < ((cfg0 a).win 2).index ⟨(i 0).val / 1024, ht⟩ (0 : Fin 2) * 1024 + 1024
    have : ((cfg0 a).win 2).index ⟨(i 0).val / 1024, ht⟩ (0 : Fin 2) = (i 0).val / 1024 := congrFun e2 (0 : Fin 2)
    omega
  | ⟨1, _⟩ =>
    show ((cfg0 a).win 2).index ⟨(i 0).val / 1024, ht⟩ (1 : Fin 2) * 512 ≤ (i 1).val
      ∧ (i 1).val < ((cfg0 a).win 2).index ⟨(i 0).val / 1024, ht⟩ (1 : Fin 2) * 512 + 512
    have : ((cfg0 a).win 2).index ⟨(i 0).val / 1024, ht⟩ (1 : Fin 2) = 0 := congrFun e2 (1 : Fin 2)
    omega

end Cert.KernelIdeal.PaddedOutput

end
-- ==== Proof.KernelRun.lean ====
/-
  The routed kernel's region at the launch memory. The table the region reads is the launch memory's (every word of it
  below 4: Proof/TableOkIdeal.lean), so the block-to-expert map is the table read as naturals; the rows are the padded
  sorted features the host prefix leaves, the weights the transposed expert matrices. With these the padded output
  ends holding `PaddedOutput.padded` of them: each point writes back its block of that function, and the blocks tile
  the array.
-/
import proofs.«132175_j34754875359890_2_alg».proof.Proof.PaddedOutput

set_option maxRecDepth 16384

noncomputable section

namespace Cert.KernelIdeal.KernelRun

open Cert.KernelIdeal Cert.KernelIdeal.Gen Cert.KernelIdeal.BlockProduct Cert.KernelIdeal.PaddedOutput
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

-- the table's contents are the fold of the host prefix: nothing below may open them
attribute [local irreducible] tbl

/-- The table condition, of this launch memory. -/
abbrev okm : Ok m := TableOk.ok m

/-- The table as a map from row block to expert. -/
def expert (b : Fin 68) : Fin 4 := ⟨(tbl m 0 (ix1 b)).toNat, TableOk.tbl_lt m (ix1 b)⟩

/-- What the body leaves in the output block at point t: the payload of the two staged blocks. -/
theorem after2 (c : Dev nD) (t : Fin (cfgM m (okm m)).N) :
    (dats m (okm m) 0 c).after 2 t = k0_pay1 (iblk m (okm m) c 0 t) (iblk m (okm m) c 1 t) := by
  rw [after0_2]
  unfold outsAt0
  exact stored_eq_payload _ _ _ _ _ _ _ _ _ _ _

/-- The padded sorted features and the transposed weights, as the region finds them. -/
abbrev rows (c : Dev nD) := V m c (Pipeline.arrRef spec0 0)
abbrev weightsT (c : Dev nD) := V m c (Pipeline.arrRef spec0 1)

/-- WHAT POINT t WRITES BACK is block t of the whole-array function (the window facts at the launch memory's table,
    the table's entry read as the expert). -/
theorem flushed_eq (c : Dev nD) (t : Fin (cfgM m (okm m)).N) :
    (dats m (okm m) 0 c).flushed 2 t
      = (((cfg0 (adm m (okm m))).win 2).blk t).view.read (Elt Ideal) (padded (rows m c) (weightsT m c) (expert m)) :=
  writeback_eq (adm m (okm m)) t (rows m c) (weightsT m c) (expert m) rfl _ (after2 m c t)

/-- THE PADDED OUTPUT after the region: the blocks tile the array. -/
theorem final (c : Dev nD) :
    (dats m (okm m) 0 c).arrAt 2 (cfg0 (adm m (okm m))).N = padded (rows m c) (weightsT m c) (expert m) :=
  (dats m (okm m) 0 c).arrAt_eq_of_cover 2 _ (fun t _ => flushed_eq m c t) (cover (adm m (okm m)))

/-! ## The host operations after the region: the rows gathered back -/

/-- The final gather: row b of the result is one whole row of the padded output. -/
abbrev GD := gather_S69632x512_S65536x1_S65536x512_1_0_n_n_0_1_1512

/-- The padded row the gather reads for result row b: the index word read signed and clamped into 0 … 69631. -/
def rowOf (idx : IVec S65536x1 32) (b : Fin 65536) : Fin 69632 :=
  ⟨min (idx (ix2 b (0 : Fin 1))).toInt.toNat 69631, Nat.lt_succ_of_le (Nat.min_le_right _ _)⟩

/-- THE GATHER AT AN INDEX: result (b, q) is the operand at (rowOf b, q) — axis 0 collapsed and started at the index
    word of row b, axis 1 an offset axis taken whole. -/
theorem gather_rows {α : Type} (x : S69632x512.Idx → α) (idx : IVec S65536x1 32) (b : Fin 65536) (q : Fin 512) :
    Host.gather GD x idx (ix2 b q) = x (ix2 (rowOf idx b) q) := by
  unfold Host.gather
  congr 1
  funext a
  apply Fin.ext
  fin_cases a <;>
    simp [GatherDims.operandIdx, GatherDims.start, GatherDims.offCoord, GatherDims.batchCoord, GD,
      gather_S69632x512_S65536x1_S65536x512_1_0_n_n_0_1_1512, GatherDims.sKept, Shape.kept, rowOf]
  · refine congrArg (fun z => min (idx z).toInt.toNat 69631) ?_
    funext a
    apply Fin.ext
    fin_cases a <;> rfl
  · first
      | rfl
      | exact congrArg (fun a => ((ix2 b q) a : ℕ)) (by decide)

/-- jnp's index normalization of the padded positions (a negative position wraps by 69632), as an index column. -/
def posIdx (P : IVec S65536 32) : IVec S65536x1 32 :=
  broadcastInDim S65536x1 ![0] bcast_S65536_S65536x1_0
    (select (cmpi .slt P (broadcastInDim S65536 ![] bcast_S_S65536 (constantI S_ 32 0#32)))
      (addi P (broadcastInDim S65536 ![] bcast_S_S65536 (constantI S_ 32 69632#32))) P)

/-- The nine host operations after the region, over any contents W: the gather of the padded output at the
    normalized positions. -/
theorem tail_after (W : Valuation τ sig (Elt Ideal)) :
    StableHlo.after hostOps1 W (Proc.devRef .tc main_v81)
      = Host.gather GD (W (Proc.devRef .tc main_v74)) (posIdx (W (Proc.devRef .tc main_v49))) := by
  simp only [hostOps1]
  after_results
  rfl

set_option maxHeartbeats 400000 in
/-- THE RESULT ARRAY: the padded output gathered at the rows' padded positions. -/
theorem result_eq (c : Dev nD) :
    Pipeline.afterTail pcfgs (fun _ => adm m (okm m)) (dats m (okm m)) 0 (V0 m) [hostOps1] c main_v81
      = Host.gather GD (padded (rows m c) (weightsT m c) (expert m)) (posIdx (V m c main_v49)) := by
  unfold Pipeline.afterTail
  simp only [List.flatten_cons, List.flatten_nil, List.append_nil]
  refine (tail_after _).trans ?_
  refine congrArg₂ (Host.gather GD) ?_ (congrArg posIdx ?_)
  · exact (Pipeline.withArrays_arr _ winFacts0.arr_inj c _ _ 2).trans (final m c)
  · exact Pipeline.withArrays_of_ne _ c _ _ main_v49 (by exact (by decide : ∀ w, Pipeline.arrRef spec0 w ≠ main_v49))

set_option maxHeartbeats 400000 in
/-- THE KERNEL'S RUN with its result named: every weakly fair execution terminates with the result array at the
    gather of the padded output, the arguments unchanged. -/
theorem run : θ_run defs (onTc (τ := τ) (main (F := Ideal))) ⟨m, fun _ => 0, ρ⟩ fun r => ∀ c : Dev nD,
      r.2.mem ((c.tc : Thread nD τ).loc main_v81)
        = Host.gather GD (padded (rows m c) (weightsT m c) (expert m)) (posIdx (V m c main_v49))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v81 (by decide : main_v81 ∈ Pipeline.restRefs sig spec0)).trans (result_eq m c),
      ((h c).2 main_arg0 (by decide : main_arg0 ∈ Pipeline.restRefs sig spec0)).trans (W_main_arg0 m (okm m) (dats m (okm m)) c),
      ((h c).2 main_arg1 (by decide : main_arg1 ∈ Pipeline.restRefs sig spec0)).trans (W_main_arg1 m (okm m) (dats m (okm m)) c),
      ((h c).2 main_arg2 (by decide : main_arg2 ∈ Pipeline.restRefs sig spec0)).trans (W_main_arg2 m (okm m) (dats m (okm m)) c)⟩)
    (run_main m ρ (okm m))

end Cert.KernelIdeal.KernelRun

end
-- ==== Proof.HostPrefix.lean ====
/-
  What the region finds in its two input arrays, read off the host operations before it. The padded sorted features
  are a scatter into zeros: row b of the (format-changed) features is set at the padded position of b — the position
  array normalized as jnp normalizes an index (a negative one wraps by 69632). The staged weights are the expert
  matrices with their two matrix axes exchanged. Both are written by one stretch of host operations each; the
  stretches after it write neither, and what the stretches before it leave enters only through the buffers named.
-/
import proofs.«132175_j34754875359890_2_alg».proof.Proof.KernelRun

set_option maxRecDepth 16384

noncomputable section

namespace Cert.KernelIdeal.HostPrefix

open Cert.KernelIdeal Cert.KernelIdeal.Gen Cert.KernelIdeal.KernelRun
open Idealize.ShloMosaic Idealize.ShloMosaic.TcCoe Idealize.SL.Sem Idealize.ShloMosaic.ValueIdx
open Idealize.ShloMosaic.StableHlo (nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne' after_cons after_nil)

variable (m : (ℓ : Loc nD τ sig) → Buf (Elt Ideal) ℓ)

-- the big host operations are folds and searches over full-size arrays: nothing below may open them
attribute [local irreducible] Host.scatter Host.gather concatenate extractStridedSlice transpose

/-- The host operations before the stretch that places the rows. -/
abbrev before12 : List (HloOp τ sig (Elt Ideal)) := List.flatten [hostOps0, hostOps0_1, hostOps0_2, hostOps0_3, hostOps0_4, hostOps0_5, hostOps0_6, hostOps0_7, hostOps0_8, hostOps0_9, hostOps0_10, hostOps0_11]

/-- All the host operations before the region: those, the placing stretch, and the two stretches after it. -/
theorem prefix_split : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14] : List (HloOp τ sig (Elt Ideal)))
    = before12 ++ (hostOps0_12 ++ (hostOps0_13 ++ hostOps0_14)) := by
  simp only [before12, List.flatten_cons, List.flatten_nil, List.append_nil, List.append_assoc]

/-- The array contents the region finds, through the split. -/
theorem V0_eq (c : Dev nD) : V0 m c
    = StableHlo.after hostOps0_14 (StableHlo.after hostOps0_13 (StableHlo.after hostOps0_12 (StableHlo.after before12 (fun b => m (c, b))))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) = _
  rw [prefix_split, StableHlo.after_append, StableHlo.after_append, StableHlo.after_append]

/-- The two stretches after the placing one write neither the padded rows nor the positions. -/
theorem later_keep_v58 (W : Valuation τ sig (Elt Ideal)) :
    StableHlo.after hostOps0_14 (StableHlo.after hostOps0_13 W) (Proc.devRef .tc main_v58) = W (Proc.devRef .tc main_v58) := by
  simp only [hostOps0_14, hostOps0_13]
  after_results
theorem later_keep_v49 (W : Valuation τ sig (Elt Ideal)) :
    StableHlo.after hostOps0_14 (StableHlo.after hostOps0_13 W) (Proc.devRef .tc main_v49) = W (Proc.devRef .tc main_v49) := by
  simp only [hostOps0_14, hostOps0_13]
  after_results
theorem later_keep_arg0 (W : Valuation τ sig (Elt Ideal)) :
    StableHlo.after hostOps0_14 (StableHlo.after hostOps0_13 (StableHlo.after hostOps0_12 W)) (Proc.devRef .tc main_arg0) = W (Proc.devRef .tc main_arg0) := by
  simp only [hostOps0_14, hostOps0_13, hostOps0_12]
  after_results

/-- The padded positions as the placing stretch computes them from what came before: the bucket offset of the row's
    tile plus the row's rank in its bucket. -/
def pos12 (W : Valuation τ sig (Elt Ideal)) : IVec S65536 32 :=
  addi (Host.gather gather_S4_S65536x1_S65536_n_0_n_n_0_1_1
      (concatenate S4 0 [⟨S1, W (Proc.devRef .tc main_v38)⟩, ⟨S3, extractStridedSlice S3 ![0] (W (Proc.devRef .tc main_v39)) slices_S4_S3_0⟩] concatenates_S1_S3_S4_d0)
      (broadcastInDim S65536x1 ![0] bcast_S65536_S65536x1_0
        (select (cmpi .slt (W (Proc.devRef .tc main_v15)) (broadcastInDim S65536 ![] bcast_S_S65536 (constantI S_ 32 0#32)))
          (addi (W (Proc.devRef .tc main_v15)) (broadcastInDim S65536 ![] bcast_S_S65536 (constantI S_ 32 4#32)))
          (W (Proc.devRef .tc main_v15)))))
    (W (Proc.devRef .tc main_v28))

theorem stretch12_v49 (W : Valuation τ sig (Elt Ideal)) :
    StableHlo.after hostOps0_12 W (Proc.devRef .tc main_v49) = pos12 W := by
  unfold pos12
  simp only [hostOps0_12]
  after_results

/-- The scatter that places the rows. -/
abbrev SD := scatter_S69632x512_S65536x1_S65536x512_1_0_0_1

theorem stretch12_v58 (W : Valuation τ sig (Elt Ideal)) :
    StableHlo.after hostOps0_12 W (Proc.devRef .tc main_v58)
      = Host.scatter SD (fun _ b => b) (broadcastInDim S69632x512 ![] bcast_S_S69632x512 (constant (F := Ideal) S_ .bf16 0x0000#16))
          (posIdx (pos12 W)) (truncf .bf16 (W (Proc.devRef .tc main_arg0)) bitsLt_bf16_f32) := by
  unfold posIdx pos12
  simp only [hostOps0_12]
  after_results_simp
  rw [StableHlo.unary_result]
  rw [StableHlo.unary_result_ne]
  decide

/-- THE PADDED ROWS the region finds: the features' rows set at their normalized padded positions, into zeros. -/
theorem rows_eq (c : Dev nD) :
    V m c main_v58 = Host.scatter SD (fun _ b => b) (broadcastInDim S69632x512 ![] bcast_S_S69632x512 (constant (F := Ideal) S_ .bf16 0x0000#16))
      (posIdx (V m c main_v49)) (truncf .bf16 (m ((c : Thread nD τ).loc main_arg0)) bitsLt_bf16_f32) := by
  show V0 m c (Proc.devRef .tc main_v58) = Host.scatter SD _ _ (posIdx (V0 m c (Proc.devRef .tc main_v49))) _
  rw [V0_eq, later_keep_v58, later_keep_v49, stretch12_v58, stretch12_v49]
  have h0 : StableHlo.after before12 (fun b => m (c, b)) (Proc.devRef .tc main_arg0) = m ((c : Thread nD τ).loc main_arg0) := by
    have e := V_main_arg0 m c
    have e' : V0 m c (Proc.devRef .tc main_arg0) = m ((c : Thread nD τ).loc main_arg0) := e
    rw [V0_eq, later_keep_arg0] at e'
    exact e'
  rw [h0]

/-- The stretches from the placing one on do not write the weights argument either. -/
theorem later_keep_arg2 (W : Valuation τ sig (Elt Ideal)) :
    StableHlo.after hostOps0_13 (StableHlo.after hostOps0_12 W) (Proc.devRef .tc main_arg2) = W (Proc.devRef .tc main_arg2) := by
  simp only [hostOps0_13, hostOps0_12]
  after_results
theorem last_keep_arg2 (W : Valuation τ sig (Elt Ideal)) :
    StableHlo.after hostOps0_14 W (Proc.devRef .tc main_arg2) = W (Proc.devRef .tc main_arg2) := by
  simp only [hostOps0_14]
  after_results

theorem stretch14_v73 (W : Valuation τ sig (Elt Ideal)) :
    StableHlo.after hostOps0_14 W (Proc.devRef .tc main_v73)
      = (truncf .bf16 (transpose S4x512x512 [0, 2, 1] (W (Proc.devRef .tc main_arg2)) transposes_S4x512x512_S4x512x512_0_2_1) bitsLt_bf16_f32 : FVec Ideal S4x512x512 .bf16) := by
  simp only [hostOps0_14]
  after_results

/-- THE STAGED WEIGHTS the region finds: the expert matrices with their two matrix axes exchanged. -/
theorem weightsT_eq (c : Dev nD) :
    V m c main_v73 = (truncf .bf16 (transpose S4x512x512 [0, 2, 1] (m ((c : Thread nD τ).loc main_arg2)) transposes_S4x512x512_S4x512x512_0_2_1) bitsLt_bf16_f32 : FVec Ideal S4x512x512 .bf16) := by
  show V0 m c (Proc.devRef .tc main_v73) = _
  have h2 : StableHlo.after before12 (fun b => m (c, b)) (Proc.devRef .tc main_arg2) = m ((c : Thread nD τ).loc main_arg2) := by
    have e' : V0 m c (Proc.devRef .tc main_arg2) = m ((c : Thread nD τ).loc main_arg2) := V_main_arg2 m c
    rw [V0_eq, last_keep_arg2, later_keep_arg2] at e'
    exact e'
  rw [V0_eq, stretch14_v73, later_keep_arg2, h2]

end Cert.KernelIdeal.HostPrefix

end
-- ==== Proof.LibScatterSet.lean ====
/-
  A host scatter whose body returns the update (jnp's `x.at[idx].set(v)`) is, as printed, a LEFT FOLD of point
  updates over the update indices in row-major order: each update index that lands inside the operand replaces the
  element it lands on, one that lands outside is dropped. Two facts read such a fold at an operand index i:
    · if exactly one update index lands on i, the result at i is that update's element — whatever the order, and
      whatever the other updates do elsewhere;
    · if no update index lands on i, the result at i is the operand's element.
  So a scatter at pairwise distinct in-range positions is a permutation-style placement, with no appeal to the order
  of the fold. Stated first for a fold over any list, then for `Host.scatter` at any dimension numbers.
-/
import Idealize.ShloMosaic.PureOps.ShapeOps

namespace Idealize.ShloMosaic.LibScatterSet

/-! ## A fold of point updates -/

section Fold

variable {ι κ α : Type} [DecidableEq κ]

/-- One point update: update `n` replaces the value at the index it lands on, if it lands. -/
def step (g : ι → Option κ) (v : ι → α) (r : κ → α) (n : ι) : κ → α :=
  match g n with
  | some i => fun i' => if i' = i then v n else r i'
  | none => r

/-- An index no update of the list lands on keeps its value. -/
theorem foldl_step_of_forall_ne (g : ι → Option κ) (v : ι → α) (L : List ι) (x : κ → α) (i₀ : κ)
    (h : ∀ n ∈ L, g n ≠ some i₀) : L.foldl (step g v) x i₀ = x i₀ := by
  induction L generalizing x with
  | nil => rfl
  | cons n L ih =>
    rw [List.foldl_cons, ih _ (fun n' hn' => h n' (List.mem_cons_of_mem _ hn'))]
    have hn := h n List.mem_cons_self
    unfold step
    cases hg : g n with
    | none => rfl
    | some i =>
      show (if i₀ = i then v n else x i₀) = x i₀
      rw [if_neg]
      intro e
      exact hn (by rw [hg, e])

/-- An index exactly one update of the list lands on holds that update's value. -/
theorem foldl_step_of_unique (g : ι → Option κ) (v : ι → α) (L : List ι) (x : κ → α) (i₀ : κ) (n₀ : ι)
    (hmem : n₀ ∈ L) (hg : g n₀ = some i₀) (huniq : ∀ n ∈ L, g n = some i₀ → n = n₀) :
    L.foldl (step g v) x i₀ = v n₀ := by
  induction L generalizing x with
  | nil => exact absurd hmem List.not_mem_nil
  | cons n L ih =>
    rw [List.foldl_cons]
    by_cases hL : n₀ ∈ L
    · exact ih _ hL (fun n' hn' => huniq n' (List.mem_cons_of_mem _ hn'))
    · have hn : n = n₀ := by
        rcases List.mem_cons.mp hmem with h | h
        · exact h.symm
        · exact absurd h hL
      subst hn
      rw [foldl_step_of_forall_ne g v L _ i₀ (fun n' hn' e => hL (huniq n' (List.mem_cons_of_mem _ hn') e ▸ hn'))]
      unfold step
      rw [hg]
      exact if_pos rfl

end Fold

/-! ## The host scatter with the "set" body -/

section Scatter

variable {s si u : Shape} {α : Type} {w : Nat}

/-- The printed scatter with the body "return the update" is the fold of point updates over the update indices. -/
theorem scatter_set_eq_foldl (d : ScatterDims s si u) (x : s.Idx → α) (idx : IVec si w) (upd : u.Idx → α) :
    Host.scatter d (fun _ b => b) x idx upd
      = (List.finRange u.numel).foldl (step (fun n => d.resultIdx? (u.rowMajor.symm n) idx) (fun n => upd (u.rowMajor.symm n))) x := by
  unfold Host.scatter
  refine congrArg (fun F => (List.finRange u.numel).foldl F x) ?_
  funext r n
  unfold step
  dsimp only
  cases h : d.resultIdx? (u.rowMajor.symm n) idx <;> rfl

/-- WHERE EXACTLY ONE UPDATE LANDS: the scatter's result at i₀ is the update's element at the one update index j₀ that
    lands on i₀. -/
theorem scatter_set_apply_of_unique (d : ScatterDims s si u) (x : s.Idx → α) (idx : IVec si w) (upd : u.Idx → α)
    (i₀ : s.Idx) (j₀ : u.Idx) (h₀ : d.resultIdx? j₀ idx = some i₀) (huniq : ∀ j, d.resultIdx? j idx = some i₀ → j = j₀) :
    Host.scatter d (fun _ b => b) x idx upd i₀ = upd j₀ := by
  rw [scatter_set_eq_foldl]
  refine (foldl_step_of_unique _ _ _ x i₀ (u.rowMajor j₀) (List.mem_finRange _) ?_ ?_).trans ?_
  · show d.resultIdx? (u.rowMajor.symm (u.rowMajor j₀)) idx = some i₀
    rw [Equiv.symm_apply_apply]; exact h₀
  · intro n _ hn
    have := huniq _ hn
    rw [← this, Equiv.apply_symm_apply]
  · show upd (u.rowMajor.symm (u.rowMajor j₀)) = upd j₀
    rw [Equiv.symm_apply_apply]

/-- WHERE NO UPDATE LANDS: the scatter's result at i₀ is the operand's element. -/
theorem scatter_set_apply_of_miss (d : ScatterDims s si u) (x : s.Idx → α) (idx : IVec si w) (upd : u.Idx → α)
    (i₀ : s.Idx) (h : ∀ j, d.resultIdx? j idx ≠ some i₀) :
    Host.scatter d (fun _ b => b) x idx upd i₀ = x i₀ := by
  rw [scatter_set_eq_foldl]
  exact foldl_step_of_forall_ne _ _ _ x i₀ (fun n _ => h _)

end Scatter

end Idealize.ShloMosaic.LibScatterSet
-- ==== Proof.LibScatterRows.lean ====
/-
  jnp's `zeros((N, C)).at[pos].set(rows)` for R rows of width C lowers to a scatter whose updates are whole rows:
  update (b, k) lands on (pos b, k) when the row number pos b, read signed, is inside 0 … N − 1, and is dropped
  otherwise. When the in-range row numbers are pairwise distinct, row pos b of the result is row b of the updates,
  and a row no row number names keeps the operand's contents — the placement a counting sort makes.
  Stated for any N, R, C, with the dimension numbers as a program prints them.
-/
import proofs.«132175_j34754875359890_2_alg».proof.Proof.LibScatterSet
import Idealize.ShloMosaic.Lib.ValueIdx

namespace Idealize.ShloMosaic.LibScatterRows

open Idealize.ShloMosaic.ValueIdx Idealize.ShloMosaic.LibScatterSet

variable {α : Type}

/-- The dimension numbers of a whole-row scatter: [N, C] operand, [R, 1] row numbers, [R, C] updates. -/
abbrev rowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- The row number of update row b, read signed. -/
def rowNo (idx : IVec ⟨2, ![R, 1]⟩ w) (b : Fin R) : Int := (idx (ix2 b (0 : Fin 1))).toInt

theorem start0 (idx : IVec ⟨2, ![R, 1]⟩ w) (b : Fin R) (k : Fin C) :
    (rowsDims N R C wf).start (ix2 b k) idx (0 : Fin 2) = rowNo idx b := by
  simp [ScatterDims.start, rowsDims, rowNo]
  refine congrArg (fun z => (idx z).toInt) ?_
  funext a
  apply Fin.ext
  fin_cases a <;> rfl

theorem start1 (idx : IVec ⟨2, ![R, 1]⟩ w) (b : Fin R) (k : Fin C) :
    (rowsDims N R C wf).start (ix2 b k) idx (1 : Fin 2) = 0 := by
  simp [ScatterDims.start, rowsDims]

theorem window0 (b : Fin R) (k : Fin C) : (rowsDims N R C wf).window (ix2 b k) (0 : Fin 2) = 0 := by
  simp [ScatterDims.window, rowsDims, ScatterDims.sKept, Shape.kept]

theorem window1 (b : Fin R) (k : Fin C) : (rowsDims N R C wf).window (ix2 b k) (1 : Fin 2) = k.val := by
  simp [ScatterDims.window, rowsDims, ScatterDims.sKept, Shape.kept]
  first
    | rfl
    | exact congrArg (fun a => ((ix2 b k) a : ℕ)) (by decide)

/-- Update (b, k) lands inside the operand iff its row number is in 0 … N − 1 (its column always is). -/
theorem lands_iff (idx : IVec ⟨2, ![R, 1]⟩ w) (b : Fin R) (k : Fin C) :
    (∀ a : Fin 2, 0 ≤ (rowsDims N R C wf).start (ix2 b k) idx a + (rowsDims N R C wf).window (ix2 b k) a
        ∧ (rowsDims N R C wf).start (ix2 b k) idx a + (rowsDims N R C wf).window (ix2 b k) a < (⟨2, ![N, C]⟩ : Shape).size a)
      ↔ (0 ≤ rowNo idx b ∧ rowNo idx b < N) := by
  rw [Fin.forall_fin_two, start0, start1, window0, window1]
  have hk := k.isLt
  constructor
  · rintro ⟨h0, -⟩
    simpa using h0
  · intro h
    refine ⟨by simpa using h, ?_⟩
    show (0 : Int) ≤ 0 + (k.val : Int) ∧ (0 : Int) + (k.val : Int) < ((C : Nat) : Int)
    omega

/-- WHERE UPDATE (b, k) LANDS: on (its row number, k) when the row number is inside, nowhere otherwise. -/
theorem resultIdx_rows (idx : IVec ⟨2, ![R, 1]⟩ w) (b : Fin R) (k : Fin C) :
    (rowsDims N R C wf).resultIdx? (ix2 b k) idx
      = if h : 0 ≤ rowNo idx b ∧ rowNo idx b < N then some (ix2 (⟨(rowNo idx b).toNat, by omega⟩ : Fin N) k) else none := by
  unfold ScatterDims.resultIdx?
  by_cases h : 0 ≤ rowNo idx b ∧ rowNo idx b < N
  · rw [dif_pos h, dif_pos ((lands_iff wf idx b k).mpr h)]
    refine congrArg some (funext fun a => Fin.ext ?_)
    match a with
    | ⟨0, _⟩ =>
      show ((rowsDims N R C wf).start (ix2 b k) idx (0 : Fin 2) + (rowsDims N R C wf).window (ix2 b k) (0 : Fin 2)).toNat = (rowNo idx b).toNat
      rw [start0, window0]; simp
    | ⟨1, _⟩ =>
      show ((rowsDims N R C wf).start (ix2 b k) idx (1 : Fin 2) + (rowsDims N R C wf).window (ix2 b k) (1 : Fin 2)).toNat = k.val
      rw [start1, window1]; simp
  · rw [dif_neg h, dif_neg (fun hall => h ((lands_iff wf idx b k).mp hall))]

/-- ROW pos b OF THE RESULT IS ROW b OF THE UPDATES, when b's row number is inside the operand and no other update row
    has it. -/
theorem scatter_rows_hit (x : (⟨2, ![N, C]⟩ : Shape).Idx → α) (idx : IVec ⟨2, ![R, 1]⟩ w) (upd : (⟨2, ![R, C]⟩ : Shape).Idx → α)
    (b : Fin R) (k : Fin C) (hb : 0 ≤ rowNo idx b ∧ rowNo idx b < N) (hinj : ∀ b' : Fin R, rowNo idx b' = rowNo idx b → b' = b) :
    Host.scatter (rowsDims N R C wf) (fun _ v => v) x idx upd (ix2 (⟨(rowNo idx b).toNat, by omega⟩ : Fin N) k) = upd (ix2 b k) := by
  refine scatter_set_apply_of_unique _ x idx upd _ (ix2 b k) ?_ ?_
  · rw [resultIdx_rows, dif_pos hb]
  · intro j hj
    obtain ⟨b', k', rfl⟩ : ∃ (b' : Fin R) (k' : Fin C), j = ix2 b' k' := ⟨j 0, j 1, eq_ix2 j⟩
    rw [resultIdx_rows] at hj
    by_cases hb' : 0 ≤ rowNo idx b' ∧ rowNo idx b' < N
    · rw [dif_pos hb'] at hj
      have e := Option.some.inj hj
      have e0 : (rowNo idx b').toNat = (rowNo idx b).toNat := congrArg (fun i : (⟨2, ![N, C]⟩ : Shape).Idx => (i 0).val) e
      have e1 : k'.val = k.val := congrArg (fun i : (⟨2, ![N, C]⟩ : Shape).Idx => (i 1).val) e
      have hbb : b' = b := hinj b' (by omega)
      rw [hbb, Fin.ext e1]
    · rw [dif_neg hb'] at hj
      exact absurd hj (by simp)

/-- A ROW NO ROW NUMBER NAMES KEEPS THE OPERAND'S CONTENTS. -/
theorem scatter_rows_miss (x : (⟨2, ![N, C]⟩ : Shape).Idx → α) (idx : IVec ⟨2, ![R, 1]⟩ w) (upd : (⟨2, ![R, C]⟩ : Shape).Idx → α)
    (r : Fin N) (k : Fin C) (h : ∀ b : Fin R, rowNo idx b ≠ (r.val : Int)) :
    Host.scatter (rowsDims N R C wf) (fun _ v => v) x idx upd (ix2 r k) = x (ix2 r k) := by
  refine scatter_set_apply_of_miss _ x idx upd _ ?_
  intro j hj
  obtain ⟨b', k', rfl⟩ : ∃ (b' : Fin R) (k' : Fin C), j = ix2 b' k' := ⟨j 0, j 1, eq_ix2 j⟩
  rw [resultIdx_rows] at hj
  by_cases hb' : 0 ≤ rowNo idx b' ∧ rowNo idx b' < N
  · rw [dif_pos hb'] at hj
    have e := Option.some.inj hj
    have e0 : (rowNo idx b').toNat = r.val := congrArg (fun i : (⟨2, ![N, C]⟩ : Shape).Idx => (i 0).val) e
    exact h b' (by omega)
  · rw [dif_neg hb'] at hj
    exact absurd hj (by simp)

end Idealize.ShloMosaic.LibScatterRows
-- ==== Proof.Placement.lean ====
/-
  The routed side's result at an index, GIVEN the counting sort's three facts about the padded positions:
    · every row's normalized position is inside 0 … 69631,
    · no two rows share a position,
    · the table word of the 1024-row block a row's position falls in is the row's tile T b.
  Then the final gather reads, for row b, padded row (position of b) — the clamp does nothing; that padded row holds
  row b of the features — the scatter placed it there and nothing else landed on it; the block's expert is T b; and
  the staged weights are the expert matrices with the matrix axes exchanged. So
      result[b, q] = sin (30 · Σ_k features[b, k] · weights[T b, q, k]).
-/
import proofs.«132175_j34754875359890_2_alg».proof.Proof.HostPrefix
import proofs.«132175_j34754875359890_2_alg».proof.Proof.LibScatterRows
import Idealize.ShloMosaic.Lib.ValueLayout

set_option maxRecDepth 16384

noncomputable section

namespace Cert.KernelIdeal.Placement

open Cert.KernelIdeal Cert.KernelIdeal.Gen Cert.KernelIdeal.KernelRun Cert.KernelIdeal.HostPrefix Cert.KernelIdeal.PaddedOutput
open Idealize.ShloMosaic Idealize.ShloMosaic.TcCoe Idealize.SL.Sem Idealize.ShloMosaic.ValueIdx
open Idealize.ShloMosaic.LibScatterRows

/-- The normalized padded position of row b, read signed: what both the scatter and the final gather start from. -/
def placeOf (P : IVec S65536 32) (b : Fin 65536) : Int := (posIdx P (ix2 b (0 : Fin 1))).toInt

/-- The clamp of the final gather does nothing at a position inside the padded array. -/
theorem rowOf_place (P : IVec S65536 32) (b : Fin 65536) (h : 0 ≤ placeOf P b ∧ placeOf P b < 69632) :
    rowOf (posIdx P) b = (⟨(placeOf P b).toNat, by omega⟩ : Fin 69632) := by
  apply Fin.ext
  exact Nat.min_eq_left (by show (placeOf P b).toNat ≤ 69631; omega)

/-- THE ROUTED RESULT AT AN INDEX, under the counting sort's facts, for ANY position array P, with the padded rows the
    scatter of the features at P and the staged weights the transposed weights. -/
theorem result_apply_of (P : IVec S65536 32) (Rw : S69632x512.Idx → EReal) (Wt : S4x512x512.Idx → EReal) (ex : Fin 68 → Fin 4)
    (F0 : S65536x512.Idx → EReal) (W0 : S4x512x512.Idx → EReal)
    (hR : Rw = Host.scatter SD (fun _ b => b) (broadcastInDim S69632x512 ![] bcast_S_S69632x512 (constant (F := Ideal) S_ .bf16 0x0000#16))
      (posIdx P) (truncf .bf16 F0 bitsLt_bf16_f32 : FVec Ideal S65536x512 .bf16))
    (hW : Wt = (truncf .bf16 (transpose S4x512x512 [0, 2, 1] W0 transposes_S4x512x512_S4x512x512_0_2_1) bitsLt_bf16_f32 : FVec Ideal S4x512x512 .bf16))
    (T : Fin 65536 → Fin 4)
    (hrange : ∀ b, 0 ≤ placeOf P b ∧ placeOf P b < 69632)
    (hinj : ∀ b b', placeOf P b' = placeOf P b → b' = b)
    (hexp : ∀ b, ex ⟨(placeOf P b).toNat / 1024, by have := hrange b; omega⟩ = T b)
    (b : Fin 65536) (q : Fin 512) :
    Host.gather GD (padded Rw Wt ex) (posIdx P) (ix2 b q)
      = Ideal.sin (Ideal.ofBits .f32 0x41F00000#32 * ∑ k : Fin 512, F0 (ix2 b k) * W0 (ix3 (T b) q k)) := by
  have hb := hrange b
  rw [gather_rows, rowOf_place P b hb]
  show cell Rw Wt ex ⟨(placeOf P b).toNat, _⟩ q = _
  unfold cell
  refine congrArg (fun z => Ideal.sin (Ideal.ofBits .f32 0x41F00000#32 * z)) (Finset.sum_congr rfl fun k _ => ?_)
  refine congrArg₂ (· * ·) ?_ ?_
  · rw [hR]
    exact scatter_rows_hit scatter_S69632x512_S65536x1_S65536x512_1_0_0_1_wf _ _ _ b k hb (fun b' h => hinj b b' h)
  · rw [show ex ⟨(placeOf P b).toNat / 1024, _⟩ = T b from hexp b, hW]
    exact transpose_ix3_021_apply _ _ (T b) k q

variable (m : (ℓ : Loc nD τ sig) → Buf (Elt Ideal) ℓ)

/-- The features and the expert weights, as launched. -/
abbrev feats (c : Dev nD) : S65536x512.Idx → EReal := m ((c : Thread nD τ).loc main_arg0)
abbrev wts (c : Dev nD) : S4x512x512.Idx → EReal := m ((c : Thread nD τ).loc main_arg2)

/-- The same at the launch memory: the positions, the padded rows and the staged weights the host prefix leaves. -/
theorem result_apply (c : Dev nD) (T : Fin 65536 → Fin 4)
    (hrange : ∀ b, 0 ≤ placeOf (V m c main_v49) b ∧ placeOf (V m c main_v49) b < 69632)
    (hinj : ∀ b b', placeOf (V m c main_v49) b' = placeOf (V m c main_v49) b → b' = b)
    (hexp : ∀ b, expert m ⟨(placeOf (V m c main_v49) b).toNat / 1024, by have := hrange b; omega⟩ = T b)
    (b : Fin 65536) (q : Fin 512) :
    Host.gather GD (padded (rows m c) (weightsT m c) (expert m)) (posIdx (V m c main_v49)) (ix2 b q)
      = Ideal.sin (Ideal.ofBits .f32 0x41F00000#32 * ∑ k : Fin 512, feats m c (ix2 b k) * wts m c (ix3 (T b) q k)) :=
  result_apply_of (V m c main_v49) (rows m c) (weightsT m c) (expert m) (feats m c) (wts m c) (rows_eq m c) (weightsT_eq m c)
    T hrange hinj hexp b q

end Cert.KernelIdeal.Placement

end
-- ==== Proof.RefSegments.lean ====
/-
  The reference's result buffer read back. Its first window is cut into the tile computation and one piece per
  expert; each expert's piece leaves the running sum plus that expert's MASKED PRODUCT — where the row's tile is the
  expert, the row times the expert's matrix, and zero elsewhere — and writes neither the tile nor the arguments. So
  the result is  sin (30 · ((((0 + masked₀) + masked₁) + masked₂) + masked₃))  of the tile array the first piece
  leaves and the two argument arrays.
-/
import proofs.«132175_j34754875359890_2_alg».proof.Proof.RefRun

set_option maxRecDepth 16384

noncomputable section

namespace Cert.ReferenceIdeal.RefSegments

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

-- the layout and pointwise operations are compared as names, never opened, when a piece's fold is read back
attribute [local irreducible] transpose extractStridedSlice shapeCast broadcastInDim select cmpi addf mulf Host.sin constant constantI

/-- The first window's piece: the tile of every row. -/
abbrev segT : List (HloOp τ sig (Elt F)) :=
  [ reshape main_arg1 main_v0 rfl shapeCasts_S1x65536x2_S65536x2,
    nullary main_cst (constant S_ .f32 0x41800000#32),
    unary main_cst main_v1 (broadcastInDim S65536x2 ![] bcast_S_S65536x2 : (⟨S_, .f32⟩ : BufTy).Contents (Elt F) → (⟨S65536x2, .f32⟩ : BufTy).Contents (Elt F)),
    binary main_v0 main_v1 main_v2 (mulf : (⟨S65536x2, .f32⟩ : BufTy).Contents (Elt F) → (⟨S65536x2, .f32⟩ : BufTy).Contents (Elt F) → (⟨S65536x2, .f32⟩ : BufTy).Contents (Elt F)),
    unary main_v2 main_v3 ((extractStridedSlice S65536x1 ![0, 0] · slices_S65536x2_S65536x1_0_0) : (⟨S65536x2, .f32⟩ : BufTy).Contents (Elt F) → (⟨S65536x1, .f32⟩ : BufTy).Contents (Elt F)),
    reshape main_v3 main_v4 rfl shapeCasts_S65536x1_S65536,
    unary main_v4 main_v5 (Host.floor : (⟨S65536, .f32⟩ : BufTy).Contents (Elt F) → (⟨S65536, .f32⟩ : BufTy).Contents (Elt F)),
    unary main_v5 main_v6 (fptosi 32 : (⟨S65536, .f32⟩ : BufTy).Contents (Elt F) → (⟨S65536, .i32⟩ : BufTy).Contents (Elt F)),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S65536 ![] bcast_S_S65536),
    TRef.binary (.of main_v6 : TRef sig ⟨S65536, .i32⟩) main_call0.v3 main_call0.v4 Host.remsi,
    TRef.nullary main_call0.c_1 (constantI S_ 32 0#32),
    TRef.unary main_call0.c_1 main_call0.v5 (broadcastInDim S65536 ![] bcast_S_S65536),
    TRef.binary main_call0.v4 main_call0.v5 main_call0.v6 (cmpi .ne),
    TRef.nullary main_call0.c_2 (constantI S_ 32 0#32),
    TRef.unary main_call0.c_2 main_call0.v7 (broadcastInDim S65536 ![] bcast_S_S65536),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S65536 ![] bcast_S_S65536),
    TRef.binary main_call0.v8 main_call0.v10 main_call0.v11 (cmpi .ne),
    TRef.binary main_call0.v11 main_call0.v6 main_call0.v12 andi,
    TRef.unary main_call0.call0.v0 main_call0.v13 (broadcastInDim S65536 ![] bcast_S_S65536),
    TRef.binary main_call0.v4 main_call0.v13 main_call0.v14 addi,
    TRef.ternary main_call0.v12 main_call0.v14 main_call0.v4 main_call0.v15 select,
    unary main_v2 main_v8 ((extractStridedSlice S65536x1 ![0, 1] · slices_S65536x2_S65536x1_0_1) : (⟨S65536x2, .f32⟩ : BufTy).Contents (Elt F) → (⟨S65536x1, .f32⟩ : BufTy).Contents (Elt F)),
    reshape main_v8 main_v9 rfl shapeCasts_S65536x1_S65536,
    unary main_v9 main_v10 (Host.floor : (⟨S65536, .f32⟩ : BufTy).Contents (Elt F) → (⟨S65536, .f32⟩ : BufTy).Contents (Elt F)),
    unary main_v10 main_v11 (fptosi 32 : (⟨S65536, .f32⟩ : BufTy).Contents (Elt F) → (⟨S65536, .i32⟩ : BufTy).Contents (Elt F)),
    nullary main_c_0 (constantI S_ 32 2#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S65536 ![] bcast_S_S65536),
    TRef.binary (.of main_v11 : TRef sig ⟨S65536, .i32⟩) main_call1.v3 main_call1.v4 Host.remsi,
    TRef.nullary main_call1.c_1 (constantI S_ 32 0#32),
    TRef.unary main_call1.c_1 main_call1.v5 (broadcastInDim S65536 ![] bcast_S_S65536),
    TRef.binary main_call1.v4 main_call1.v5 main_call1.v6 (cmpi .ne),
    TRef.nullary main_call1.c_2 (constantI S_ 32 0#32),
    TRef.unary main_call1.c_2 main_call1.v7 (broadcastInDim S65536 ![] bcast_S_S65536),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S65536 ![] bcast_S_S65536),
    TRef.binary main_call1.v8 main_call1.v10 main_call1.v11 (cmpi .ne),
    TRef.binary main_call1.v11 main_call1.v6 main_call1.v12 andi,
    TRef.unary main_call1.call0.v0 main_call1.v13 (broadcastInDim S65536 ![] bcast_S_S65536),
    TRef.binary main_call1.v4 main_call1.v13 main_call1.v14 addi,
    TRef.ternary main_call1.v12 main_call1.v14 main_call1.v4 main_call1.v15 select,
    nullary main_c_1 (constantI S_ 32 2#32),
    unary main_c_1 main_v13 (broadcastInDim S65536 ![] bcast_S_S65536 : (⟨S_, .i32⟩ : BufTy).Contents (Elt F) → (⟨S65536, .i32⟩ : BufTy).Contents (Elt F)),
    binary main_v13 main_v7 main_v14 (muli : (⟨S65536, .i32⟩ : BufTy).Contents (Elt F) → (⟨S65536, .i32⟩ : BufTy).Contents (Elt F) → (⟨S65536, .i32⟩ : BufTy).Contents (Elt F)),
    binary main_v14 main_v12 main_v15 (addi : (⟨S65536, .i32⟩ : BufTy).Contents (Elt F) → (⟨S65536, .i32⟩ : BufTy).Contents (Elt F) → (⟨S65536, .i32⟩ : BufTy).Contents (Elt F)) ]

/-- The first window's piece: expert 0's masked product, added to zeros. -/
abbrev segE0 : List (HloOp τ sig (Elt F)) :=
  [ nullary main_cst_2 (constant S_ .f32 0x00000000#32),
    unary main_cst_2 main_v16 (broadcastInDim S65536x512 ![] bcast_S_S65536x512 : (⟨S_, .f32⟩ : BufTy).Contents (Elt F) → (⟨S65536x512, .f32⟩ : BufTy).Contents (Elt F)),
    nullary main_c_3 (constantI S_ 32 0#32),
    unary main_c_3 main_v17 (broadcastInDim S65536 ![] bcast_S_S65536 : (⟨S_, .i32⟩ : BufTy).Contents (Elt F) → (⟨S65536, .i32⟩ : BufTy).Contents (Elt F)),
    binary main_v15 main_v17 main_v18 (cmpi .eq : (⟨S65536, .i32⟩ : BufTy).Contents (Elt F) → (⟨S65536, .i32⟩ : BufTy).Contents (Elt F) → (⟨S65536, .i1⟩ : BufTy).Contents (Elt F)),
    unary main_v18 main_v19 (broadcastInDim S65536x1 ![0] bcast_S65536_S65536x1_0 : (⟨S65536, .i1⟩ : BufTy).Contents (Elt F) → (⟨S65536x1, .i1⟩ : BufTy).Contents (Elt F)),
    unary main_arg2 main_v20 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v20 main_v21 rfl shapeCasts_S1x512x512_S512x512,
    unary main_v21 main_v22 ((transpose S512x512 [1, 0] · transposes_S512x512_S512x512_1_0) : (⟨S512x512, .f32⟩ : BufTy).Contents (Elt F) → (⟨S512x512, .f32⟩ : BufTy).Contents (Elt F)),
    binary main_arg0 main_v22 main_v23 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_4 (constant S_ .f32 0x00000000#32),
    TRef.unary (.of main_v19 : TRef sig ⟨S65536x1, .i1⟩) main_call2.v0 (broadcastInDim S65536x512 ![0, 1] bcast_S65536x1_S65536x512_0_1),
    TRef.unary (.of main_cst_4 : TRef sig ⟨S_, .f32⟩) main_call2.v1 (broadcastInDim S65536x512 ![] bcast_S_S65536x512),
    TRef.ternary main_call2.v0 (.of main_v23 : TRef sig ⟨S65536x512, .f32⟩) main_call2.v1 main_call2.v2 select,
    binary main_v16 main_v24 main_v25 (addf : (⟨S65536x512, .f32⟩ : BufTy).Contents (Elt F) → (⟨S65536x512, .f32⟩ : BufTy).Contents (Elt F) → (⟨S65536x512, .f32⟩ : BufTy).Contents (Elt F)) ]

/-- The first window's piece: expert 1's masked product, added on. -/
abbrev segE1 : List (HloOp τ sig (Elt F)) :=
  [ nullary main_c_5 (constantI S_ 32 1#32),
    unary main_c_5 main_v26 (broadcastInDim S65536 ![] bcast_S_S65536 : (⟨S_, .i32⟩ : BufTy).Contents (Elt F) → (⟨S65536, .i32⟩ : BufTy).Contents (Elt F)),
    binary main_v15 main_v26 main_v27 (cmpi .eq : (⟨S65536, .i32⟩ : BufTy).Contents (Elt F) → (⟨S65536, .i32⟩ : BufTy).Contents (Elt F) → (⟨S65536, .i1⟩ : BufTy).Contents (Elt F)),
    unary main_v27 main_v28 (broadcastInDim S65536x1 ![0] bcast_S65536_S65536x1_0 : (⟨S65536, .i1⟩ : BufTy).Contents (Elt F) → (⟨S65536x1, .i1⟩ : BufTy).Contents (Elt F)),
    unary main_arg2 main_v29 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v29 main_v30 rfl shapeCasts_S1x512x512_S512x512,
    unary main_v30 main_v31 ((transpose S512x512 [1, 0] · transposes_S512x512_S512x512_1_0) : (⟨S512x512, .f32⟩ : BufTy).Contents (Elt F) → (⟨S512x512, .f32⟩ : BufTy).Contents (Elt F)),
    binary main_arg0 main_v31 main_v32 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_6 (constant S_ .f32 0x00000000#32),
    TRef.unary (.of main_v28 : TRef sig ⟨S65536x1, .i1⟩) main_call3.v0 (broadcastInDim S65536x512 ![0, 1] bcast_S65536x1_S65536x512_0_1),
    TRef.unary (.of main_cst_6 : TRef sig ⟨S_, .f32⟩) main_call3.v1 (broadcastInDim S65536x512 ![] bcast_S_S65536x512),
    TRef.ternary main_call3.v0 (.of main_v32 : TRef sig ⟨S65536x512, .f32⟩) main_call3.v1 main_call3.v2 select,
    binary main_v25 main_v33 main_v34 (addf : (⟨S65536x512, .f32⟩ : BufTy).Contents (Elt F) → (⟨S65536x512, .f32⟩ : BufTy).Contents (Elt F) → (⟨S65536x512, .f32⟩ : BufTy).Contents (Elt F)) ]

/-- The first window's piece: expert 2's masked product, added on. -/
abbrev segE2 : List (HloOp τ sig (Elt F)) :=
  [ nullary main_c_7 (constantI S_ 32 2#32),
    unary main_c_7 main_v35 (broadcastInDim S65536 ![] bcast_S_S65536 : (⟨S_, .i32⟩ : BufTy).Contents (Elt F) → (⟨S65536, .i32⟩ : BufTy).Contents (Elt F)),
    binary main_v15 main_v35 main_v36 (cmpi .eq : (⟨S65536, .i32⟩ : BufTy).Contents (Elt F) → (⟨S65536, .i32⟩ : BufTy).Contents (Elt F) → (⟨S65536, .i1⟩ : BufTy).Contents (Elt F)),
    unary main_v36 main_v37 (broadcastInDim S65536x1 ![0] bcast_S65536_S65536x1_0 : (⟨S65536, .i1⟩ : BufTy).Contents (Elt F) → (⟨S65536x1, .i1⟩ : BufTy).Contents (Elt F)),
    unary main_arg2 main_v38 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v38 main_v39 rfl shapeCasts_S1x512x512_S512x512,
    unary main_v39 main_v40 ((transpose S512x512 [1, 0] · transposes_S512x512_S512x512_1_0) : (⟨S512x512, .f32⟩ : BufTy).Contents (Elt F) → (⟨S512x512, .f32⟩ : BufTy).Contents (Elt F)),
    binary main_arg0 main_v40 main_v41 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_8 (constant S_ .f32 0x00000000#32),
    TRef.unary (.of main_v37 : TRef sig ⟨S65536x1, .i1⟩) main_call4.v0 (broadcastInDim S65536x512 ![0, 1] bcast_S65536x1_S65536x512_0_1),
    TRef.unary (.of main_cst_8 : TRef sig ⟨S_, .f32⟩) main_call4.v1 (broadcastInDim S65536x512 ![] bcast_S_S65536x512),
    TRef.ternary main_call4.v0 (.of main_v41 : TRef sig ⟨S65536x512, .f32⟩) main_call4.v1 main_call4.v2 select,
    binary main_v34 main_v42 main_v43 (addf : (⟨S65536x512, .f32⟩ : BufTy).Contents (Elt F) → (⟨S65536x512, .f32⟩ : BufTy).Contents (Elt F) → (⟨S65536x512, .f32⟩ : BufTy).Contents (Elt F)) ]

/-- The first window's piece: expert 3's mask and weight slice. -/
abbrev segE3 : List (HloOp τ sig (Elt F)) :=
  [ nullary main_c_9 (constantI S_ 32 3#32),
    unary main_c_9 main_v44 (broadcastInDim S65536 ![] bcast_S_S65536 : (⟨S_, .i32⟩ : BufTy).Contents (Elt F) → (⟨S65536, .i32⟩ : BufTy).Contents (Elt F)),
    binary main_v15 main_v44 main_v45 (cmpi .eq : (⟨S65536, .i32⟩ : BufTy).Contents (Elt F) → (⟨S65536, .i32⟩ : BufTy).Contents (Elt F) → (⟨S65536, .i1⟩ : BufTy).Contents (Elt F)),
    unary main_v45 main_v46 (broadcastInDim S65536x1 ![0] bcast_S65536_S65536x1_0 : (⟨S65536, .i1⟩ : BufTy).Contents (Elt F) → (⟨S65536x1, .i1⟩ : BufTy).Contents (Elt F)),
    unary main_arg2 main_v47 ((extractStridedSlice S1x512x512 ![3, 0, 0] · slices_S4x512x512_S1x512x512_3_0_0) : (⟨S4x512x512, .f32⟩ : BufTy).Contents (Elt F) → (⟨S1x512x512, .f32⟩ : BufTy).Contents (Elt F)) ]

/-- The first window is its five pieces in order. -/
theorem ops0_split : (ops0 : List (HloOp τ sig (Elt F))) = segT ++ (segE0 ++ (segE1 ++ (segE2 ++ segE3))) := rfl

/-- Expert 0's masked product: where the row's tile is 0, the row times the expert's matrix (its two axes exchanged,
    so that the contraction runs over the matrix's second axis); zero elsewhere. -/
def masked0 (T : IVec S65536 32) (x0 : FVec F S65536x512 .f32) (x2 : FVec F S4x512x512 .f32) : FVec F S65536x512 .f32 :=
  select (broadcastInDim S65536x512 ![0, 1] bcast_S65536x1_S65536x512_0_1
      (broadcastInDim S65536x1 ![0] bcast_S65536_S65536x1_0 (cmpi .eq T (broadcastInDim S65536 ![] bcast_S_S65536 (constantI S_ 32 0#32)))))
    (Host.dotGeneral dot_S65536x512_S512x512_S65536x512_1_0_0_1_n_n none x0
      (transpose S512x512 [1, 0] (shapeCast S512x512 (extractStridedSlice S1x512x512 ![0, 0, 0] x2 slices_S4x512x512_S1x512x512_0_0_0) shapeCasts_S1x512x512_S512x512) transposes_S512x512_S512x512_1_0))
    (broadcastInDim S65536x512 ![] bcast_S_S65536x512 (constant S_ .f32 0x00000000#32))

/-- Expert 1's masked product: where the row's tile is 1, the row times the expert's matrix (its two axes exchanged,
    so that the contraction runs over the matrix's second axis); zero elsewhere. -/
def masked1 (T : IVec S65536 32) (x0 : FVec F S65536x512 .f32) (x2 : FVec F S4x512x512 .f32) : FVec F S65536x512 .f32 :=
  select (broadcastInDim S65536x512 ![0, 1] bcast_S65536x1_S65536x512_0_1
      (broadcastInDim S65536x1 ![0] bcast_S65536_S65536x1_0 (cmpi .eq T (broadcastInDim S65536 ![] bcast_S_S65536 (constantI S_ 32 1#32)))))
    (Host.dotGeneral dot_S65536x512_S512x512_S65536x512_1_0_0_1_n_n none x0
      (transpose S512x512 [1, 0] (shapeCast S512x512 (extractStridedSlice S1x512x512 ![1, 0, 0] x2 slices_S4x512x512_S1x512x512_1_0_0) shapeCasts_S1x512x512_S512x512) transposes_S512x512_S512x512_1_0))
    (broadcastInDim S65536x512 ![] bcast_S_S65536x512 (constant S_ .f32 0x00000000#32))

/-- Expert 2's masked product: where the row's tile is 2, the row times the expert's matrix (its two axes exchanged,
    so that the contraction runs over the matrix's second axis); zero elsewhere. -/
def masked2 (T : IVec S65536 32) (x0 : FVec F S65536x512 .f32) (x2 : FVec F S4x512x512 .f32) : FVec F S65536x512 .f32 :=
  select (broadcastInDim S65536x512 ![0, 1] bcast_S65536x1_S65536x512_0_1
      (broadcastInDim S65536x1 ![0] bcast_S65536_S65536x1_0 (cmpi .eq T (broadcastInDim S65536 ![] bcast_S_S65536 (constantI S_ 32 2#32)))))
    (Host.dotGeneral dot_S65536x512_S512x512_S65536x512_1_0_0_1_n_n none x0
      (transpose S512x512 [1, 0] (shapeCast S512x512 (extractStridedSlice S1x512x512 ![2, 0, 0] x2 slices_S4x512x512_S1x512x512_2_0_0) shapeCasts_S1x512x512_S512x512) transposes_S512x512_S512x512_1_0))
    (broadcastInDim S65536x512 ![] bcast_S_S65536x512 (constant S_ .f32 0x00000000#32))

/-- Expert 3's masked product: where the row's tile is 3, the row times the expert's matrix (its two axes exchanged,
    so that the contraction runs over the matrix's second axis); zero elsewhere. -/
def masked3 (T : IVec S65536 32) (x0 : FVec F S65536x512 .f32) (x2 : FVec F S4x512x512 .f32) : FVec F S65536x512 .f32 :=
  select (broadcastInDim S65536x512 ![0, 1] bcast_S65536x1_S65536x512_0_1
      (broadcastInDim S65536x1 ![0] bcast_S65536_S65536x1_0 (cmpi .eq T (broadcastInDim S65536 ![] bcast_S_S65536 (constantI S_ 32 3#32)))))
    (Host.dotGeneral dot_S65536x512_S512x512_S65536x512_1_0_0_1_n_n none x0
      (transpose S512x512 [1, 0] (shapeCast S512x512 (extractStridedSlice S1x512x512 ![3, 0, 0] x2 slices_S4x512x512_S1x512x512_3_0_0) shapeCasts_S1x512x512_S512x512) transposes_S512x512_S512x512_1_0))
    (broadcastInDim S65536x512 ![] bcast_S_S65536x512 (constant S_ .f32 0x00000000#32))

/-! ## Each piece, over any contents X before it -/

theorem segE0_keeps_v15 (X : Valuation τ sig (Elt F)) : after segE0 X (Proc.devRef .tc main_v15) = X (Proc.devRef .tc main_v15) := by
  simp only [segE0]
  after_results
theorem segE0_keeps_arg0 (X : Valuation τ sig (Elt F)) : after segE0 X (Proc.devRef .tc main_arg0) = X (Proc.devRef .tc main_arg0) := by
  simp only [segE0]
  after_results
theorem segE0_keeps_arg2 (X : Valuation τ sig (Elt F)) : after segE0 X (Proc.devRef .tc main_arg2) = X (Proc.devRef .tc main_arg2) := by
  simp only [segE0]
  after_results
theorem segE1_keeps_v15 (X : Valuation τ sig (Elt F)) : after segE1 X (Proc.devRef .tc main_v15) = X (Proc.devRef .tc main_v15) := by
  simp only [segE1]
  after_results
theorem segE1_keeps_arg0 (X : Valuation τ sig (Elt F)) : after segE1 X (Proc.devRef .tc main_arg0) = X (Proc.devRef .tc main_arg0) := by
  simp only [segE1]
  after_results
theorem segE1_keeps_arg2 (X : Valuation τ sig (Elt F)) : after segE1 X (Proc.devRef .tc main_arg2) = X (Proc.devRef .tc main_arg2) := by
  simp only [segE1]
  after_results
theorem segE2_keeps_v15 (X : Valuation τ sig (Elt F)) : after segE2 X (Proc.devRef .tc main_v15) = X (Proc.devRef .tc main_v15) := by
  simp only [segE2]
  after_results
theorem segE2_keeps_arg0 (X : Valuation τ sig (Elt F)) : after segE2 X (Proc.devRef .tc main_arg0) = X (Proc.devRef .tc main_arg0) := by
  simp only [segE2]
  after_results
theorem segE2_keeps_arg2 (X : Valuation τ sig (Elt F)) : after segE2 X (Proc.devRef .tc main_arg2) = X (Proc.devRef .tc main_arg2) := by
  simp only [segE2]
  after_results
theorem segE3_keeps_v15 (X : Valuation τ sig (Elt F)) : after segE3 X (Proc.devRef .tc main_v15) = X (Proc.devRef .tc main_v15) := by
  simp only [segE3]
  after_results
theorem segE3_keeps_arg0 (X : Valuation τ sig (Elt F)) : after segE3 X (Proc.devRef .tc main_arg0) = X (Proc.devRef .tc main_arg0) := by
  simp only [segE3]
  after_results
theorem segE3_keeps_arg2 (X : Valuation τ sig (Elt F)) : after segE3 X (Proc.devRef .tc main_arg2) = X (Proc.devRef .tc main_arg2) := by
  simp only [segE3]
  after_results

theorem segT_keeps_arg0 (X : Valuation τ sig (Elt F)) : after segT X (Proc.devRef .tc main_arg0) = X (Proc.devRef .tc main_arg0) := by
  simp only [segT]
  after_results
theorem segT_keeps_arg2 (X : Valuation τ sig (Elt F)) : after segT X (Proc.devRef .tc main_arg2) = X (Proc.devRef .tc main_arg2) := by
  simp only [segT]
  after_results
theorem segE1_keeps_v25 (X : Valuation τ sig (Elt F)) : after segE1 X (Proc.devRef .tc main_v25) = X (Proc.devRef .tc main_v25) := by
  simp only [segE1]
  after_results
theorem segE2_keeps_v34 (X : Valuation τ sig (Elt F)) : after segE2 X (Proc.devRef .tc main_v34) = X (Proc.devRef .tc main_v34) := by
  simp only [segE2]
  after_results
theorem segE3_keeps_v43 (X : Valuation τ sig (Elt F)) : after segE3 X (Proc.devRef .tc main_v43) = X (Proc.devRef .tc main_v43) := by
  simp only [segE3]
  after_results

set_option maxHeartbeats 1000000 in
theorem segE0_v25 (X : Valuation τ sig (Elt F)) : after segE0 X (Proc.devRef .tc main_v25)
    = addf (broadcastInDim S65536x512 ![] bcast_S_S65536x512 (constant S_ .f32 0x00000000#32))
        (masked0 (X (Proc.devRef .tc main_v15)) (X (Proc.devRef .tc main_arg0)) (X (Proc.devRef .tc main_arg2))) := by
  unfold masked0
  simp only [segE0, after_cons, after_nil]
  rfl

set_option maxHeartbeats 1000000 in
theorem segE1_v34 (X : Valuation τ sig (Elt F)) : after segE1 X (Proc.devRef .tc main_v34)
    = addf (X (Proc.devRef .tc main_v25))
        (masked1 (X (Proc.devRef .tc main_v15)) (X (Proc.devRef .tc main_arg0)) (X (Proc.devRef .tc main_arg2))) := by
  unfold masked1
  simp only [segE1, after_cons, after_nil]
  rfl

set_option maxHeartbeats 1000000 in
theorem segE2_v43 (X : Valuation τ sig (Elt F)) : after segE2 X (Proc.devRef .tc main_v43)
    = addf (X (Proc.devRef .tc main_v34))
        (masked2 (X (Proc.devRef .tc main_v15)) (X (Proc.devRef .tc main_arg0)) (X (Proc.devRef .tc main_arg2))) := by
  unfold masked2
  simp only [segE2, after_cons, after_nil]
  rfl

set_option maxHeartbeats 1000000 in
/-- The second window with the last piece of the first: the last masked product added, scaled by 30, through sine. -/
theorem tail_v55 (X : Valuation τ sig (Elt F)) : after ops1 (after segE3 X) (Proc.devRef .tc main_v55)
    = Host.sin (mulf (broadcastInDim S65536x512 ![] bcast_S_S65536x512 (constant S_ .f32 0x41F00000#32))
        (addf (X (Proc.devRef .tc main_v43))
          (masked3 (X (Proc.devRef .tc main_v15)) (X (Proc.devRef .tc main_arg0)) (X (Proc.devRef .tc main_arg2))))) := by
  unfold masked3
  simp only [ops1, segE3, after_cons, after_nil]
  rfl

end Cert.ReferenceIdeal.RefSegments

end
-- ==== Proof.RefValueAt.lean ====
/-
  The reference's result at an index, at the ideal instance. At row b and column q, expert K's masked product is the
  select on "the row's tile word is K" between  Σ_k features[b, k] · weights[K, q, k]  and zero: the mask is the tile
  comparison broadcast along the row; the product is jnp's dot_general, a plain sum over the contracted axis, of the
  row with the expert's matrix read with its two axes exchanged. When the tile word is one of 0, 1, 2, 3 exactly one
  of the four selects keeps its product and the others are zero, so the sum of the four on top of zero is the
  product of the row's own expert — no finiteness is needed: 0 + x and x + 0 are x on all the extended reals.
-/
import proofs.«132175_j34754875359890_2_alg».proof.Proof.RefSegments
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValueAt

open Cert.ReferenceIdeal Cert.ReferenceIdeal.Gen Cert.ReferenceIdeal.RefRun Cert.ReferenceIdeal.RefSegments
open Idealize.ShloMosaic Idealize.ShloMosaic.TcCoe Idealize.SL.Sem Idealize.ShloMosaic.StableHlo Idealize.ShloMosaic.ValueIdx

/-! ## The contraction -/

/-- The reference's contraction: rows [65536, 512] against a [512, 512] matrix over the rows' axis 1 and the matrix's axis 0. -/
abbrev DR := dot_S65536x512_S512x512_S65536x512_1_0_0_1_n_n

theorem DR_rank : DR.contr.rank = 1 := by decide
theorem DR_size : DR.contr.size ⟨0, by rw [DR_rank]; exact Nat.one_pos⟩ = 512 := by decide

/-- The contracted index is one coordinate below 512. -/
def depth : DR.contr.Idx ≃ Fin 512 := contrEquiv1 DR 512 DR_rank DR_size

theorem lhs_at (b : Fin 65536) (q : Fin 512) (k : Fin 512) : DR.lhsIdx (ix2 b q) (depth.symm k) = ix2 b k := by
  funext a
  apply Fin.ext
  match a with
  | ⟨0, _⟩ => simp [DotDims.lhsIdx, DR, dot_S65536x512_S512x512_S65536x512_1_0_0_1_n_n]; rfl
  | ⟨1, _⟩ =>
    refine (DotDims.lhsIdx_val_of_single (d := DR) (cl := (1 : Fin 2)) rfl (ix2 b q) (depth.symm k)).trans ?_
    exact contrEquiv1_symm_val DR 512 DR_rank DR_size k

theorem rhs_at (b : Fin 65536) (q : Fin 512) (k : Fin 512) : DR.rhsIdx (ix2 b q) (depth.symm k) = ix2 k q := by
  funext a
  apply Fin.ext
  match a with
  | ⟨0, _⟩ =>
    refine (DotDims.rhsIdx_val_of_single (d := DR) (cr := (0 : Fin 2)) rfl (ix2 b q) (depth.symm k)).trans ?_
    exact contrEquiv1_symm_val DR 512 DR_rank DR_size k
  | ⟨1, _⟩ => simp [DotDims.rhsIdx, DR, dot_S65536x512_S512x512_S65536x512_1_0_0_1_n_n]; rfl

/-- Row b times expert K's matrix with its axes exchanged, at column q: Σ_k features[b, k] · weights[K, q, k]. -/
theorem prod_apply (x0 : FVec Ideal S65536x512 .f32) (x2 : FVec Ideal S4x512x512 .f32) (K : Fin 4) (off : Fin 3 → Nat)
    (hoff : off = ![K.val, 0, 0]) (hs : S4x512x512.Slices off S1x512x512) (b : Fin 65536) (q : Fin 512) :
    Host.dotGeneral (F := Ideal) DR none x0
        (transpose S512x512 [1, 0] (shapeCast S512x512 (extractStridedSlice S1x512x512 off x2 hs) shapeCasts_S1x512x512_S512x512) transposes_S512x512_S512x512_1_0)
        (ix2 b q)
      = ∑ k : Fin 512, x0 (ix2 b k) * x2 (ix3 K q k) := by
  simp only [Host.dotGeneral]
  rw [Ideal.dotGeneral_apply, ← Equiv.sum_comp depth.symm]
  refine Finset.sum_congr rfl fun k _ => ?_
  rw [lhs_at, rhs_at, transpose_ix2_apply, shapeCast_1ab_ab_apply]
  refine congrArg (x0 (ix2 b k) * ·) ?_
  refine extractStridedSlice_apply off x2 hs (ix3 (0 : Fin 1) q k) (ix3 K q k) fun a => ?_
  subst hoff
  match a with
  | ⟨0, _⟩ => show K.val = K.val + 0; omega
  | ⟨1, _⟩ => show q.val = 0 + q.val; omega
  | ⟨2, _⟩ => show k.val = 0 + k.val; omega

/-! ## The mask -/

/-- The tile comparison broadcast along the row, read at (b, q). -/
theorem mask_apply (T : IVec S65536 32) (K : BitVec 32) (b : Fin 65536) (q : Fin 512) :
    broadcastInDim S65536x512 ![0, 1] bcast_S65536x1_S65536x512_0_1
        (broadcastInDim S65536x1 ![0] bcast_S65536_S65536x1_0 (cmpi .eq T (broadcastInDim S65536 ![] bcast_S_S65536 (constantI S_ 32 K)))) (ix2 b q)
      = IntOp.cmpi .eq (T (ix1 b)) K := by
  refine (broadcastInDim_apply _ _ _ (ix2 b q) (ix2 b (0 : Fin 1)) fun a => ?_).trans ?_
  · match a with
    | ⟨0, _⟩ => show b.val = if (65536 : Nat) = 1 then 0 else b.val; rw [if_neg (by decide)]
    | ⟨1, _⟩ => show (0 : Nat) = if (1 : Nat) = 1 then 0 else q.val; rw [if_pos rfl]
  refine (broadcastInDim_apply _ _ _ (ix2 b (0 : Fin 1)) (ix1 b) fun a => ?_).trans ?_
  · match a with
    | ⟨0, _⟩ => show b.val = if (65536 : Nat) = 1 then 0 else b.val; rw [if_neg (by decide)]
  rfl

/-! ## One select among four -/

theorem sel_eq (a : BitVec 32) (x y : EReal) : Scalar.select (IntOp.cmpi .eq a a) x y = x := by
  simp [Scalar.select, IntOp.cmpi]
theorem sel_ne (a b : BitVec 32) (h : a ≠ b) (x y : EReal) : Scalar.select (IntOp.cmpi .eq a b) x y = y := by
  have hb : (a == b) = false := beq_false_of_ne h
  unfold Scalar.select IntOp.cmpi
  rw [hb]
  exact if_neg (by show ¬ BitVec.ofBool false = 1#1; decide)

/-- On top of zero, the four selects on "the tile word is K" of the four products sum to the product of the tile. -/
theorem masked_sum (e : Fin 4) (p : Fin 4 → EReal) :
    ((((0 : EReal) + Scalar.select (IntOp.cmpi .eq (BitVec.ofNat 32 e.val) 0#32) (p 0) 0)
        + Scalar.select (IntOp.cmpi .eq (BitVec.ofNat 32 e.val) 1#32) (p 1) 0)
        + Scalar.select (IntOp.cmpi .eq (BitVec.ofNat 32 e.val) 2#32) (p 2) 0)
        + Scalar.select (IntOp.cmpi .eq (BitVec.ofNat 32 e.val) 3#32) (p 3) 0 = p e := by
  fin_cases e
  · show ((((0 : EReal) + Scalar.select (IntOp.cmpi .eq 0#32 0#32) (p 0) 0) + Scalar.select (IntOp.cmpi .eq 0#32 1#32) (p 1) 0)
      + Scalar.select (IntOp.cmpi .eq 0#32 2#32) (p 2) 0) + Scalar.select (IntOp.cmpi .eq 0#32 3#32) (p 3) 0 = p 0
    rw [sel_eq, sel_ne _ _ (by decide), sel_ne _ _ (by decide), sel_ne _ _ (by decide), zero_add, add_zero, add_zero, add_zero]
  · show ((((0 : EReal) + Scalar.select (IntOp.cmpi .eq 1#32 0#32) (p 0) 0) + Scalar.select (IntOp.cmpi .eq 1#32 1#32) (p 1) 0)
      + Scalar.select (IntOp.cmpi .eq 1#32 2#32) (p 2) 0) + Scalar.select (IntOp.cmpi .eq 1#32 3#32) (p 3) 0 = p 1
    rw [sel_eq, sel_ne _ _ (by decide), sel_ne _ _ (by decide), sel_ne _ _ (by decide), zero_add, zero_add, add_zero, add_zero]
  · show ((((0 : EReal) + Scalar.select (IntOp.cmpi .eq 2#32 0#32) (p 0) 0) + Scalar.select (IntOp.cmpi .eq 2#32 1#32) (p 1) 0)
      + Scalar.select (IntOp.cmpi .eq 2#32 2#32) (p 2) 0) + Scalar.select (IntOp.cmpi .eq 2#32 3#32) (p 3) 0 = p 2
    rw [sel_eq, sel_ne _ _ (by decide), sel_ne _ _ (by decide), sel_ne _ _ (by decide), zero_add, zero_add, zero_add, add_zero]
  · show ((((0 : EReal) + Scalar.select (IntOp.cmpi .eq 3#32 0#32) (p 0) 0) + Scalar.select (IntOp.cmpi .eq 3#32 1#32) (p 1) 0)
      + Scalar.select (IntOp.cmpi .eq 3#32 2#32) (p 2) 0) + Scalar.select (IntOp.cmpi .eq 3#32 3#32) (p 3) 0 = p 3
    rw [sel_eq, sel_ne _ _ (by decide), sel_ne _ _ (by decide), sel_ne _ _ (by decide), zero_add, zero_add, zero_add, zero_add]

/-! ## Each masked product, and the result, at an index -/

/-- The zero splat read at an index is zero. -/
theorem zero_splat_apply (b : Fin 65536) (q : Fin 512) :
    broadcastInDim S65536x512 ![] bcast_S_S65536x512 (constant (F := Ideal) S_ .f32 0x00000000#32) (ix2 b q) = 0 := by
  refine (broadcastInDim_apply _ _ _ (ix2 b q) ix0 (fun a => a.elim0)).trans ?_
  show Ideal.ofBits .f32 0x00000000#32 = 0
  exact Ideal.ofBits_zero_f32

/-- The splat of 30 read at an index is the literal's value. -/
theorem thirty_splat_apply (b : Fin 65536) (q : Fin 512) :
    broadcastInDim S65536x512 ![] bcast_S_S65536x512 (constant (F := Ideal) S_ .f32 0x41F00000#32) (ix2 b q) = Ideal.ofBits .f32 0x41F00000#32 :=
  broadcastInDim_apply _ _ _ (ix2 b q) ix0 (fun a => a.elim0)

theorem masked0_apply (T : IVec S65536 32) (x0 : FVec Ideal S65536x512 .f32) (x2 : FVec Ideal S4x512x512 .f32) (b : Fin 65536) (q : Fin 512) :
    masked0 (F := Ideal) T x0 x2 (ix2 b q)
      = Scalar.select (IntOp.cmpi .eq (T (ix1 b)) 0#32) (∑ k : Fin 512, x0 (ix2 b k) * x2 (ix3 (0 : Fin 4) q k)) 0 := by
  unfold masked0
  refine (select_apply _ _ _ (ix2 b q)).trans ?_
  rw [mask_apply, prod_apply x0 x2 (0 : Fin 4) ![0, 0, 0] rfl slices_S4x512x512_S1x512x512_0_0_0 b q, zero_splat_apply]

theorem masked1_apply (T : IVec S65536 32) (x0 : FVec Ideal S65536x512 .f32) (x2 : FVec Ideal S4x512x512 .f32) (b : Fin 65536) (q : Fin 512) :
    masked1 (F := Ideal) T x0 x2 (ix2 b q)
      = Scalar.select (IntOp.cmpi .eq (T (ix1 b)) 1#32) (∑ k : Fin 512, x0 (ix2 b k) * x2 (ix3 (1 : Fin 4) q k)) 0 := by
  unfold masked1
  refine (select_apply _ _ _ (ix2 b q)).trans ?_
  rw [mask_apply, prod_apply x0 x2 (1 : Fin 4) ![1, 0, 0] rfl slices_S4x512x512_S1x512x512_1_0_0 b q, zero_splat_apply]

theorem masked2_apply (T : IVec S65536 32) (x0 : FVec Ideal S65536x512 .f32) (x2 : FVec Ideal S4x512x512 .f32) (b : Fin 65536) (q : Fin 512) :
    masked2 (F := Ideal) T x0 x2 (ix2 b q)
      = Scalar.select (IntOp.cmpi .eq (T (ix1 b)) 2#32) (∑ k : Fin 512, x0 (ix2 b k) * x2 (ix3 (2 : Fin 4) q k)) 0 := by
  unfold masked2
  refine (select_apply _ _ _ (ix2 b q)).trans ?_
  rw [mask_apply, prod_apply x0 x2 (2 : Fin 4) ![2, 0, 0] rfl slices_S4x512x512_S1x512x512_2_0_0 b q, zero_splat_apply]

theorem masked3_apply (T : IVec S65536 32) (x0 : FVec Ideal S65536x512 .f32) (x2 : FVec Ideal S4x512x512 .f32) (b : Fin 65536) (q : Fin 512) :
    masked3 (F := Ideal) T x0 x2 (ix2 b q)
      = Scalar.select (IntOp.cmpi .eq (T (ix1 b)) 3#32) (∑ k : Fin 512, x0 (ix2 b k) * x2 (ix3 (3 : Fin 4) q k)) 0 := by
  unfold masked3
  refine (select_apply _ _ _ (ix2 b q)).trans ?_
  rw [mask_apply, prod_apply x0 x2 (3 : Fin 4) ![3, 0, 0] rfl slices_S4x512x512_S1x512x512_3_0_0 b q, zero_splat_apply]

/-- The reference's operations are the tile piece, the four experts' pieces and the second window, in order. -/
theorem after_ops_eq (V : Valuation τ sig (Elt Ideal)) :
    after ops V = after ops1 (after segE3 (after segE2 (after segE1 (after segE0 (after segT V))))) := by
  show after (ops0 ++ ops1) V = _
  rw [StableHlo.after_append, ops0_split, StableHlo.after_append, StableHlo.after_append, StableHlo.after_append, StableHlo.after_append]

/-- THE REFERENCE'S RESULT AS ONE TERM of the tile array the first piece leaves and the two arguments. -/
theorem result_eq (V : Valuation τ sig (Elt Ideal)) :
    after ops V (Proc.devRef .tc main_v55)
      = (Host.sin (F := Ideal) (mulf (broadcastInDim S65536x512 ![] bcast_S_S65536x512 (constant (F := Ideal) S_ .f32 0x41F00000#32))
          (addf (addf (addf (addf (broadcastInDim S65536x512 ![] bcast_S_S65536x512 (constant (F := Ideal) S_ .f32 0x00000000#32))
            (masked0 (F := Ideal) (after segT V (Proc.devRef .tc main_v15)) (V (Proc.devRef .tc main_arg0)) (V (Proc.devRef .tc main_arg2))))
            (masked1 (F := Ideal) (after segT V (Proc.devRef .tc main_v15)) (V (Proc.devRef .tc main_arg0)) (V (Proc.devRef .tc main_arg2))))
            (masked2 (F := Ideal) (after segT V (Proc.devRef .tc main_v15)) (V (Proc.devRef .tc main_arg0)) (V (Proc.devRef .tc main_arg2))))
            (masked3 (F := Ideal) (after segT V (Proc.devRef .tc main_v15)) (V (Proc.devRef .tc main_arg0)) (V (Proc.devRef .tc main_arg2))))) : FVec Ideal S65536x512 .f32) := by
  rw [after_ops_eq, tail_v55, segE2_v43, segE2_keeps_v15, segE2_keeps_arg0, segE2_keeps_arg2,
    segE1_v34, segE1_keeps_v15, segE1_keeps_arg0, segE1_keeps_arg2,
    segE0_v25, segE0_keeps_v15, segE0_keeps_arg0, segE0_keeps_arg2, segT_keeps_arg0, segT_keeps_arg2]

/-- THE REFERENCE'S RESULT AT AN INDEX, when the tile word of row b is e b, one of 0, 1, 2, 3. -/
theorem result_apply (V : Valuation τ sig (Elt Ideal)) (e : Fin 65536 → Fin 4)
    (hT : ∀ b, after segT V (Proc.devRef .tc main_v15) (ix1 b) = BitVec.ofNat 32 (e b).val)
    (x0 : FVec Ideal S65536x512 .f32) (hx0 : V (Proc.devRef .tc main_arg0) = x0)
    (x2 : FVec Ideal S4x512x512 .f32) (hx2 : V (Proc.devRef .tc main_arg2) = x2) (b : Fin 65536) (q : Fin 512) :
    after ops V (Proc.devRef .tc main_v55) (ix2 b q)
      = Ideal.sin (Ideal.ofBits .f32 0x41F00000#32 * ∑ k : Fin 512, x0 (ix2 b k) * x2 (ix3 (e b) q k)) := by
  rw [result_eq, hx0, hx2]
  generalize hTdef : after segT V (Proc.devRef .tc main_v15) = T at hT
  show Ideal.sin (broadcastInDim S65536x512 ![] bcast_S_S65536x512 (constant (F := Ideal) S_ .f32 0x41F00000#32) (ix2 b q)
      * ((((broadcastInDim S65536x512 ![] bcast_S_S65536x512 (constant (F := Ideal) S_ .f32 0x00000000#32) (ix2 b q)
          + masked0 (F := Ideal) T x0 x2 (ix2 b q)) + masked1 (F := Ideal) T x0 x2 (ix2 b q))
          + masked2 (F := Ideal) T x0 x2 (ix2 b q)) + masked3 (F := Ideal) T x0 x2 (ix2 b q))) = _
  rw [thirty_splat_apply, zero_splat_apply, masked0_apply, masked1_apply, masked2_apply, masked3_apply, hT b]
  exact congrArg (fun z => Ideal.sin (Ideal.ofBits .f32 0x41F00000#32 * z))
    (masked_sum (e b) (fun K => ∑ k : Fin 512, x0 (ix2 b k) * x2 (ix3 K q k)))

end Cert.ReferenceIdeal.RefValueAt

end
-- ==== Proof.Bridge.lean ====
/-
  The two results are one array, GIVEN the counting sort's facts. For a device c, a tile map e : rows → {0, 1, 2, 3} is
  ROUTED when
    · the reference's tile word of row b is e b                                   (the tile computation's range),
    · the kernel's normalized padded position of every row is inside 0 … 69631,
    · no two rows share a position,
    · the table word of the 1024-row block of b's position is e b.
  Under a routed tile map both sides are, at (b, q),  sin (30 · Σ_k features[b, k] · weights[e b, q, k]) : the routed
  side by the placement (Proof/Placement.lean), the reference by its masked sum (Proof/RefValueAt.lean).
-/
import proofs.«132175_j34754875359890_2_alg».proof.Proof.Placement
import proofs.«132175_j34754875359890_2_alg».proof.Proof.RefValueAt

set_option maxRecDepth 16384

noncomputable section

namespace Cert.Proof.Bridge

open Idealize.ShloMosaic Idealize.ShloMosaic.TcCoe Idealize.SL.Sem Idealize.ShloMosaic.ValueIdx

/-- The counting sort's facts about a tile map, on device c (see the header). -/
structure Routed (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (e : Fin 65536 → Fin 4) : Prop where
  tile : ∀ b, StableHlo.after (Cert.ReferenceIdeal.RefSegments.segT (F := Ideal)) (StableHlo.launchContents m' c)
      (Proc.devRef .tc Cert.ReferenceIdeal.main_v15) (ix1 b) = BitVec.ofNat 32 (e b).val
  range : ∀ b, 0 ≤ Cert.KernelIdeal.Placement.placeOf (Cert.KernelIdeal.Gen.V m c Cert.KernelIdeal.main_v49) b
      ∧ Cert.KernelIdeal.Placement.placeOf (Cert.KernelIdeal.Gen.V m c Cert.KernelIdeal.main_v49) b < 69632
  inj : ∀ b b', Cert.KernelIdeal.Placement.placeOf (Cert.KernelIdeal.Gen.V m c Cert.KernelIdeal.main_v49) b'
      = Cert.KernelIdeal.Placement.placeOf (Cert.KernelIdeal.Gen.V m c Cert.KernelIdeal.main_v49) b → b' = b
  expert : ∀ b, Cert.KernelIdeal.KernelRun.expert m
      ⟨(Cert.KernelIdeal.Placement.placeOf (Cert.KernelIdeal.Gen.V m c Cert.KernelIdeal.main_v49) b).toNat / 1024, by have := range b; omega⟩ = e b

/-- THE TWO RESULTS ARE ONE ARRAY under a routed tile map, on memories agreeing on the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e : Fin 65536 → Fin 4) (hR : Routed m m' c e) :
    StableHlo.after (Cert.ReferenceIdeal.RefRun.ops (F := Ideal)) (StableHlo.launchContents m' c) (Proc.devRef .tc Cert.ReferenceIdeal.main_v55)
      = Host.gather Cert.KernelIdeal.KernelRun.GD
          (Cert.KernelIdeal.PaddedOutput.padded (Cert.KernelIdeal.KernelRun.rows m c) (Cert.KernelIdeal.KernelRun.weightsT m c) (Cert.KernelIdeal.KernelRun.expert m))
          (Cert.KernelIdeal.KernelRun.posIdx (Cert.KernelIdeal.Gen.V m c Cert.KernelIdeal.main_v49)) := by
  funext i
  obtain ⟨b, q, rfl⟩ : ∃ (b : Fin 65536) (q : Fin 512), i = ix2 b q := ⟨i 0, i 1, eq_ix2 i⟩
  refine (Cert.ReferenceIdeal.RefValueAt.result_apply (StableHlo.launchContents m' c) e hR.tile
    (Cert.KernelIdeal.Placement.feats m c) h0 (Cert.KernelIdeal.Placement.wts m c) h2 b q).trans ?_
  exact (Cert.KernelIdeal.Placement.result_apply m c e hR.range hR.inj hR.expert b q).symm

end Cert.Proof.Bridge

end
-- ==== Proof.HostChain.lean ====
/-
  The kernel's counting sort, read off its host operations as pure functions of the tile array. From the tile array T:
  the one-hot array (row b, bucket e: 1 where T b = e); its cumulative sum down the rows; each row's entry of that sum
  in its own bucket (a gather along the bucket axis, guarded by an in-range mask), less one — the row's rank; the last
  row of the sum — the bucket sizes; each size plus 1023, floor-divided by 1024, times 1024 — the padded sizes; and their
  cumulative sum — the bucket bounds. Each group of host stretches is read over ANY contents X before it.
-/
import proofs.«132175_j34754875359890_2_alg».proof.Proof.HostPrefix

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

/-! ## The pure functions -/

/-- Row b, bucket e: 1 where the tile of b is e, else 0. -/
def onehot (T : IVec S65536 32) : IVec S65536x4 32 :=
  extui 32 (cmpi .eq (broadcastInDim S65536x4 ![0, 1] bcast_S65536x1_S65536x4_0_1 (broadcastInDim S65536x1 ![0] bcast_S65536_S65536x1_0 T))
    (broadcastInDim S65536x4 ![0, 1] bcast_S1x4_S65536x4_0_1 (broadcastInDim S1x4 ![1] bcast_S4_S1x4_1 (iotaInDim S4 32 0)))) natLt_1_32

/-- The cumulative sum down the rows. -/
def cumRows (x : IVec S65536x4 32) : IVec S65536x4 32 :=
  Host.reduceWindow IntOp.addi ![65536, 1] ![1, 1] ![65535, 0] ![0, 0] x (broadcastInDim S_ ![] bcast_S_S_ (constantI S_ 32 0#32))
    reduceWindows_S65536x4_S65536x4_w65536s1p65535_0_w1s1p0_0 h_S_

/-- The index of the gather along the bucket axis: the tile, a negative one wrapped by 4, as an [R, 1, 1] array. -/
def alongIdx (I : IVec S65536x1 32) : IVec S65536x1x1 32 :=
  shapeCast S65536x1x1 (select (cmpi .slt I (broadcastInDim S65536x1 ![] bcast_S_S65536x1 (constantI S_ 32 0#32)))
    (addi I (broadcastInDim S65536x1 ![] bcast_S_S65536x1 (constantI S_ 32 4#32))) I) shapeCasts_S65536x1_S65536x1x1

/-- jnp's take_along_axis as printed: the gather, kept where the index is in 0 … 3, the least integer elsewhere. -/
def takeAlong (C : IVec S65536x4 32) (I : IVec S65536x1 32) : IVec S65536x1 32 :=
  select
    (Host.reduce IntOp.andi
      (andi (cmpi .sge (alongIdx I) (broadcastInDim S65536x1x1 ![] bcast_S_S65536x1x1 (constantI S_ 32 0#32)))
        (cmpi .sle (alongIdx I) (broadcastInDim S65536x1x1 ![0, 1, 2] bcast_S1x1x1_S65536x1x1_0_1_2
          (broadcastInDim S1x1x1 ![2] bcast_S1_S1x1x1_2 (constantI S1 32 3#32)))))
      (constantI S_ 1 1#1) reducesTo_S65536x1x1_S65536x1_d2 h_S_)
    (Host.gather gather_S65536x4_S65536x1x1_S65536x1_n_1_0_0_1_2_11 C (alongIdx I))
    (broadcastInDim S65536x1 ![] bcast_S_S65536x1 (constantI S_ 32 2147483648#32))

-- the layout and pointwise operations are compared as names, never opened, when a group's fold is read back
section ReadBack
attribute [local irreducible] shapeCast extractStridedSlice broadcastInDim select cmpi addi subi muli andi extui constantI iotaInDim
  Host.reduceWindow Host.reduce Host.gather Host.divsi Host.remsi signi

/-! ## Stretch 4: the tile and the one-hot array -/

theorem s4_v15 (X : Valuation τ sig (Elt Ideal)) :
    after hostOps0_4 X (Proc.devRef .tc main_v15)
      = addi (muli (broadcastInDim S65536 ![] bcast_S_S65536 (constantI S_ 32 2#32)) (X (Proc.devRef .tc main_v7))) (X (Proc.devRef .tc main_v12)) := by
  simp only [hostOps0_4, after_cons, after_nil]
  rfl

theorem s4_v22 (X : Valuation τ sig (Elt Ideal)) :
    after hostOps0_4 X (Proc.devRef .tc main_v22) = onehot (after hostOps0_4 X (Proc.devRef .tc main_v15)) := by
  unfold onehot
  simp only [hostOps0_4, after_cons, after_nil]
  rfl

/-! ## Stretches 5–7: the cumulative sum and each row's entry in its own bucket -/

set_option maxHeartbeats 1000000 in
theorem s567_v23 (X : Valuation τ sig (Elt Ideal)) :
    after hostOps0_7 (after hostOps0_6 (after hostOps0_5 X)) (Proc.devRef .tc main_v23) = cumRows (X (Proc.devRef .tc main_v22)) := by
  unfold cumRows
  simp only [hostOps0_7, hostOps0_6, hostOps0_5, after_cons, after_nil]
  rfl

set_option maxHeartbeats 1000000 in
theorem s567_v15 (X : Valuation τ sig (Elt Ideal)) :
    after hostOps0_7 (after hostOps0_6 (after hostOps0_5 X)) (Proc.devRef .tc main_v15) = X (Proc.devRef .tc main_v15) := by
  simp only [hostOps0_7, hostOps0_6, hostOps0_5, after_cons, after_nil]
  rfl

set_option maxHeartbeats 2000000 in
theorem s567_v25 (X : Valuation τ sig (Elt Ideal)) :
    after hostOps0_7 (after hostOps0_6 (after hostOps0_5 X)) (Proc.devRef .tc main_v25)
      = takeAlong (cumRows (X (Proc.devRef .tc main_v22)))
          (broadcastInDim S65536x1 ![0] bcast_S65536_S65536x1_0 (X (Proc.devRef .tc main_v15))) := by
  unfold takeAlong alongIdx cumRows
  simp only [hostOps0_7, hostOps0_6, hostOps0_5, after_cons, after_nil]
  rfl

end ReadBack

end Cert.KernelIdeal.HostChain

end
-- ==== Proof.LibCumsum.lean ====
/-
  jnp's `cumsum` down the rows of an [N, C] integer array lowers to a windowed sum: a window of N rows and one column,
  stride one, the rows padded with N − 1 zeros on the low side. Read at (b, e) it is the wrapping sum of column e over
  rows 0 … b — the inclusive prefix sum. The window at b covers padded rows b … b + N − 1, that is rows b − (N − 1) … b
  of the array, of which those below 0 are padding and contribute the initial value 0. The same for a vector of N words.
-/
import Idealize.ShloMosaic.PureOps.Contract
import Idealize.ShloMosaic.Lib.ValueIdx
import Mathlib.Data.BitVec

namespace Idealize.ShloMosaic.LibCumsum

open Idealize.ShloMosaic.ValueIdx

/-- A left fold of wrapping additions over a list is the start plus the list's sum. -/
theorem foldl_addi_eq {ι : Type} (g : ι → BitVec 32) (L : List ι) (a : BitVec 32) :
    L.foldl (fun r n => IntOp.addi r (g n)) a = a + (L.map g).sum := by
  induction L generalizing a with
  | nil => simp
  | cons n L ih =>
    rw [List.foldl_cons, ih, List.map_cons, List.sum_cons]
    show a + g n + _ = _
    rw [BitVec.add_assoc]

/-- Over all of `Fin M`, that fold from 0 is the finite sum. -/
theorem foldl_finRange_eq_sum {M : Nat} (g : Fin M → BitVec 32) :
    (List.finRange M).foldl (fun r n => IntOp.addi r (g n)) 0#32 = ∑ n : Fin M, g n := by
  rw [foldl_addi_eq, BitVec.zero_add, Fin.sum_univ_def]

/-- A sum over the first b + 1 indices, reflected: Σ_{k ≤ b} f (b − k) = Σ_{b' ≤ b} f b'. -/
theorem sum_le_reflect {N : Nat} (b : Fin N) (f : Fin N → BitVec 32) :
    (∑ k : Fin N, if h : k.val ≤ b.val then f ⟨b.val - k.val, by have := b.isLt; omega⟩ else 0)
      = ∑ b' : Fin N, if b'.val ≤ b.val then f b' else 0 := by
  have hl : (∑ k : Fin N, if h : k.val ≤ b.val then f ⟨b.val - k.val, by have := b.isLt; omega⟩ else 0)
      = ∑ k ∈ Finset.univ.filter (fun k : Fin N => k.val ≤ b.val), f ⟨b.val - k.val, by have := b.isLt; omega⟩ := by
    rw [Finset.sum_filter]
    refine Finset.sum_congr rfl fun k _ => ?_
    by_cases h : k.val ≤ b.val
    · rw [dif_pos h, if_pos h]
    · rw [dif_neg h, if_neg h]
  have hr : (∑ b' : Fin N, if b'.val ≤ b.val then f b' else 0)
      = ∑ b' ∈ Finset.univ.filter (fun k : Fin N => k.val ≤ b.val), f b' := by
    rw [Finset.sum_filter]
  rw [hl, hr]
  refine Finset.sum_nbij' (fun k => ⟨b.val - k.val, by have := b.isLt; omega⟩) (fun k => ⟨b.val - k.val, by have := b.isLt; omega⟩) ?_ ?_ ?_ ?_ ?_
  · intro k hk
    have := (Finset.mem_filter.mp hk).2
    exact Finset.mem_filter.mpr ⟨Finset.mem_univ _, by show b.val - k.val ≤ b.val; omega⟩
  · intro k hk
    exact Finset.mem_filter.mpr ⟨Finset.mem_univ _, by show b.val - k.val ≤ b.val; omega⟩
  · intro k hk
    have := (Finset.mem_filter.mp hk).2
    exact Fin.ext (by show b.val - (b.val - k.val) = k.val; omega)
  · intro k hk
    have := (Finset.mem_filter.mp hk).2
    exact Fin.ext (by show b.val - (b.val - k.val) = k.val; omega)
  · intro k _
    rfl

/-- THE CUMULATIVE SUM DOWN THE ROWS, AT AN INDEX: the inclusive prefix sum of the column. -/
theorem reduceWindow_cumsum_rows {N C : Nat} (hN : 0 < N)
    (x : IVec ⟨2, ![N, C]⟩ 32) (init : IVec ⟨0, ![]⟩ 32) (hinit : ∀ i, init i = 0#32)
    (h : (⟨2, ![N, C]⟩ : Shape).ReduceWindows (![N, 1] : Fin 2 → Nat) ![1, 1] ![N - 1, 0] ![0, 0] ⟨2, ![N, C]⟩)
    (hu : 0 < (⟨0, ![]⟩ : Shape).numel) (b : Fin N) (e : Fin C) :
    Host.reduceWindow IntOp.addi (![N, 1] : Fin 2 → Nat) ![1, 1] ![N - 1, 0] ![0, 0] x init h hu (ix2 b e)
      = ∑ b' : Fin N, if b'.val ≤ b.val then x (ix2 b' e) else 0 := by
  unfold Host.reduceWindow
  dsimp only
  rw [hinit, foldl_finRange_eq_sum]
  rw [← Equiv.sum_comp (⟨2, ![N, 1]⟩ : Shape).rowMajor]
  simp only [Equiv.symm_apply_apply]
  rw [sum_idx2]
  simp only [Fin.sum_univ_one]
  -- each window row k: inside the array iff N − 1 ≤ b + k, and then it is row b + k − (N − 1)
  refine Eq.trans (Finset.sum_congr rfl (fun k _ => ?_) :
    _ = ∑ k : Fin N, if h' : N - 1 ≤ b.val + k.val then x (ix2 (⟨b.val + k.val - (N - 1), by have := k.isLt; omega⟩ : Fin N) e) else 0) ?_
  · by_cases hc : N - 1 ≤ b.val + k.val
    · rw [dif_pos hc, dif_pos]
      · refine congrArg x (funext fun a => Fin.ext ?_)
        match a with
        | ⟨0, _⟩ => show b.val * 1 + k.val - (N - 1) = b.val + k.val - (N - 1); omega
        | ⟨1, _⟩ => show e.val * 1 + 0 - 0 = e.val; omega
      · intro a
        match a with
        | ⟨0, _⟩ => show N - 1 ≤ b.val * 1 + k.val ∧ b.val * 1 + k.val - (N - 1) < N; have := k.isLt; omega
        | ⟨1, _⟩ => show 0 ≤ e.val * 1 + 0 ∧ e.val * 1 + 0 - 0 < C; have := e.isLt; omega
    · rw [dif_neg hc, dif_neg]
      · rfl
      · intro hall
        have h0 : N - 1 ≤ b.val * 1 + k.val := (hall 0).1
        exact hc (by omega)
  -- reflect the window row: k ↦ N − 1 − k turns "N − 1 ≤ b + k" into "k ≤ b" and the row into b − k
  rw [← Equiv.sum_comp Fin.revPerm]
  refine Eq.trans (Finset.sum_congr rfl (fun k _ => ?_) :
    _ = ∑ k : Fin N, if h : k.val ≤ b.val then (fun r : Fin N => x (ix2 r e)) ⟨b.val - k.val, by have := b.isLt; omega⟩ else 0) ?_
  · have hk := k.isLt
    have hrev : (Fin.revPerm k).val = N - (k.val + 1) := Fin.val_rev k
    by_cases hc : k.val ≤ b.val
    · rw [dif_pos hc, dif_pos (by rw [hrev]; omega)]
      exact congrArg (fun r : Fin N => x (ix2 r e)) (Fin.ext (by show b.val + (Fin.revPerm k).val - (N - 1) = b.val - k.val; rw [hrev]; omega))
    · rw [dif_neg hc, dif_neg (by rw [hrev]; omega)]
  exact sum_le_reflect b (fun r => x (ix2 r e))

/-- THE CUMULATIVE SUM OF A VECTOR, AT AN INDEX: jnp's `cumsum` of N words (a window of N, N − 1 zeros of low padding)
    is the inclusive prefix sum. -/
theorem reduceWindow_cumsum_vec {N : Nat} (hN : 0 < N)
    (x : IVec ⟨1, ![N]⟩ 32) (init : IVec ⟨0, ![]⟩ 32) (hinit : ∀ i, init i = 0#32)
    (h : (⟨1, ![N]⟩ : Shape).ReduceWindows (![N] : Fin 1 → Nat) ![1] ![N - 1] ![0] ⟨1, ![N]⟩)
    (hu : 0 < (⟨0, ![]⟩ : Shape).numel) (b : Fin N) :
    Host.reduceWindow IntOp.addi (![N] : Fin 1 → Nat) ![1] ![N - 1] ![0] x init h hu (ix1 b)
      = ∑ b' : Fin N, if b'.val ≤ b.val then x (ix1 b') else 0 := by
  unfold Host.reduceWindow
  dsimp only
  rw [hinit, foldl_finRange_eq_sum]
  rw [← Equiv.sum_comp (⟨1, ![N]⟩ : Shape).rowMajor]
  simp only [Equiv.symm_apply_apply]
  -- the window's positions are its one coordinate
  rw [← Equiv.sum_comp (Equiv.ofBijective (fun k : Fin N => (ix1 k : (⟨1, ![N]⟩ : Shape).Idx))
    ⟨fun a c hac => by have := congrFun hac 0; exact this, fun y => ⟨y 0, (eq_ix1 y).symm⟩⟩)]
  refine Eq.trans (Finset.sum_congr rfl (fun k _ => ?_) :
    _ = ∑ k : Fin N, if h' : N - 1 ≤ b.val + k.val then x (ix1 (⟨b.val + k.val - (N - 1), by have := k.isLt; omega⟩ : Fin N)) else 0) ?_
  · by_cases hc : N - 1 ≤ b.val + k.val
    · rw [dif_pos hc, dif_pos]
      · refine congrArg x (funext fun a => Fin.ext ?_)
        match a with
        | ⟨0, _⟩ => show b.val * 1 + k.val - (N - 1) = b.val + k.val - (N - 1); omega
      · intro a
        match a with
        | ⟨0, _⟩ => show N - 1 ≤ b.val * 1 + k.val ∧ b.val * 1 + k.val - (N - 1) < N; have := k.isLt; omega
    · rw [dif_neg hc, dif_neg]
      · rfl
      · intro hall
        have h0 : N - 1 ≤ b.val * 1 + k.val := (hall 0).1
        exact hc (by omega)
  rw [← Equiv.sum_comp Fin.revPerm]
  refine Eq.trans (Finset.sum_congr rfl (fun k _ => ?_) :
    _ = ∑ k : Fin N, if h : k.val ≤ b.val then (fun r : Fin N => x (ix1 r)) ⟨b.val - k.val, by have := b.isLt; omega⟩ else 0) ?_
  · have hk := k.isLt
    have hrev : (Fin.revPerm k).val = N - (k.val + 1) := Fin.val_rev k
    by_cases hc : k.val ≤ b.val
    · rw [dif_pos hc, dif_pos (by rw [hrev]; omega)]
      exact congrArg (fun r : Fin N => x (ix1 r)) (Fin.ext (by show b.val + (Fin.revPerm k).val - (N - 1) = b.val - k.val; rw [hrev]; omega))
    · rw [dif_neg hc, dif_neg (by rw [hrev]; omega)]
  exact sum_le_reflect b (fun r => x (ix1 r))

end Idealize.ShloMosaic.LibCumsum
-- ==== Proof.LibCountingSort.lean ====
/-
  The arithmetic of a padded counting sort, over the naturals. n rows carry tiles T b among k buckets; B > 0 is the
  block size. With
      cnt b e   the number of rows b' ≤ b with tile e            (an inclusive prefix count),
      count e   the number of rows with tile e,
      psize e   count e rounded up to a multiple of B,
      off e     the sum of psize over the buckets before e,     bound e = off e + psize e,
      pos b     off (T b) + cnt b (T b) − 1,
  the position of a row lies in its bucket's range  off (T b) ≤ pos b < bound (T b);  positions are pairwise distinct
  (within a bucket the prefix count is strictly increasing, and buckets' ranges are disjoint and ordered); and the
  number of bounds at or below the start of the position's block, (pos b / B) · B, is the row's tile — every offset
  and bound is a multiple of B, so a block never straddles two buckets. All positions are below n + k · (B − 1).
-/
import Mathlib.Algebra.BigOperators.Fin
import Mathlib.Algebra.Order.BigOperators.Group.Finset
import Mathlib.Data.Fintype.Card
import Mathlib.Order.Interval.Finset.Fin

namespace Idealize.ShloMosaic.LibCountingSort

variable {n k : ℕ} (B : ℕ) (T : Fin n → Fin k)

def cnt (b : Fin n) (e : Fin k) : ℕ := (Finset.univ.filter fun b' : Fin n => b'.val ≤ b.val ∧ T b' = e).card
def count (e : Fin k) : ℕ := (Finset.univ.filter fun b' : Fin n => T b' = e).card
def psize (e : Fin k) : ℕ := (count T e + (B - 1)) / B * B
def off (e : Fin k) : ℕ := ∑ e' : Fin k, if e'.val < e.val then psize B T e' else 0
def bound (e : Fin k) : ℕ := ∑ e' : Fin k, if e'.val ≤ e.val then psize B T e' else 0
def pos (b : Fin n) : ℕ := off B T (T b) + cnt T b (T b) - 1

theorem cnt_self_pos (b : Fin n) : 1 ≤ cnt T b (T b) :=
  Finset.card_pos.mpr ⟨b, Finset.mem_filter.mpr ⟨Finset.mem_univ _, le_refl _, rfl⟩⟩

theorem cnt_le_count (b : Fin n) (e : Fin k) : cnt T b e ≤ count T e :=
  Finset.card_le_card fun b' hb' => Finset.mem_filter.mpr ⟨Finset.mem_univ _, (Finset.mem_filter.mp hb').2.2⟩

/-- Rounding up to a multiple of B does not lose anything, and adds less than B. -/
theorem le_psize (hB : 0 < B) (e : Fin k) : count T e ≤ psize B T e := by
  unfold psize
  have h := Nat.div_add_mod (count T e + (B - 1)) B
  have hr := Nat.mod_lt (count T e + (B - 1)) hB
  rw [Nat.mul_comm] at h
  omega

theorem psize_le (e : Fin k) : psize B T e ≤ count T e + (B - 1) := Nat.div_mul_le_self _ _

theorem dvd_psize (e : Fin k) : B ∣ psize B T e := Dvd.intro_left _ rfl

theorem dvd_off (e : Fin k) : B ∣ off B T e :=
  Finset.dvd_sum fun e' _ => by split <;> [exact dvd_psize B T e'; exact dvd_zero B]

theorem bound_eq (e : Fin k) : bound B T e = off B T e + psize B T e := by
  unfold bound off
  have hpt : ∀ e' : Fin k, (if e'.val ≤ e.val then psize B T e' else 0)
      = (if e'.val < e.val then psize B T e' else 0) + (if e' = e then psize B T e' else 0) := by
    intro e'
    by_cases h1 : e'.val < e.val
    · rw [if_pos (Nat.le_of_lt h1), if_pos h1, if_neg (fun h => by rw [h] at h1; exact Nat.lt_irrefl _ h1), Nat.add_zero]
    · by_cases h2 : e' = e
      · rw [if_pos (by rw [h2]), if_neg h1, if_pos h2, Nat.zero_add]
      · have : ¬ e'.val ≤ e.val := fun hle => h2 (Fin.ext (Nat.le_antisymm hle (Nat.le_of_not_lt h1)))
        rw [if_neg this, if_neg h1, if_neg h2]
  rw [Finset.sum_congr rfl (fun e' _ => hpt e'), Finset.sum_add_distrib, Finset.sum_ite_eq' Finset.univ e, if_pos (Finset.mem_univ _)]

theorem dvd_bound (e : Fin k) : B ∣ bound B T e := by
  rw [bound_eq]; exact Dvd.dvd.add (dvd_off B T e) (dvd_psize B T e)

theorem off_mono {e e' : Fin k} (h : e.val ≤ e'.val) : off B T e ≤ off B T e' :=
  Finset.sum_le_sum fun e'' _ => by
    by_cases h1 : e''.val < e.val
    · rw [if_pos h1, if_pos (Nat.lt_of_lt_of_le h1 h)]
    · rw [if_neg h1]; exact Nat.zero_le _

theorem bound_le_off {e e' : Fin k} (h : e.val < e'.val) : bound B T e ≤ off B T e' :=
  Finset.sum_le_sum fun e'' _ => by
    by_cases h1 : e''.val ≤ e.val
    · rw [if_pos h1, if_pos (Nat.lt_of_le_of_lt h1 h)]
    · rw [if_neg h1]; exact Nat.zero_le _

theorem bound_mono {e e' : Fin k} (h : e.val ≤ e'.val) : bound B T e ≤ bound B T e' :=
  Finset.sum_le_sum fun e'' _ => by
    by_cases h1 : e''.val ≤ e.val
    · rw [if_pos h1, if_pos (Nat.le_trans h1 h)]
    · rw [if_neg h1]; exact Nat.zero_le _

/-- Within a bucket the prefix count strictly increases from one member to a later one. -/
theorem cnt_lt_of_lt {b b' : Fin n} (hlt : b.val < b'.val) (hT : T b' = T b) : cnt T b (T b) < cnt T b' (T b) := by
  refine Finset.card_lt_card ((Finset.ssubset_iff_of_subset fun x hx => ?_).mpr ⟨b', ?_, ?_⟩)
  · have := (Finset.mem_filter.mp hx).2
    exact Finset.mem_filter.mpr ⟨Finset.mem_univ _, Nat.le_trans this.1 (Nat.le_of_lt hlt), this.2⟩
  · exact Finset.mem_filter.mpr ⟨Finset.mem_univ _, le_refl _, hT⟩
  · intro hmem
    have := (Finset.mem_filter.mp hmem).2.1
    omega

/-- THE POSITION LIES IN ITS BUCKET'S RANGE. -/
theorem off_le_pos (b : Fin n) : off B T (T b) ≤ pos B T b := by
  have := cnt_self_pos T b; unfold pos; omega

theorem pos_lt_bound (hB : 0 < B) (b : Fin n) : pos B T b < bound B T (T b) := by
  have h1 := cnt_self_pos T b
  have h2 := cnt_le_count T b (T b)
  have h3 := le_psize B T hB (T b)
  rw [bound_eq]; unfold pos; omega

/-- POSITIONS ARE PAIRWISE DISTINCT. -/
theorem pos_injective (hB : 0 < B) : Function.Injective (pos B T) := by
  intro b b' hpos
  by_cases hT : T b' = T b
  · have h1 := cnt_self_pos T b
    have h1' := cnt_self_pos T b'
    have hc : cnt T b (T b) = cnt T b' (T b) := by
      rw [hT] at h1'
      unfold pos at hpos
      rw [hT] at hpos
      omega
    rcases Nat.lt_trichotomy b.val b'.val with h | h | h
    · exact absurd hc (Nat.ne_of_lt (cnt_lt_of_lt T h hT))
    · exact Fin.ext h
    · have := cnt_lt_of_lt T h hT.symm
      rw [hT] at this
      omega
  · rcases Nat.lt_trichotomy (T b).val (T b').val with h | h | h
    · have h1 := pos_lt_bound B T hB b
      have h2 := bound_le_off B T h
      have h3 := off_le_pos B T b'
      omega
    · exact absurd (Fin.ext h).symm hT
    · have h1 := pos_lt_bound B T hB b'
      have h2 := bound_le_off B T h
      have h3 := off_le_pos B T b
      omega

/-- THE BLOCK OF A POSITION NAMES THE TILE: the bounds at or below the block's first row are those of the buckets
    before the row's own. -/
theorem bound_le_block_iff (hB : 0 < B) (b : Fin n) (e' : Fin k) :
    bound B T e' ≤ pos B T b / B * B ↔ e'.val < (T b).val := by
  constructor
  · intro h
    by_contra hge
    have hmono := bound_mono B T (Nat.le_of_not_lt hge)
    have h1 := pos_lt_bound B T hB b
    have h2 := Nat.div_mul_le_self (pos B T b) B
    omega
  · intro h
    have h1 := bound_le_off B T h
    obtain ⟨q, hq⟩ := dvd_off B T (T b)
    have h2 := off_le_pos B T b
    have hqle : q ≤ pos B T b / B := by
      rw [Nat.le_div_iff_mul_le hB, Nat.mul_comm, ← hq]; exact h2
    calc bound B T e' ≤ off B T (T b) := h1
      _ = q * B := by rw [hq, Nat.mul_comm]
      _ ≤ pos B T b / B * B := Nat.mul_le_mul_right B hqle

theorem card_bounds_le_block (hB : 0 < B) (b : Fin n) :
    (Finset.univ.filter fun e' : Fin k => bound B T e' ≤ pos B T b / B * B).card = (T b).val := by
  have : (Finset.univ.filter fun e' : Fin k => bound B T e' ≤ pos B T b / B * B) = Finset.Iio (T b) := by
    ext e'
    rw [Finset.mem_filter, Finset.mem_Iio]
    exact ⟨fun h => Fin.lt_def.mpr ((bound_le_block_iff B T hB b e').mp h.2),
      fun h => ⟨Finset.mem_univ _, (bound_le_block_iff B T hB b e').mpr (Fin.lt_def.mp h)⟩⟩
  rw [this, Fin.card_Iio]

/-- The bucket sizes sum to the number of rows. -/
theorem sum_count : ∑ e : Fin k, count T e = n := by
  have h := Finset.card_eq_sum_card_fiberwise (s := (Finset.univ : Finset (Fin n))) (t := (Finset.univ : Finset (Fin k))) (f := T)
    (fun x _ => Finset.mem_univ _)
  rw [Finset.card_univ, Fintype.card_fin] at h
  exact h.symm

theorem bound_le_total (e : Fin k) : bound B T e ≤ ∑ e' : Fin k, psize B T e' :=
  Finset.sum_le_sum fun e' _ => by
    by_cases h1 : e'.val ≤ e.val
    · rw [if_pos h1]
    · rw [if_neg h1]; exact Nat.zero_le _

theorem total_le : ∑ e' : Fin k, psize B T e' ≤ n + k * (B - 1) := by
  calc ∑ e' : Fin k, psize B T e' ≤ ∑ e' : Fin k, (count T e' + (B - 1)) := Finset.sum_le_sum fun e' _ => psize_le B T e'
    _ = n + k * (B - 1) := by
      rw [Finset.sum_add_distrib, sum_count, Finset.sum_const, Finset.card_univ, Fintype.card_fin, smul_eq_mul]

/-- EVERY POSITION IS BELOW n + k · (B − 1). -/
theorem pos_lt_total (hB : 0 < B) (b : Fin n) : pos B T b < n + k * (B - 1) :=
  lt_of_lt_of_le (pos_lt_bound B T hB b) (le_trans (bound_le_total B T (T b)) (total_le B T))

end Idealize.ShloMosaic.LibCountingSort
-- ==== Proof.ChainValues.lean ====
/-
  The counting sort's arrays at an index, in terms of the tiles as numbers. With the tile word of row b the number t b
  (one of 0 … 3): the one-hot array at (b, e) is 1 where t b = e and 0 elsewhere; its cumulative sum down the rows at
  (b, e) is the number of rows b' ≤ b with t b' = e — a count of at most 65536, written as a 32-bit word (the words form
  a commutative ring, so a sum of 0/1 words is the count's image, and nothing needs to be said about wrap-around until
  a word is compared or used as an index).
-/
import proofs.«132175_j34754875359890_2_alg».proof.Proof.HostChain
import proofs.«132175_j34754875359890_2_alg».proof.Proof.LibCumsum
import proofs.«132175_j34754875359890_2_alg».proof.Proof.LibCountingSort
import Idealize.ShloMosaic.Lib.Pipeline.Value
import Idealize.ShloMosaic.Lib.ValueIdx

set_option maxRecDepth 16384

noncomputable section

namespace Cert.KernelIdeal.ChainValues

open Cert.KernelIdeal Cert.KernelIdeal.Gen Cert.KernelIdeal.HostChain
open Idealize.ShloMosaic Idealize.ShloMosaic.ValueIdx Idealize.ShloMosaic.LibCumsum Idealize.ShloMosaic.LibCountingSort

/-- Two tile numbers compared as words, widened: 1 where equal. -/
theorem flag4 : ∀ x y : Fin 4, ((IntOp.cmpi .eq (BitVec.ofNat 32 x.val) (BitVec.ofNat 32 y.val)).setWidth 32 : BitVec 32) = if x = y then 1 else 0 := by
  decide

/-- A per-row array broadcast along the buckets, read at (b, e): the row's entry. -/
theorem rows_bcast_apply {α : Type} (v : S65536.Idx → α) (b : Fin 65536) (e : Fin 4) :
    broadcastInDim S65536x4 ![0, 1] bcast_S65536x1_S65536x4_0_1 (broadcastInDim S65536x1 ![0] bcast_S65536_S65536x1_0 v) (ix2 b e) = v (ix1 b) := by
  refine (broadcastInDim_apply _ _ _ (ix2 b e) (ix2 b (0 : Fin 1)) fun a => ?_).trans ?_
  · match a with
    | ⟨0, _⟩ => show b.val = if (65536 : Nat) = 1 then 0 else b.val; rw [if_neg (by decide)]
    | ⟨1, _⟩ => show (0 : Nat) = if (1 : Nat) = 1 then 0 else e.val; rw [if_pos rfl]
  refine broadcastInDim_apply _ _ _ (ix2 b (0 : Fin 1)) (ix1 b) fun a => ?_
  match a with
  | ⟨0, _⟩ => show b.val = if (65536 : Nat) = 1 then 0 else b.val; rw [if_neg (by decide)]

/-- A per-bucket array broadcast along the rows, read at (b, e): the bucket's entry. -/
theorem buckets_bcast_apply {α : Type} (v : S4.Idx → α) (b : Fin 65536) (e : Fin 4) :
    broadcastInDim S65536x4 ![0, 1] bcast_S1x4_S65536x4_0_1 (broadcastInDim S1x4 ![1] bcast_S4_S1x4_1 v) (ix2 b e) = v (ix1 e) := by
  refine (broadcastInDim_apply _ _ _ (ix2 b e) (ix2 (0 : Fin 1) e) fun a => ?_).trans ?_
  · match a with
    | ⟨0, _⟩ => show (0 : Nat) = if (1 : Nat) = 1 then 0 else b.val; rw [if_pos rfl]
    | ⟨1, _⟩ => show e.val = if (4 : Nat) = 1 then 0 else e.val; rw [if_neg (by decide)]
  refine broadcastInDim_apply _ _ _ (ix2 (0 : Fin 1) e) (ix1 e) fun a => ?_
  match a with
  | ⟨0, _⟩ => show e.val = if (4 : Nat) = 1 then 0 else e.val; rw [if_neg (by decide)]

variable (T : IVec S65536 32) (t : Fin 65536 → Fin 4) (hT : ∀ b, T (ix1 b) = BitVec.ofNat 32 (t b).val)
include hT

/-- THE ONE-HOT ARRAY AT AN INDEX. -/
theorem onehot_apply (b : Fin 65536) (e : Fin 4) : onehot T (ix2 b e) = if t b = e then 1 else 0 := by
  unfold onehot
  show ((IntOp.cmpi .eq
      (broadcastInDim S65536x4 ![0, 1] bcast_S65536x1_S65536x4_0_1 (broadcastInDim S65536x1 ![0] bcast_S65536_S65536x1_0 T) (ix2 b e))
      (broadcastInDim S65536x4 ![0, 1] bcast_S1x4_S65536x4_0_1 (broadcastInDim S1x4 ![1] bcast_S4_S1x4_1 (iotaInDim S4 32 0)) (ix2 b e))).setWidth 32 : BitVec 32) = _
  rw [rows_bcast_apply, buckets_bcast_apply, hT b]
  exact flag4 (t b) e

/-- THE CUMULATIVE SUM AT AN INDEX: the number of rows up to b in bucket e. -/
theorem cum_apply (b : Fin 65536) (e : Fin 4) : cumRows (onehot T) (ix2 b e) = ((cnt t b e : ℕ) : BitVec 32) := by
  unfold cumRows
  refine (reduceWindow_cumsum_rows (N := 65536) (C := 4) (by decide) (onehot T) _ (fun _ => rfl) _ _ b e).trans ?_
  rw [Finset.sum_congr rfl (fun b' _ => by rw [onehot_apply T t hT b' e] :
    ∀ b' ∈ (Finset.univ : Finset (Fin 65536)), (if b'.val ≤ b.val then onehot T (ix2 b' e) else 0)
      = if b'.val ≤ b.val then (if t b' = e then (1 : BitVec 32) else 0) else 0)]
  rw [Finset.sum_congr rfl (fun b' _ => by by_cases h1 : b'.val ≤ b.val <;> by_cases h2 : t b' = e <;> simp [h1, h2] :
    ∀ b' ∈ (Finset.univ : Finset (Fin 65536)), (if b'.val ≤ b.val then (if t b' = e then (1 : BitVec 32) else 0) else 0)
      = if (b'.val ≤ b.val ∧ t b' = e) then (1 : BitVec 32) else 0)]
  rw [Finset.sum_boole]
  rfl

end Cert.KernelIdeal.ChainValues

end
-- ==== Proof.HostChainB.lean ====
/-
  The kernel's counting sort, continued: from each row's entry of the cumulative sum in its own bucket, the rank (one
  less); from the cumulative sum's last row, the bucket sizes; each plus 1023, floor-divided by 1024 (jnp's division:
  truncating division with a sign fix-up), times 1024 — the padded sizes; their cumulative sum — the bounds; the block
  starts 0, 1024, 2048, …; and the table: per block, the number of bounds at or below the block's start, capped at 3.
  Each group of host stretches is read over ANY contents X before it.
-/
import proofs.«132175_j34754875359890_2_alg».proof.Proof.HostPrefix

set_option maxRecDepth 16384

noncomputable section

namespace Cert.KernelIdeal.HostChainB

open Cert.KernelIdeal Cert.KernelIdeal.Gen
open Idealize.ShloMosaic Idealize.ShloMosaic.TcCoe Idealize.SL.Sem Idealize.ShloMosaic.StableHlo

/-! ## The pure functions -/

/-- The rank: the row's entry in its own bucket, less one. -/
def rankOf (v25 : IVec S65536x1 32) : IVec S65536 32 :=
  subi (shapeCast S65536 v25 shapeCasts_S65536x1_S65536) (broadcastInDim S65536 ![] bcast_S_S65536 (constantI S_ 32 1#32))

/-- The bucket sizes: the cumulative sum's last row. -/
def countsOf (C : IVec S65536x4 32) : IVec S4 32 :=
  shapeCast S4 (extractStridedSlice S1x4 ![65535, 0] C slices_S65536x4_S1x4_65535_0) shapeCasts_S1x4_S4

/-- jnp's floor division of four words by a scalar, as the called function computes it. -/
def floordivVec (x : IVec S4 32) (d : IVec S_ 32) : IVec S4 32 :=
  select
    (andi (cmpi .ne (signi x) (broadcastInDim S4 ![] bcast_S_S4 (signi (id d))))
      (cmpi .ne (Host.remsi x (broadcastInDim S4 ![] bcast_S_S4 (id d))) (broadcastInDim S4 ![] bcast_S_S4 (constantI S_ 32 0#32))))
    (subi (Host.divsi x (broadcastInDim S4 ![] bcast_S_S4 (id d))) (broadcastInDim S4 ![] bcast_S_S4 (constantI S_ 32 1#32)))
    (Host.divsi x (broadcastInDim S4 ![] bcast_S_S4 (id d)))

/-- The padded sizes: (size + 1024 − 1) // 1024 · 1024. -/
def psizesOf (C : IVec S65536x4 32) : IVec S4 32 :=
  muli (floordivVec (subi (addi (countsOf C) (broadcastInDim S4 ![] bcast_S_S4 (constantI S_ 32 1024#32)))
      (broadcastInDim S4 ![] bcast_S_S4 (constantI S_ 32 1#32))) (constantI S_ 32 1024#32))
    (broadcastInDim S4 ![] bcast_S_S4 (constantI S_ 32 1024#32))

/-- The cumulative sum of four words. -/
def cumVec (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- The block starts: 0, 1024, 2048, … for the 68 blocks. -/
def blockStarts : IVec S68 32 := muli (iotaInDim S68 32 0) (broadcastInDim S68 ![] bcast_S_S68 (constantI S_ 32 1024#32))

/-- The table: per block, the number of bounds at or below the block's start, capped at 3. -/
def tableOf (CB : IVec S4 32) (starts : IVec S68 32) : IVec S68 32 :=
  minsi (Host.reduce IntOp.addi (extui 32 (cmpi .sge
        (broadcastInDim S68x4 ![0, 1] bcast_S68x1_S68x4_0_1 (broadcastInDim S68x1 ![0] bcast_S68_S68x1_0 starts))
        (broadcastInDim S68x4 ![0, 1] bcast_S1x4_S68x4_0_1 (broadcastInDim S1x4 ![1] bcast_S4_S1x4_1 CB))) natLt_1_32)
      (constantI S_ 32 0#32) reducesTo_S68x4_S68_d1 h_S_)
    (broadcastInDim S68 ![] bcast_S_S68 (constantI S_ 32 3#32))

-- the layout and pointwise operations are compared as names, never opened, when a group's fold is read back
section ReadBack
attribute [local irreducible] shapeCast extractStridedSlice broadcastInDim select cmpi addi subi muli andi minsi extui constantI iotaInDim
  Host.reduceWindow Host.reduce Host.gather Host.scatter Host.divsi Host.remsi signi concatenate truncf constant

/-! ## Stretches 8–11 -/

set_option maxHeartbeats 2000000 in
theorem g3_v28 (X : Valuation τ sig (Elt Ideal)) :
    after hostOps0_11 (after hostOps0_10 (after hostOps0_9 (after hostOps0_8 X))) (Proc.devRef .tc main_v28) = rankOf (X (Proc.devRef .tc main_v25)) := by
  unfold rankOf
  simp only [hostOps0_11, hostOps0_10, hostOps0_9, hostOps0_8, after_cons, after_nil]
  rfl

set_option maxHeartbeats 2000000 in
theorem g3_v37 (X : Valuation τ sig (Elt Ideal)) :
    after hostOps0_11 (after hostOps0_10 (after hostOps0_9 (after hostOps0_8 X))) (Proc.devRef .tc main_v37) = psizesOf (X (Proc.devRef .tc main_v23)) := by
  unfold psizesOf floordivVec countsOf
  simp only [hostOps0_11, hostOps0_10, hostOps0_9, hostOps0_8, after_cons, after_nil]
  rfl

set_option maxHeartbeats 2000000 in
theorem g3_v38 (X : Valuation τ sig (Elt Ideal)) :
    after hostOps0_11 (after hostOps0_10 (after hostOps0_9 (after hostOps0_8 X))) (Proc.devRef .tc main_v38)
      = broadcastInDim S1 ![] bcast_S_S1 (constantI S_ 32 0#32) := by
  simp only [hostOps0_11, hostOps0_10, hostOps0_9, hostOps0_8, after_cons, after_nil]
  rfl

set_option maxHeartbeats 2000000 in
theorem g3_v39 (X : Valuation τ sig (Elt Ideal)) :
    after hostOps0_11 (after hostOps0_10 (after hostOps0_9 (after hostOps0_8 X))) (Proc.devRef .tc main_v39) = cumVec (psizesOf (X (Proc.devRef .tc main_v23))) := by
  unfold cumVec psizesOf floordivVec countsOf
  simp only [hostOps0_11, hostOps0_10, hostOps0_9, hostOps0_8, after_cons, after_nil]
  rfl

set_option maxHeartbeats 2000000 in
theorem g3_v15 (X : Valuation τ sig (Elt Ideal)) :
    after hostOps0_11 (after hostOps0_10 (after hostOps0_9 (after hostOps0_8 X))) (Proc.devRef .tc main_v15) = X (Proc.devRef .tc main_v15) := by
  simp only [hostOps0_11, hostOps0_10, hostOps0_9, hostOps0_8, after_cons, after_nil]
  rfl

/-! ## Stretch 12: the block starts; it keeps the padded sizes -/

set_option maxHeartbeats 2000000 in
theorem s12_v61 (X : Valuation τ sig (Elt Ideal)) : after hostOps0_12 X (Proc.devRef .tc main_v61) = blockStarts := by
  unfold blockStarts
  simp only [hostOps0_12, after_cons, after_nil]
  rfl

set_option maxHeartbeats 2000000 in
theorem s12_v37 (X : Valuation τ sig (Elt Ideal)) : after hostOps0_12 X (Proc.devRef .tc main_v37) = X (Proc.devRef .tc main_v37) := by
  simp only [hostOps0_12, after_cons, after_nil]
  rfl

/-! ## Stretches 13–14: the table -/

set_option maxHeartbeats 2000000 in
theorem g5_v71 (X : Valuation τ sig (Elt Ideal)) :
    after hostOps0_14 (after hostOps0_13 X) (Proc.devRef .tc main_v71)
      = tableOf (cumVec (X (Proc.devRef .tc main_v37))) (X (Proc.devRef .tc main_v61)) := by
  unfold tableOf cumVec
  simp only [hostOps0_14, hostOps0_13, after_cons, after_nil]
  rfl

end ReadBack

end Cert.KernelIdeal.HostChainB

end
-- ==== Proof.LibGatherTable.lean ====
/-
  Two more of jnp's gathers read at an index, with the dimension numbers as a program prints them.
  · A table lookup `x[idx]` of a rank-1 table of N entries by R indices (an [R, 1] index column): entry b of the result
    is the table at the index of b, read signed and clamped into 0 … N − 1.
  · `take_along_axis(x, idx, axis=1)` of an [R, C] array by one index per row (an [R, 1, 1] index array, the row axis
    a batching axis of both): entry (b, 0) of the [R, 1] result is x at (b, the index of b clamped into 0 … C − 1).
-/
import Idealize.ShloMosaic.PureOps.ShapeOps
import Idealize.ShloMosaic.Lib.ValueIdx

namespace Idealize.ShloMosaic.LibGatherTable

open Idealize.ShloMosaic.ValueIdx

variable {α : Type}

/-! ## A rank-1 table by an index column -/

abbrev tableDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The table entry the lookup reads for result entry b. -/
def entryOf {N R w : Nat} (hN : 0 < N) (idx : IVec ⟨2, ![R, 1]⟩ w) (b : Fin R) : Fin N :=
  ⟨min (idx (ix2 b (0 : Fin 1))).toInt.toNat (N - 1), by omega⟩

/-- THE TABLE LOOKUP AT AN INDEX. -/
theorem gather_table_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (b : Fin R) :
    Host.gather (tableDims N R wf) x idx (ix1 b) = x (ix1 (entryOf hN idx b)) := by
  unfold Host.gather
  congr 1
  funext a
  apply Fin.ext
  fin_cases a
  simp [GatherDims.operandIdx, GatherDims.start, GatherDims.offCoord, GatherDims.batchCoord, tableDims,
    GatherDims.sKept, Shape.kept, entryOf]
  refine congrArg (fun z => min (idx z).toInt.toNat (N - 1)) ?_
  funext a
  apply Fin.ext
  fin_cases a <;> rfl

/-! ## take_along_axis along axis 1, one index per row -/

abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The column the gather reads in row b. -/
def columnOf {R C w : Nat} (hC : 0 < C) (idx : IVec ⟨3, ![R, 1, 1]⟩ w) (b : Fin R) : Fin C :=
  ⟨min (idx (ix3 b (0 : Fin 1) (0 : Fin 1))).toInt.toNat (C - 1), by omega⟩

/-- THE GATHER ALONG AXIS 1 AT AN INDEX: row b of the operand at the column its index names. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (b : Fin R) :
    Host.gather (alongDims R C wf) x idx (ix2 b (0 : Fin 1)) = x (ix2 b (columnOf hC idx b)) := by
  unfold Host.gather
  congr 1
  funext a
  apply Fin.ext
  fin_cases a <;>
    simp [GatherDims.operandIdx, GatherDims.start, GatherDims.offCoord, GatherDims.batchCoord, alongDims,
      GatherDims.sKept, Shape.kept, columnOf]
  · first
      | rfl
      | (simp [GatherDims.siCoord]; rfl)
  · refine congrArg (fun z => min (idx z).toInt.toNat (C - 1)) ?_
    funext a
    apply Fin.ext
    fin_cases a
    · first
        | rfl
        | (simp [GatherDims.siIdx, GatherDims.siCoord]; rfl)
    · first
        | rfl
        | simp [GatherDims.siIdx]
    · first
        | rfl
        | simp [GatherDims.siIdx]

end Idealize.ShloMosaic.LibGatherTable
-- ==== Proof.ChainValuesB.lean ====
/-
  The counting sort's arrays at an index, continued. Every tile is one of 0 … 3, so the in-range mask of the gather along
  the bucket axis is 1 in every row and the gather reads, in row b, the cumulative sum at bucket t b: the number of rows
  up to b with b's own tile. One less is the rank. The last row of the cumulative sum is the bucket sizes.
-/
import proofs.«132175_j34754875359890_2_alg».proof.Proof.ChainValues
import proofs.«132175_j34754875359890_2_alg».proof.Proof.HostChainB
import proofs.«132175_j34754875359890_2_alg».proof.Proof.LibGatherTable
import Idealize.ShloMosaic.PureOps.Reduce
import Idealize.ShloMosaic.Lib.ValueLayout

set_option maxRecDepth 16384

noncomputable section

namespace Cert.KernelIdeal.ChainValues

open Cert.KernelIdeal Cert.KernelIdeal.Gen Cert.KernelIdeal.HostChain Cert.KernelIdeal.HostChainB
open Idealize.ShloMosaic Idealize.ShloMosaic.ValueIdx Idealize.ShloMosaic.LibGatherTable Idealize.ShloMosaic.LibCountingSort

/-- A tile number as a word is not negative, at most 3, and reads back as itself. -/
theorem tile_word_facts : ∀ x : Fin 4,
    IntOp.cmpi .slt (BitVec.ofNat 32 x.val) 0#32 = 0#1 ∧ IntOp.cmpi .sge (BitVec.ofNat 32 x.val) 0#32 = 1#1
      ∧ IntOp.cmpi .sle (BitVec.ofNat 32 x.val) 3#32 = 1#1 ∧ min (BitVec.ofNat 32 x.val).toInt.toNat 3 = x.val := by
  decide

/-- The per-row index column: the tile of the row. -/
abbrev tileCol (T : IVec S65536 32) : IVec S65536x1 32 := broadcastInDim S65536x1 ![0] bcast_S65536_S65536x1_0 T

theorem tileCol_apply (T : IVec S65536 32) (b : Fin 65536) (u : Fin 1) : tileCol T (ix2 b u) = T (ix1 b) := by
  refine broadcastInDim_apply _ _ _ (ix2 b u) (ix1 b) fun a => ?_
  match a with
  | ⟨0, _⟩ => show b.val = if (65536 : Nat) = 1 then 0 else b.val; rw [if_neg (by decide)]

variable (T : IVec S65536 32) (t : Fin 65536 → Fin 4) (hT : ∀ b, T (ix1 b) = BitVec.ofNat 32 (t b).val)
include hT

/-- The gather's index array at any index: the tile of its row (no wrap: tiles are not negative). -/
theorem alongIdx_apply (i : S65536x1x1.Idx) : alongIdx (tileCol T) i = BitVec.ofNat 32 (t (i 0)).val := by
  obtain ⟨b, u, v, rfl⟩ : ∃ (b : Fin 65536) (u v : Fin 1), i = ix3 b u v := ⟨i 0, i 1, i 2, eq_ix3 i⟩
  unfold alongIdx
  refine (shapeCast_apply _ _ (ix3 b u v) (ix2 b u) ?_).trans ?_
  · rw [Shape.rowMajor_val_three, Shape.rowMajor_val_two]
    show b.val * 1 + u.val = (b.val * 1 + u.val) * 1 + v.val
    have := v.isLt; omega
  show Scalar.select (IntOp.cmpi .slt (tileCol T (ix2 b u)) 0#32) (IntOp.addi (tileCol T (ix2 b u)) 4#32) (tileCol T (ix2 b u)) = _
  rw [tileCol_apply, hT b, (tile_word_facts (t b)).1]
  exact if_neg (by decide)

/-- THE GATHER ALONG THE BUCKET AXIS, in row b: the array at (b, t b). -/
theorem takeAlong_apply (C : IVec S65536x4 32) (b : Fin 65536) :
    takeAlong C (tileCol T) (ix2 b (0 : Fin 1)) = C (ix2 b (t b)) := by
  unfold takeAlong
  show Scalar.select _ _ _ = _
  have hmask : Host.reduce IntOp.andi
      (andi (cmpi .sge (alongIdx (tileCol T)) (broadcastInDim S65536x1x1 ![] bcast_S_S65536x1x1 (constantI S_ 32 0#32)))
        (cmpi .sle (alongIdx (tileCol T)) (broadcastInDim S65536x1x1 ![0, 1, 2] bcast_S1x1x1_S65536x1x1_0_1_2
          (broadcastInDim S1x1x1 ![2] bcast_S1_S1x1x1_2 (constantI S1 32 3#32)))))
      (constantI S_ 1 1#1) reducesTo_S65536x1x1_S65536x1_d2 h_S_ (ix2 b (0 : Fin 1)) = 1#1 := by
    rw [Host.reduce_eq_fold_single IntOp.andi _ _ reducesTo_S65536x1x1_S65536x1_d2 (by decide : S65536x1x1.Reduces [2] S65536x1) h_S_]
    have hall : ∀ i : S65536x1x1.Idx,
        (andi (cmpi .sge (alongIdx (tileCol T)) (broadcastInDim S65536x1x1 ![] bcast_S_S65536x1x1 (constantI S_ 32 0#32)))
          (cmpi .sle (alongIdx (tileCol T)) (broadcastInDim S65536x1x1 ![0, 1, 2] bcast_S1x1x1_S65536x1x1_0_1_2
            (broadcastInDim S1x1x1 ![2] bcast_S1_S1x1x1_2 (constantI S1 32 3#32))))) i = 1#1 := by
      intro i
      show IntOp.andi (IntOp.cmpi .sge (alongIdx (tileCol T) i) 0#32) (IntOp.cmpi .sle (alongIdx (tileCol T) i) 3#32) = 1#1
      rw [alongIdx_apply T t hT i, (tile_word_facts (t (i 0))).2.1, (tile_word_facts (t (i 0))).2.2.1]
      decide
    rw [show ((andi (cmpi .sge (alongIdx (tileCol T)) (broadcastInDim S65536x1x1 ![] bcast_S_S65536x1x1 (constantI S_ 32 0#32)))
          (cmpi .sle (alongIdx (tileCol T)) (broadcastInDim S65536x1x1 ![0, 1, 2] bcast_S1x1x1_S65536x1x1_0_1_2
            (broadcastInDim S1x1x1 ![2] bcast_S1_S1x1x1_2 (constantI S1 32 3#32))))) ∘ _) = fun _ => 1#1 from funext fun k => hall _]
    show (Finset.univ : Finset (Fin 1)).fold IntOp.andi 1#1 (fun _ => 1#1) = 1#1
    decide
  rw [hmask]
  refine (if_pos rfl).trans ?_
  refine (gather_along_apply (R := 65536) (C := 4) (by decide) gather_S65536x4_S65536x1x1_S65536x1_n_1_0_0_1_2_11_wf C _ b).trans ?_
  refine congrArg (fun z : Fin 4 => C (ix2 b z)) (Fin.ext ?_)
  show min (alongIdx (tileCol T) (ix3 b (0 : Fin 1) (0 : Fin 1))).toInt.toNat (4 - 1) = (t b).val
  rw [alongIdx_apply T t hT]
  exact (tile_word_facts (t b)).2.2.2

/-- THE RANK: the number of rows up to b with b's tile, less one. -/
theorem rank_apply (b : Fin 65536) :
    rankOf (takeAlong (cumRows (onehot T)) (tileCol T)) (ix1 b) = ((cnt t b (t b) : ℕ) : BitVec 32) - 1 := by
  unfold rankOf
  show IntOp.subi (shapeCast S65536 (takeAlong (cumRows (onehot T)) (tileCol T)) shapeCasts_S65536x1_S65536 (ix1 b))
    (broadcastInDim S65536 ![] bcast_S_S65536 (constantI S_ 32 1#32) (ix1 b)) = _
  rw [shapeCast_apply _ _ (ix1 b) (ix2 b (0 : Fin 1)) (by rw [Shape.rowMajor_val_two, Shape.rowMajor_val_one]; show b.val * 1 + 0 = b.val; omega),
    takeAlong_apply T t hT, cum_apply T t hT]
  rfl

/-- THE BUCKET SIZES: the cumulative sum's last row. -/
theorem counts_apply (e : Fin 4) : countsOf (cumRows (onehot T)) (ix1 e) = ((LibCountingSort.count t e : ℕ) : BitVec 32) := by
  unfold countsOf
  rw [shapeCast_1a_a_apply]
  refine (extractStridedSlice_apply _ _ _ (ix2 (0 : Fin 1) e) (ix2 (⟨65535, by decide⟩ : Fin 65536) e) fun a => ?_).trans ?_
  · match a with
    | ⟨0, _⟩ => show (65535 : Nat) = 65535 + 0; rfl
    | ⟨1, _⟩ => show e.val = 0 + e.val; omega
  rw [cum_apply T t hT]
  refine congrArg (fun n : ℕ => (n : BitVec 32)) ?_
  unfold LibCountingSort.cnt LibCountingSort.count
  refine congrArg Finset.card (Finset.filter_congr fun b' _ => ?_)
  have := b'.isLt
  exact ⟨fun h => h.2, fun h => ⟨by show b'.val ≤ 65535; omega, h⟩⟩

end Cert.KernelIdeal.ChainValues

end
-- ==== Proof.LibFloorDiv.lean ====
/-
  jnp's integer floor division `x // d` lowers to the machine's truncating signed division followed by a fix-up: when the
  signs of x and d differ and the remainder is not zero, one is subtracted. For a non-negative x and a positive d (both
  below 2³¹ as words) the signs never differ with a non-zero remainder — x = 0 has remainder 0, x > 0 has d's sign — and
  the signed division is the unsigned one: the result is the natural-number quotient.
-/
import Idealize.ShloMosaic.PureOps.Float

namespace Idealize.ShloMosaic.LibFloorDiv

/-- The integer sign as printed: 0 at zero, −1 where the top bit is set, 1 otherwise. -/
def sgn (x : BitVec 32) : BitVec 32 := if x = 0 then 0 else if x.msb then -1 else 1

/-- jnp's floor division as printed, on one word. -/
def jnpFloorDiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

theorem msb_false_of_lt (x : BitVec 32) (hx : x.toNat < 2 ^ 31) : x.msb = false := by
  rw [BitVec.msb_eq_false_iff_two_mul_lt]; omega

/-- A positive word below 2³¹ is no division corner. -/
theorem not_corner (x d : BitVec 32) (hd0 : 0 < d.toNat) (hd : d.toNat < 2 ^ 31) : ¬ IntOp.SDivCorner x d := by
  rintro (h | ⟨-, h⟩)
  · rw [h] at hd0; simp at hd0
  · rw [h] at hd; revert hd; decide

/-- THE FLOOR DIVISION of a non-negative word by a positive word is the quotient of their values. -/
theorem jnpFloorDiv_nonneg (x d : BitVec 32) (hx : x.toNat < 2 ^ 31) (hd0 : 0 < d.toNat) (hd : d.toNat < 2 ^ 31) :
    jnpFloorDiv x d = BitVec.ofNat 32 (x.toNat / d.toNat) := by
  have hmx := msb_false_of_lt x hx
  have hmd := msb_false_of_lt d hd
  have hnc := not_corner x d hd0 hd
  have hq : IntOp.divsi .host x d = x / d := by
    unfold IntOp.divsi
    rw [if_neg hnc]
    unfold BitVec.sdiv
    rw [hmx, hmd]
    rfl
  have hqv : x / d = BitVec.ofNat 32 (x.toNat / d.toNat) := by
    apply BitVec.eq_of_toNat_eq
    rw [BitVec.toNat_udiv, BitVec.toNat_ofNat]
    have : x.toNat / d.toNat < 2 ^ 32 := lt_of_le_of_lt (Nat.div_le_self _ _) x.isLt
    exact (Nat.mod_eq_of_lt this).symm
  have hsd : sgn d = 1 := by
    unfold sgn
    rw [if_neg (by intro h; rw [h] at hd0; simp at hd0), hmd]
    rfl
  unfold jnpFloorDiv
  rw [hq, hqv]
  by_cases hx0 : x = 0
  · subst hx0
    have hr : IntOp.remsi .host (0 : BitVec 32) d = 0#32 := by
      unfold IntOp.remsi
      rw [if_neg hnc]
      unfold BitVec.srem
      rw [show (0 : BitVec 32).msb = false from by decide, hmd]
      show BitVec.umod 0 d = 0#32
      apply BitVec.eq_of_toNat_eq
      simp
    rw [hr]
    have : IntOp.andi (IntOp.cmpi .ne (sgn 0) (sgn d)) (IntOp.cmpi .ne (0#32 : BitVec 32) 0#32) = 0#1 := by
      rcases BitVec.eq_zero_or_eq_one (IntOp.cmpi .ne (sgn 0) (sgn d)) with h | h <;> rw [h] <;> decide
    rw [this]
    exact if_neg (by decide)
  · have hsx : sgn x = 1 := by
      unfold sgn
      rw [if_neg hx0, hmx]
      rfl
    rw [hsx, hsd]
    have : IntOp.andi (IntOp.cmpi .ne (1 : BitVec 32) 1) (IntOp.cmpi .ne (IntOp.remsi .host x d) 0#32) = 0#1 := by
      rcases BitVec.eq_zero_or_eq_one (IntOp.cmpi .ne (IntOp.remsi .host x d) 0#32) with h | h <;> rw [h] <;> decide
    rw [this]
    exact if_neg (by decide)

end Idealize.ShloMosaic.LibFloorDiv
-- ==== Proof.ChainValuesC.lean ====
/-
  The counting sort's arrays at an index, continued: the padded sizes, the bounds and the offsets. A bucket size is at
  most 65536, so size + 1023 is a small non-negative word and jnp's floor division by 1024 is the quotient; times 1024 it
  is the padded size. The cumulative sum of the four padded sizes is the bound; the offsets are the bounds shifted by one
  bucket, zero first (a one-entry zero array concatenated with the first three bounds).
-/
import proofs.«132175_j34754875359890_2_alg».proof.Proof.ChainValuesB
import proofs.«132175_j34754875359890_2_alg».proof.Proof.LibFloorDiv

set_option maxRecDepth 16384

noncomputable section

namespace Cert.KernelIdeal.ChainValues

open Cert.KernelIdeal Cert.KernelIdeal.Gen Cert.KernelIdeal.HostChain Cert.KernelIdeal.HostChainB
open Idealize.ShloMosaic Idealize.ShloMosaic.ValueIdx Idealize.ShloMosaic.LibCumsum Idealize.ShloMosaic.LibCountingSort
open Idealize.ShloMosaic.LibFloorDiv

/-- The called floor division at an entry is the word-level one of the entry, by 1024. -/
theorem floordivVec_apply (x : IVec S4 32) (e : Fin 4) :
    floordivVec x (constantI S_ 32 1024#32) (ix1 e) = jnpFloorDiv (x (ix1 e)) 1024#32 := by
  unfold floordivVec jnpFloorDiv sgn
  simp only [select, cmpi, andi, subi, Host.divsi, Host.remsi, signi, broadcastInDim, constantI, id]
  rfl

theorem count_le (t : Fin 65536 → Fin 4) (e : Fin 4) : LibCountingSort.count t e ≤ 65536 := by
  unfold LibCountingSort.count
  exact (Finset.card_le_univ _).trans (by rw [Fintype.card_fin])

variable (T : IVec S65536 32) (t : Fin 65536 → Fin 4) (hT : ∀ b, T (ix1 b) = BitVec.ofNat 32 (t b).val)
include hT

/-- THE PADDED SIZES. -/
theorem psize_apply (e : Fin 4) : psizesOf (cumRows (onehot T)) (ix1 e) = BitVec.ofNat 32 (psize 1024 t e) := by
  have hc := count_le t e
  unfold psizesOf
  show IntOp.muli (floordivVec (subi (addi (countsOf (cumRows (onehot T))) (broadcastInDim S4 ![] bcast_S_S4 (constantI S_ 32 1024#32)))
      (broadcastInDim S4 ![] bcast_S_S4 (constantI S_ 32 1#32))) (constantI S_ 32 1024#32) (ix1 e)) 1024#32 = _
  rw [floordivVec_apply]
  have hx : (subi (addi (countsOf (cumRows (onehot T))) (broadcastInDim S4 ![] bcast_S_S4 (constantI S_ 32 1024#32)))
      (broadcastInDim S4 ![] bcast_S_S4 (constantI S_ 32 1#32))) (ix1 e) = BitVec.ofNat 32 (LibCountingSort.count t e + 1023) := by
    show countsOf (cumRows (onehot T)) (ix1 e) + 1024#32 - 1#32 = _
    rw [counts_apply T t hT e]
    show BitVec.ofNat 32 (LibCountingSort.count t e) + 1024#32 - 1#32 = _
    rw [BitVec.ofNat_add, add_sub_assoc]
    rfl
  rw [hx]
  have hnat : (BitVec.ofNat 32 (LibCountingSort.count t e + 1023)).toNat = LibCountingSort.count t e + 1023 := by
    rw [BitVec.toNat_ofNat]; exact Nat.mod_eq_of_lt (by omega)
  rw [jnpFloorDiv_nonneg _ 1024#32 (by rw [hnat]; omega) (by decide) (by decide), hnat]
  show BitVec.ofNat 32 ((LibCountingSort.count t e + 1023) / 1024) * BitVec.ofNat 32 1024 = _
  rw [BitVec.ofNat_mul_ofNat]
  rfl

/-- THE BOUNDS. -/
theorem bounds_apply (e : Fin 4) : cumVec (psizesOf (cumRows (onehot T))) (ix1 e) = BitVec.ofNat 32 (bound 1024 t e) := by
  unfold cumVec
  refine (reduceWindow_cumsum_vec (N := 4) (by decide) _ _ (fun _ => rfl) _ _ e).trans ?_
  unfold bound
  show _ = ((∑ e' : Fin 4, if e'.val ≤ e.val then psize 1024 t e' else 0 : ℕ) : BitVec 32)
  rw [Nat.cast_sum]
  refine Finset.sum_congr rfl fun e' _ => ?_
  rw [psize_apply T t hT e']
  by_cases h : e'.val ≤ e.val
  · rw [if_pos h, if_pos h]; rfl
  · rw [if_neg h, if_neg h]; rfl

end Cert.KernelIdeal.ChainValues

end
-- ==== Proof.ChainValuesD.lean ====
/-
  The counting sort's arrays at an index, concluded for the positions. The offsets are the bounds shifted by one bucket
  with zero first; the offset looked up at the row's tile plus the row's rank is the position off (t b) + cnt b (t b) − 1
  of the padded counting sort; it is below 69632, so as a word it is not negative, jnp's index normalization leaves it,
  and read signed it is that number.
-/
import proofs.«132175_j34754875359890_2_alg».proof.Proof.ChainValuesC
import Idealize.ShloMosaic.Lib.WordArith

set_option maxRecDepth 16384

noncomputable section

namespace Cert.KernelIdeal.ChainValues

open Cert.KernelIdeal Cert.KernelIdeal.Gen Cert.KernelIdeal.HostChain Cert.KernelIdeal.HostChainB Cert.KernelIdeal.KernelRun
open Idealize.ShloMosaic Idealize.ShloMosaic.ValueIdx Idealize.ShloMosaic.LibCountingSort Idealize.ShloMosaic.LibGatherTable

/-- The offsets: a one-entry array followed by the first three bounds. -/
def offsOf (Z : IVec S1 32) (CB : IVec S4 32) : IVec S4 32 :=
  concatenate S4 0 [⟨S1, Z⟩, ⟨S3, extractStridedSlice S3 ![0] CB slices_S4_S3_0⟩] concatenates_S1_S3_S4_d0

/-- Over the naturals: the offset of bucket e is zero for the first bucket and the previous bucket's bound otherwise. -/
theorem off_zero (t : Fin 65536 → Fin 4) : off 1024 t (0 : Fin 4) = 0 := by
  unfold off
  exact Finset.sum_eq_zero fun e' _ => if_neg (Nat.not_lt_zero _)

theorem off_succ (t : Fin 65536 → Fin 4) (e : Fin 4) (he : 0 < e.val) :
    off 1024 t e = bound 1024 t ⟨e.val - 1, by have := e.isLt; omega⟩ := by
  unfold off bound
  refine Finset.sum_congr rfl fun e' _ => ?_
  by_cases h : e'.val < e.val
  · rw [if_pos h, if_pos (by show e'.val ≤ e.val - 1; omega)]
  · rw [if_neg h, if_neg (by show ¬ e'.val ≤ e.val - 1; omega)]

/-- A small number as a word is not negative and reads back signed as itself. -/
theorem small_word (p : ℕ) (hp : p < 2 ^ 31) :
    IntOp.cmpi .slt (BitVec.ofNat 32 p) 0#32 = 0#1 ∧ (BitVec.ofNat 32 p).toInt = (p : Int) := by
  have hi := WordArith.toInt_ofNat_small p hp
  refine ⟨?_, hi⟩
  unfold IntOp.cmpi
  show BitVec.ofBool ((BitVec.ofNat 32 p).slt 0#32) = 0#1
  have : (BitVec.ofNat 32 p).slt 0#32 = false := by
    rw [BitVec.slt, hi]
    simp
  rw [this]; rfl

variable (T : IVec S65536 32) (t : Fin 65536 → Fin 4) (hT : ∀ b, T (ix1 b) = BitVec.ofNat 32 (t b).val)
include hT

/-- THE OFFSETS. -/
theorem offs_apply (e : Fin 4) :
    offsOf (broadcastInDim S1 ![] bcast_S_S1 (constantI S_ 32 0#32)) (cumVec (psizesOf (cumRows (onehot T)))) (ix1 e)
      = BitVec.ofNat 32 (off 1024 t e) := by
  unfold offsOf
  by_cases he : e.val = 0
  · have e0 : e = (0 : Fin 4) := Fin.ext he
    subst e0
    refine (concatenate_pair_apply_left (t := S4) (s₁ := S1) (s₂ := S3) (0 : Fin 1) _ _ concatenates_S1_S3_S4_d0
      (ix1 (0 : Fin 4)) rfl (ix1 (0 : Fin 1)) (fun b => by match b with | ⟨0, _⟩ => rfl)).trans ?_
    rw [off_zero]
    rfl
  · have hpos : 0 < e.val := Nat.pos_of_ne_zero he
    have hlt := e.isLt
    refine (concatenate_pair_apply_right (t := S4) (s₁ := S1) (s₂ := S3) (0 : Fin 1) _ _ concatenates_S1_S3_S4_d0
      (ix1 e) rfl rfl (ix1 (⟨e.val - 1, by omega⟩ : Fin 3))
      (fun b hb => by match b with | ⟨0, _⟩ => exact absurd rfl hb)
      (by show (e.val - 1) + 1 = e.val; omega)).trans ?_
    refine (extractStridedSlice_apply _ _ _ (ix1 (⟨e.val - 1, by omega⟩ : Fin 3)) (ix1 (⟨e.val - 1, by omega⟩ : Fin 4))
      (fun a => by match a with | ⟨0, _⟩ => show e.val - 1 = 0 + (e.val - 1); omega)).trans ?_
    rw [bounds_apply T t hT, off_succ t e hpos]

omit hT in
/-- The index column of the offsets' lookup: the tile, a negative one wrapped by 4. -/
def normTile (T : IVec S65536 32) : IVec S65536x1 32 :=
  broadcastInDim S65536x1 ![0] bcast_S65536_S65536x1_0
    (select (cmpi .slt T (broadcastInDim S65536 ![] bcast_S_S65536 (constantI S_ 32 0#32)))
      (addi T (broadcastInDim S65536 ![] bcast_S_S65536 (constantI S_ 32 4#32))) T)

omit hT in
/-- The offsets array of a tile array. -/
def offsT (T : IVec S65536 32) : IVec S4 32 :=
  offsOf (broadcastInDim S1 ![] bcast_S_S1 (constantI S_ 32 0#32)) (cumVec (psizesOf (cumRows (onehot T))))

/-- The index column at (b, 0) is the tile word (not negative, so not wrapped). -/
theorem normTile_apply (b : Fin 65536) : normTile T (ix2 b (0 : Fin 1)) = BitVec.ofNat 32 (t b).val := by
  unfold normTile
  refine (broadcastInDim_apply _ _ _ (ix2 b (0 : Fin 1)) (ix1 b) fun a => by
    match a with
    | ⟨0, _⟩ => show b.val = if (65536 : Nat) = 1 then 0 else b.val; rw [if_neg (by decide)]).trans ?_
  show Scalar.select (IntOp.cmpi .slt (T (ix1 b)) 0#32) (IntOp.addi (T (ix1 b)) 4#32) (T (ix1 b)) = _
  rw [hT b, (tile_word_facts (t b)).1]
  exact if_neg (by decide)

/-- The offset looked up for row b is the offset of b's tile. -/
theorem lookup_apply (b : Fin 65536) :
    Host.gather gather_S4_S65536x1_S65536_n_0_n_n_0_1_1 (offsT T) (normTile T) (ix1 b) = BitVec.ofNat 32 (off 1024 t (t b)) := by
  refine (gather_table_apply (N := 4) (R := 65536) (by decide) gather_S4_S65536x1_S65536_n_0_n_n_0_1_1_wf (offsT T) (normTile T) b).trans ?_
  have hent : entryOf (N := 4) (by decide) (normTile T) b = t b := by
    apply Fin.ext
    show min (normTile T (ix2 b (0 : Fin 1))).toInt.toNat (4 - 1) = (t b).val
    rw [normTile_apply T t hT b]
    exact (tile_word_facts (t b)).2.2.2
  rw [hent]
  exact offs_apply T t hT (t b)

/-- THE PADDED POSITION: the looked-up offset plus the rank. -/
theorem pos_apply (b : Fin 65536) :
    addi (Host.gather gather_S4_S65536x1_S65536_n_0_n_n_0_1_1 (offsT T) (normTile T))
      (rankOf (takeAlong (cumRows (onehot T)) (tileCol T))) (ix1 b)
      = BitVec.ofNat 32 (pos 1024 t b) := by
  show IntOp.addi (Host.gather gather_S4_S65536x1_S65536_n_0_n_n_0_1_1 (offsT T) (normTile T) (ix1 b))
    (rankOf (takeAlong (cumRows (onehot T)) (tileCol T)) (ix1 b)) = _
  rw [lookup_apply T t hT b, rank_apply T t hT b]
  have h1 := cnt_self_pos t b
  have hsub : ((cnt t b (t b) : ℕ) : BitVec 32) - 1 = BitVec.ofNat 32 (cnt t b (t b) - 1) := by
    conv_lhs => rw [show cnt t b (t b) = (cnt t b (t b) - 1) + 1 from by omega]
    show BitVec.ofNat 32 ((cnt t b (t b) - 1) + 1) - 1 = _
    rw [BitVec.ofNat_add]
    exact add_sub_cancel_right _ _
  show BitVec.ofNat 32 (off 1024 t (t b)) + (((cnt t b (t b) : ℕ) : BitVec 32) - 1) = _
  rw [hsub, BitVec.ofNat_add_ofNat]
  refine congrArg (BitVec.ofNat 32) ?_
  unfold pos
  omega

end Cert.KernelIdeal.ChainValues

end
-- ==== Proof.ChainValuesE.lean ====
/-
  The counting sort's arrays at an index, concluded for the table. Block j starts at row 1024 · j; the table's word for
  block j is the number of the four bounds at or below that row, capped at 3 — bounds and block starts are small
  non-negative words, so the signed comparison is the comparison of the numbers, and the sum of the four 0/1 flags is the
  count. And a position below 69632 as a word survives jnp's index normalization and reads back signed as itself.
-/
import proofs.«132175_j34754875359890_2_alg».proof.Proof.ChainValuesD
import proofs.«132175_j34754875359890_2_alg».proof.Proof.Placement

set_option maxRecDepth 16384

noncomputable section

namespace Cert.KernelIdeal.ChainValues

open Cert.KernelIdeal Cert.KernelIdeal.Gen Cert.KernelIdeal.HostChain Cert.KernelIdeal.HostChainB Cert.KernelIdeal.KernelRun
open Idealize.ShloMosaic Idealize.ShloMosaic.ValueIdx Idealize.ShloMosaic.LibCountingSort

/-- THE NORMALIZED POSITION READ SIGNED, for a position array of small numbers. -/
theorem place_apply (P : IVec S65536 32) (p : Fin 65536 → ℕ) (hP : ∀ b, P (ix1 b) = BitVec.ofNat 32 (p b)) (hp : ∀ b, p b < 69632)
    (b : Fin 65536) : Placement.placeOf P b = (p b : Int) := by
  unfold Placement.placeOf posIdx
  have hb := hp b
  have hw := small_word (p b) (by omega)
  rw [broadcastInDim_apply _ _ _ (ix2 b (0 : Fin 1)) (ix1 b) (fun a => by
    match a with
    | ⟨0, _⟩ => show b.val = if (65536 : Nat) = 1 then 0 else b.val; rw [if_neg (by decide)])]
  show (Scalar.select (IntOp.cmpi .slt (P (ix1 b)) 0#32) (IntOp.addi (P (ix1 b)) 69632#32) (P (ix1 b))).toInt = _
  rw [hP b, hw.1]
  exact (congrArg BitVec.toInt (if_neg (by decide))).trans hw.2

/-- A capped count of at most four as a word. -/
theorem minsi_cap : ∀ c : Fin 5, IntOp.minsi (BitVec.ofNat 32 c.val) 3#32 = BitVec.ofNat 32 (min c.val 3) := by decide

/-- Two small numbers compared signed as words: the comparison of the numbers, as a 0/1 word. -/
theorem sge_flag (x y : ℕ) (hx : x < 2 ^ 31) (hy : y < 2 ^ 31) :
    ((IntOp.cmpi .sge (BitVec.ofNat 32 x) (BitVec.ofNat 32 y)).setWidth 32 : BitVec 32) = if y ≤ x then 1 else 0 := by
  have hxi := WordArith.toInt_ofNat_small x hx
  have hyi := WordArith.toInt_ofNat_small y hy
  unfold IntOp.cmpi
  show (BitVec.ofBool ((BitVec.ofNat 32 y).sle (BitVec.ofNat 32 x))).setWidth 32 = _
  have : (BitVec.ofNat 32 y).sle (BitVec.ofNat 32 x) = decide (y ≤ x) := by
    rw [BitVec.sle, hxi, hyi]
    simp
  rw [this]
  by_cases h : y ≤ x
  · rw [if_pos h, decide_eq_true h]; decide
  · rw [if_neg h, decide_eq_false h]; decide

/-- A per-block array broadcast along the four buckets, and a per-bucket array along the 68 blocks, read at (j, e). -/
theorem blocks_bcast_apply {α : Type} (v : S68.Idx → α) (j : Fin 68) (e : Fin 4) :
    broadcastInDim S68x4 ![0, 1] bcast_S68x1_S68x4_0_1 (broadcastInDim S68x1 ![0] bcast_S68_S68x1_0 v) (ix2 j e) = v (ix1 j) := by
  refine (broadcastInDim_apply _ _ _ (ix2 j e) (ix2 j (0 : Fin 1)) fun a => ?_).trans ?_
  · match a with
    | ⟨0, _⟩ => show j.val = if (68 : Nat) = 1 then 0 else j.val; rw [if_neg (by decide)]
    | ⟨1, _⟩ => show (0 : Nat) = if (1 : Nat) = 1 then 0 else e.val; rw [if_pos rfl]
  refine broadcastInDim_apply _ _ _ (ix2 j (0 : Fin 1)) (ix1 j) fun a => ?_
  match a with
  | ⟨0, _⟩ => show j.val = if (68 : Nat) = 1 then 0 else j.val; rw [if_neg (by decide)]

theorem bounds_bcast_apply {α : Type} (v : S4.Idx → α) (j : Fin 68) (e : Fin 4) :
    broadcastInDim S68x4 ![0, 1] bcast_S1x4_S68x4_0_1 (broadcastInDim S1x4 ![1] bcast_S4_S1x4_1 v) (ix2 j e) = v (ix1 e) := by
  refine (broadcastInDim_apply _ _ _ (ix2 j e) (ix2 (0 : Fin 1) e) fun a => ?_).trans ?_
  · match a with
    | ⟨0, _⟩ => show (0 : Nat) = if (1 : Nat) = 1 then 0 else j.val; rw [if_pos rfl]
    | ⟨1, _⟩ => show e.val = if (4 : Nat) = 1 then 0 else e.val; rw [if_neg (by decide)]
  refine broadcastInDim_apply _ _ _ (ix2 (0 : Fin 1) e) (ix1 e) fun a => ?_
  match a with
  | ⟨0, _⟩ => show e.val = if (4 : Nat) = 1 then 0 else e.val; rw [if_neg (by decide)]

/-- Block j starts at row 1024 · j. -/
theorem blockStarts_apply (j : Fin 68) : blockStarts (ix1 j) = BitVec.ofNat 32 (j.val * 1024) := by
  unfold blockStarts
  show IntOp.muli (BitVec.ofNat 32 j.val) 1024#32 = _
  show BitVec.ofNat 32 j.val * BitVec.ofNat 32 1024 = _
  rw [BitVec.ofNat_mul_ofNat]

theorem bound_small (t : Fin 65536 → Fin 4) (e : Fin 4) : bound 1024 t e ≤ 69628 :=
  (bound_le_total 1024 t e).trans (total_le 1024 t)

variable (T : IVec S65536 32) (t : Fin 65536 → Fin 4) (hT : ∀ b, T (ix1 b) = BitVec.ofNat 32 (t b).val)
include hT

/-- THE TABLE WORD OF BLOCK j: the number of bounds at or below row 1024 · j, capped at 3. -/
theorem table_apply (j : Fin 68) :
    tableOf (cumVec (psizesOf (cumRows (onehot T)))) blockStarts (ix1 j)
      = BitVec.ofNat 32 (min (Finset.univ.filter fun e : Fin 4 => bound 1024 t e ≤ j.val * 1024).card 3) := by
  unfold tableOf
  show IntOp.minsi (Host.reduce IntOp.addi _ _ reducesTo_S68x4_S68_d1 h_S_ (ix1 j)) 3#32 = _
  rw [Host.reduce_eq_fold_single IntOp.addi _ _ reducesTo_S68x4_S68_d1 (by decide : S68x4.Reduces [1] S68) h_S_ (ix1 j)]
  have hsum : (Finset.univ : Finset (Fin (S68x4.size 1))).fold IntOp.addi ((constantI S_ 32 0#32) (Shape.Idx.first h_S_))
      ((extui 32 (cmpi .sge
        (broadcastInDim S68x4 ![0, 1] bcast_S68x1_S68x4_0_1 (broadcastInDim S68x1 ![0] bcast_S68_S68x1_0 blockStarts))
        (broadcastInDim S68x4 ![0, 1] bcast_S1x4_S68x4_0_1 (broadcastInDim S1x4 ![1] bcast_S4_S1x4_1 (cumVec (psizesOf (cumRows (onehot T))))))) natLt_1_32)
        ∘ (by decide : S68x4.Reduces [1] S68).lift (ix1 j))
      = BitVec.ofNat 32 ((Finset.univ.filter fun e : Fin 4 => bound 1024 t e ≤ j.val * 1024).card) := by
    show (Finset.univ : Finset (Fin 4)).fold (fun x y : BitVec 32 => x + y) (0 : BitVec 32) _ = _
    refine (Finset.sum_eq_fold (Finset.univ : Finset (Fin 4)) _).symm.trans ?_
    have hel : ∀ e : Fin 4, ((extui 32 (cmpi .sge
        (broadcastInDim S68x4 ![0, 1] bcast_S68x1_S68x4_0_1 (broadcastInDim S68x1 ![0] bcast_S68_S68x1_0 blockStarts))
        (broadcastInDim S68x4 ![0, 1] bcast_S1x4_S68x4_0_1 (broadcastInDim S1x4 ![1] bcast_S4_S1x4_1 (cumVec (psizesOf (cumRows (onehot T))))))) natLt_1_32)
        ∘ (by decide : S68x4.Reduces [1] S68).lift (ix1 j)) e = if bound 1024 t e ≤ j.val * 1024 then (1 : BitVec 32) else 0 := by
      intro e
      have hl : (by decide : S68x4.Reduces [1] S68).lift (ix1 j) e = ix2 j e := by
        funext a
        apply Fin.ext
        match a with
        | ⟨0, _⟩ => rfl
        | ⟨1, _⟩ => rfl
      show ((IntOp.cmpi .sge (broadcastInDim S68x4 ![0, 1] bcast_S68x1_S68x4_0_1 (broadcastInDim S68x1 ![0] bcast_S68_S68x1_0 blockStarts) _)
        (broadcastInDim S68x4 ![0, 1] bcast_S1x4_S68x4_0_1 (broadcastInDim S1x4 ![1] bcast_S4_S1x4_1 (cumVec (psizesOf (cumRows (onehot T))))) _)).setWidth 32 : BitVec 32) = _
      rw [hl, blocks_bcast_apply, bounds_bcast_apply, blockStarts_apply, bounds_apply T t hT e]
      have hb := bound_small t e
      have hj := j.isLt
      exact sge_flag _ _ (by omega) (by omega)
    rw [Finset.sum_congr rfl (fun e _ => hel e), Finset.sum_boole]
    rfl
  rw [hsum]
  have hc : (Finset.univ.filter fun e : Fin 4 => bound 1024 t e ≤ j.val * 1024).card ≤ 4 :=
    (Finset.card_le_univ _).trans (by rw [Fintype.card_fin])
  exact minsi_cap ⟨(Finset.univ.filter fun e : Fin 4 => bound 1024 t e ≤ j.val * 1024).card, by omega⟩

end Cert.KernelIdeal.ChainValues

end
-- ==== Proof.ChainCompose.lean ====
/-
  The kernel's host prefix, composed. The contents the region finds are the eleven stretches from the tile's on, run in
  order over what the first four stretches leave; reading them back group by group, the position array and the table
  are the pure functions of the tile array that the value lemmas speak of, and the tile array itself is what the fifth
  stretch leaves (no later stretch writes it).
-/
import proofs.«132175_j34754875359890_2_alg».proof.Proof.ChainValuesE

set_option maxRecDepth 16384

noncomputable section

namespace Cert.KernelIdeal.ChainCompose

open Cert.KernelIdeal Cert.KernelIdeal.Gen Cert.KernelIdeal.HostChain Cert.KernelIdeal.HostChainB Cert.KernelIdeal.HostPrefix
open Cert.KernelIdeal.ChainValues Cert.KernelIdeal.KernelRun
open Idealize.ShloMosaic Idealize.ShloMosaic.TcCoe Idealize.SL.Sem Idealize.ShloMosaic.StableHlo

variable (m : (ℓ : Loc nD τ sig) → Buf (Elt Ideal) ℓ)

/-- The position array as a function of the tile array. -/
def posTerm (T : IVec S65536 32) : IVec S65536 32 :=
  addi (Host.gather gather_S4_S65536x1_S65536_n_0_n_n_0_1_1 (offsT T) (normTile T))
    (rankOf (takeAlong (cumRows (onehot T)) (tileCol T)))

/-- The table as a function of the tile array. -/
def tblTerm (T : IVec S65536 32) : IVec S68 32 := tableOf (cumVec (psizesOf (cumRows (onehot T)))) blockStarts

/-- The first four stretches (the two coordinate columns and their remainders). -/
abbrev before4 : List (HloOp τ sig (Elt Ideal)) := List.flatten [hostOps0, hostOps0_1, hostOps0_2, hostOps0_3]

theorem prefix_split4 : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14] : List (HloOp τ sig (Elt Ideal)))
    = before4 ++ (hostOps0_4 ++ (hostOps0_5 ++ (hostOps0_6 ++ (hostOps0_7 ++ (hostOps0_8 ++ (hostOps0_9 ++ (hostOps0_10 ++ (hostOps0_11
        ++ (hostOps0_12 ++ (hostOps0_13 ++ hostOps0_14)))))))))) := by
  simp only [before4, List.flatten_cons, List.flatten_nil, List.append_nil, List.append_assoc]

/-- The contents the region finds: the eleven later stretches, in order, over what the first four leave. -/
theorem V0_chain (c : Dev nD) : V0 m c = StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after before4 (fun b => m (c, b))))))))))))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) = _
  rw [prefix_split4]
  simp only [StableHlo.after_append]

section ReadBack
attribute [local irreducible] shapeCast extractStridedSlice broadcastInDim select cmpi addi subi muli andi minsi extui constantI iotaInDim
  Host.reduceWindow Host.reduce Host.gather Host.scatter Host.divsi Host.remsi signi concatenate truncf constant transpose

set_option maxHeartbeats 2000000 in
/-- The last three stretches do not write the tile array. -/
theorem late_keep_v15 (X : Valuation τ sig (Elt Ideal)) :
    after hostOps0_14 (after hostOps0_13 (after hostOps0_12 X)) (Proc.devRef .tc main_v15) = X (Proc.devRef .tc main_v15) := by
  simp only [hostOps0_14, hostOps0_13, hostOps0_12, after_cons, after_nil]
  rfl
end ReadBack

/-- The tile array, as the fifth stretch leaves it over the first four. -/
def tileAt (c : Dev nD) : IVec S65536 32 := after hostOps0_4 (after before4 (fun b => m (c, b))) (Proc.devRef .tc main_v15)

/-- THE TILE ARRAY the region's prefix ends with is that array. -/
theorem v15_eq (c : Dev nD) : V m c main_v15 = tileAt m c := by
  show V0 m c (Proc.devRef .tc main_v15) = _
  rw [V0_chain, late_keep_v15, g3_v15, s567_v15]
  rfl

/-- THE POSITION ARRAY is the position function of the tile array. -/
theorem v49_eq (c : Dev nD) : V m c main_v49 = posTerm (tileAt m c) := by
  show V0 m c (Proc.devRef .tc main_v49) = _
  rw [V0_chain, later_keep_v49, stretch12_v49]
  unfold pos12
  rw [g3_v38, g3_v39, g3_v15, g3_v28, s567_v23, s567_v15, s567_v25, s4_v22]
  unfold posTerm offsT normTile offsOf
  rfl

/-- THE TABLE is the table function of the tile array (the program runs on one device). -/
theorem tbl_eq : tbl m 0 = tblTerm (tileAt m 0) := by
  unfold tbl
  show V0 m (0 : Dev nD) (Proc.devRef .tc main_v71) = _
  rw [V0_chain, g5_v71, s12_v37, s12_v61, g3_v37, s567_v23, s4_v22]
  rfl

end Cert.KernelIdeal.ChainCompose

end
-- ==== Proof.LibModTwo.lean ====
/-
  jnp's integer `mod` by a positive literal lowers to the machine's signed remainder followed by a fix-up: when the
  remainder's sign differs from the divisor's and the remainder is not zero, the divisor is added. For the divisor 2
  the signed remainder of any 32-bit word is 0, 1 or −1, and the fix-up turns −1 into 1: the result is 0 or 1.
-/
import Idealize.ShloMosaic.PureOps.Float

namespace Idealize.ShloMosaic.LibModTwo

/-- jnp's `mod` as printed, on one word: the host's signed remainder, then the sign fix-up. -/
def jnpMod (x d : BitVec 32) : BitVec 32 :=
  Scalar.select
    (IntOp.andi (IntOp.cmpi .ne (IntOp.cmpi .slt (IntOp.remsi .host x d) 0#32) (IntOp.cmpi .slt d 0#32)) (IntOp.cmpi .ne (IntOp.remsi .host x d) 0#32))
    (IntOp.addi (IntOp.remsi .host x d) d) (IntOp.remsi .host x d)

/-- An unsigned remainder by 2 is 0 or 1. -/
theorem umod_two (z : BitVec 32) : z % 2#32 = 0#32 ∨ z % 2#32 = 1#32 := by
  have h : (z % 2#32).toNat < 2 := by
    rw [BitVec.toNat_umod]
    exact Nat.mod_lt _ (by decide)
  rcases (by omega : (z % 2#32).toNat = 0 ∨ (z % 2#32).toNat = 1) with h0 | h1
  · left; exact BitVec.eq_of_toNat_eq h0
  · right; exact BitVec.eq_of_toNat_eq h1

/-- The signed remainder by 2 is 0, 1 or −1. -/
theorem srem_two (x : BitVec 32) : x.srem 2#32 = 0#32 ∨ x.srem 2#32 = 1#32 ∨ x.srem 2#32 = 0xFFFFFFFF#32 := by
  have h2 : (2#32 : BitVec 32).msb = false := by decide
  unfold BitVec.srem
  rw [h2]
  cases hm : x.msb
  · rcases umod_two x with h | h
    · left; simpa using h
    · right; left; simpa using h
  · rcases umod_two (-x) with h | h
    · left
      show -(BitVec.umod (-x) 2#32) = 0#32
      rw [show BitVec.umod (-x) 2#32 = 0#32 from h]; decide
    · right; right
      show -(BitVec.umod (-x) 2#32) = 0xFFFFFFFF#32
      rw [show BitVec.umod (-x) 2#32 = 1#32 from h]; decide

/-- The host's signed remainder by 2 is the machine's: 2 is no division corner. -/
theorem remsi_two (x : BitVec 32) : IntOp.remsi .host x 2#32 = x.srem 2#32 := by
  unfold IntOp.remsi
  rw [if_neg]
  rintro (h | ⟨-, h⟩) <;> exact absurd h (by decide)

/-- jnp's `mod 2` of any word is 0 or 1. -/
theorem jnpMod_two (x : BitVec 32) : jnpMod x 2#32 = 0#32 ∨ jnpMod x 2#32 = 1#32 := by
  unfold jnpMod
  rw [remsi_two]
  rcases srem_two x with h | h | h <;> rw [h]
  · left; decide
  · right; decide
  · right; decide

/-- Twice a `mod 2` plus a `mod 2`: one of 0, 1, 2, 3. -/
theorem tile_lt (x y : BitVec 32) : (IntOp.addi (IntOp.muli 2#32 (jnpMod x 2#32)) (jnpMod y 2#32)).toNat < 4 := by
  rcases jnpMod_two x with hx | hx <;> rcases jnpMod_two y with hy | hy <;> rw [hx, hy] <;> decide

end Idealize.ShloMosaic.LibModTwo
-- ==== Proof.RefTile.lean ====
/-
  The reference's tile words. The tile piece computes, for each of the two coordinate columns, the floor of 16 times
  the coordinate converted to an integer and reduced by jnp's `mod 2` — the called remainder function, written here
  once as a pure function of the converted column — and combines them as 2·(first) + (second). Each `mod 2` is 0 or 1
  whatever the converted word is, so every tile word is one of 0, 1, 2, 3: the float-to-integer conversion's behaviour
  on huge values plays no part.
-/
import proofs.«132175_j34754875359890_2_alg».proof.Proof.RefSegments
import proofs.«132175_j34754875359890_2_alg».proof.Proof.LibModTwo
import Idealize.ShloMosaic.Lib.Pipeline.Value
import Idealize.ShloMosaic.Lib.ValueIdx

set_option maxRecDepth 16384

noncomputable section

namespace Cert.ReferenceIdeal.RefTile

open Cert.ReferenceIdeal Cert.ReferenceIdeal.Gen Cert.ReferenceIdeal.RefRun Cert.ReferenceIdeal.RefSegments
open Idealize.ShloMosaic Idealize.ShloMosaic.TcCoe Idealize.SL.Sem Idealize.ShloMosaic.StableHlo Idealize.ShloMosaic.ValueIdx
open Idealize.ShloMosaic.LibModTwo

variable {F : FTy → Type} [FloatOps F]

/-- jnp's `mod` of a column of words by a scalar divisor, as the called function computes it (its values in order). -/
def remVec (x : IVec S65536 32) (d : IVec S_ 32) : IVec S65536 32 :=
  have v2 : IVec S_ 32 := select (cmpi .eq (id d) (constantI S_ 32 0#32)) (constantI S_ 32 1#32) (id d)
  have v4 : IVec S65536 32 := Host.remsi x (broadcastInDim S65536 ![] bcast_S_S65536 v2)
  select
    (andi (cmpi .ne (cmpi .slt v4 (broadcastInDim S65536 ![] bcast_S_S65536 (constantI S_ 32 0#32)))
        (broadcastInDim S65536 ![] bcast_S_S65536 (cmpi .slt v2 (constantI S_ 32 0#32))))
      (cmpi .ne v4 (broadcastInDim S65536 ![] bcast_S_S65536 (constantI S_ 32 0#32))))
    (addi v4 (broadcastInDim S65536 ![] bcast_S_S65536 v2)) v4

/-- Column j (0 or 1) of the coordinates times 16, floored and converted to integers. -/
def column0 (x1 : FVec F S1x65536x2 .f32) : IVec S65536 32 :=
  fptosi 32 (Host.floor (shapeCast S65536 (extractStridedSlice S65536x1 ![0, 0]
    (mulf (shapeCast S65536x2 x1 shapeCasts_S1x65536x2_S65536x2) (broadcastInDim S65536x2 ![] bcast_S_S65536x2 (constant S_ .f32 0x41800000#32)))
    slices_S65536x2_S65536x1_0_0) shapeCasts_S65536x1_S65536))
def column1 (x1 : FVec F S1x65536x2 .f32) : IVec S65536 32 :=
  fptosi 32 (Host.floor (shapeCast S65536 (extractStridedSlice S65536x1 ![0, 1]
    (mulf (shapeCast S65536x2 x1 shapeCasts_S1x65536x2_S65536x2) (broadcastInDim S65536x2 ![] bcast_S_S65536x2 (constant S_ .f32 0x41800000#32)))
    slices_S65536x2_S65536x1_0_1) shapeCasts_S65536x1_S65536))

-- the layout and pointwise operations are compared as names, never opened, when the piece's fold is read back
section ReadBack
attribute [local irreducible] shapeCast extractStridedSlice broadcastInDim select cmpi addi muli andi mulf fptosi Host.floor Host.remsi constant constantI

set_option maxHeartbeats 4000000 in
/-- THE TILE ARRAY the tile piece leaves: 2 · mod₂(column 0) + mod₂(column 1). -/
theorem segT_v15 (V : Valuation τ sig (Elt F)) :
    after segT V (Proc.devRef .tc main_v15)
      = addi (muli (broadcastInDim S65536 ![] bcast_S_S65536 (constantI S_ 32 2#32))
            (remVec (column0 (V (Proc.devRef .tc main_arg1))) (constantI S_ 32 2#32)))
          (remVec (column1 (V (Proc.devRef .tc main_arg1))) (constantI S_ 32 2#32)) := by
  unfold remVec column0 column1
  simp only [segT, after_cons, after_nil]
  rfl
end ReadBack

/-- The called `mod 2` at a row is the word-level `mod 2` of the row's word. -/
theorem remVec_apply (x : IVec S65536 32) (b : Fin 65536) :
    remVec x (constantI S_ 32 2#32) (ix1 b) = jnpMod (x (ix1 b)) 2#32 := by
  have hd : Scalar.select (IntOp.cmpi .eq (2#32 : BitVec 32) 0#32) (1#32 : BitVec 32) 2#32 = 2#32 := by decide
  unfold remVec jnpMod
  simp only [select, cmpi, andi, addi, Host.remsi, broadcastInDim, constantI, id]
  simp only [hd]

/-- EVERY TILE WORD IS ONE OF 0, 1, 2, 3. -/
theorem tile_lt (V : Valuation τ sig (Elt F)) (b : Fin 65536) : (after segT V (Proc.devRef .tc main_v15) (ix1 b)).toNat < 4 := by
  rw [segT_v15]
  show (IntOp.addi (IntOp.muli 2#32 (remVec (column0 (V (Proc.devRef .tc main_arg1))) (constantI S_ 32 2#32) (ix1 b)))
    (remVec (column1 (V (Proc.devRef .tc main_arg1))) (constantI S_ 32 2#32) (ix1 b))).toNat < 4
  rw [remVec_apply, remVec_apply]
  exact LibModTwo.tile_lt _ _

/-- The tile of row b, as a number below 4. -/
def tileOf (V : Valuation τ sig (Elt F)) (b : Fin 65536) : Fin 4 := ⟨(after segT V (Proc.devRef .tc main_v15) (ix1 b)).toNat, tile_lt V b⟩

/-- The tile word is the tile. -/
theorem tile_word (V : Valuation τ sig (Elt F)) (b : Fin 65536) :
    after segT V (Proc.devRef .tc main_v15) (ix1 b) = BitVec.ofNat 32 (tileOf V b).val := by
  show _ = BitVec.ofNat 32 (after segT V (Proc.devRef .tc main_v15) (ix1 b)).toNat
  simp

end Cert.ReferenceIdeal.RefTile

end
-- ==== Proof.TileEq.lean ====
/-
  The two programs compute the tile array by the same operations on the coordinates: the kernel's first five host
  stretches and the reference's tile piece are both 2 · mod₂(column 0) + mod₂(column 1) of the coordinate argument, with
  the columns scaled by 16, floored and converted. So on memories that agree on the coordinates the kernel's tile array
  is the reference's, whose words are the tile numbers.
-/
import proofs.«132175_j34754875359890_2_alg».proof.Proof.ChainCompose
import proofs.«132175_j34754875359890_2_alg».proof.Proof.RefTile

set_option maxRecDepth 16384

noncomputable section

namespace Cert.Proof.TileEq

open Idealize.ShloMosaic Idealize.ShloMosaic.TcCoe Idealize.SL.Sem Idealize.ShloMosaic.StableHlo Idealize.ShloMosaic.ValueIdx
open Cert.ReferenceIdeal.RefTile (remVec column0 column1)

section ReadBack
open Cert.KernelIdeal Cert.KernelIdeal.Gen
attribute [local irreducible] shapeCast extractStridedSlice broadcastInDim select cmpi addi muli andi mulf fptosi Host.floor Host.remsi constant constantI

set_option maxHeartbeats 8000000 in
/-- The kernel's first remainder call leaves mod₂ of column 0. -/
theorem k_v7 (X : Valuation Cert.KernelIdeal.τ Cert.KernelIdeal.sig (Elt Ideal)) :
    after hostOps0_3 (after hostOps0_2 (after hostOps0_1 (after hostOps0 X))) (Proc.devRef .tc main_v7)
      = remVec (column0 (F := Ideal) (X (Proc.devRef .tc main_arg1))) (constantI Cert.ReferenceIdeal.S_ 32 2#32) := by
  unfold remVec column0
  simp only [hostOps0_3, hostOps0_2, hostOps0_1, hostOps0, after_cons, after_nil]
  rfl

set_option maxHeartbeats 8000000 in
/-- The kernel's second remainder call leaves mod₂ of column 1. -/
theorem k_v12 (X : Valuation Cert.KernelIdeal.τ Cert.KernelIdeal.sig (Elt Ideal)) :
    after hostOps0_3 (after hostOps0_2 (after hostOps0_1 (after hostOps0 X))) (Proc.devRef .tc main_v12)
      = remVec (column1 (F := Ideal) (X (Proc.devRef .tc main_arg1))) (constantI Cert.ReferenceIdeal.S_ 32 2#32) := by
  unfold remVec column1
  simp only [hostOps0_3, hostOps0_2, hostOps0_1, hostOps0, after_cons, after_nil]
  rfl
end ReadBack

/-- The first four stretches, one after the other. -/
theorem before4_eq (X : Valuation Cert.KernelIdeal.τ Cert.KernelIdeal.sig (Elt Ideal)) :
    after Cert.KernelIdeal.ChainCompose.before4 X
      = after Cert.KernelIdeal.Gen.hostOps0_3 (after Cert.KernelIdeal.Gen.hostOps0_2 (after Cert.KernelIdeal.Gen.hostOps0_1 (after Cert.KernelIdeal.Gen.hostOps0 X))) := by
  simp only [Cert.KernelIdeal.ChainCompose.before4, List.flatten_cons, List.flatten_nil, List.append_nil, StableHlo.after_append]

/-- THE KERNEL'S TILE ARRAY IS THE REFERENCE'S, on memories that agree on the coordinates. -/
theorem tile_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.ChainCompose.tileAt m c
      = after (Cert.ReferenceIdeal.RefSegments.segT (F := Ideal)) (StableHlo.launchContents m' c) (Proc.devRef .tc Cert.ReferenceIdeal.main_v15) := by
  have hx : StableHlo.launchContents m' c (Proc.devRef .tc Cert.ReferenceIdeal.main_arg1)
      = (fun b => m (c, b)) (Proc.devRef .tc Cert.KernelIdeal.main_arg1) := h1
  unfold Cert.KernelIdeal.ChainCompose.tileAt
  rw [Cert.KernelIdeal.HostChain.s4_v15, before4_eq, k_v7, k_v12, Cert.ReferenceIdeal.RefTile.segT_v15, hx]

end Cert.Proof.TileEq

end
-- ==== Proof.Routing.lean ====
/-
  The counting sort's correctness for the kernel's host prefix. On memories that agree on the coordinates the kernel's
  tile array is the reference's, whose words are the tile numbers t b; the kernel's position array is, as words, the
  positions pos b = off (t b) + cnt b (t b) − 1 of the padded counting sort with blocks of 1024 rows; these are below
  65536 + 4 · 1023 ≤ 69632 and pairwise distinct; and the table word of the block of pos b is the number of bounds at
  or below the block's first row, capped at 3 — which is t b.
-/
import proofs.«132175_j34754875359890_2_alg».proof.Proof.TileEq

set_option maxRecDepth 16384

noncomputable section

namespace Cert.Proof.Routing

open Idealize.ShloMosaic Idealize.ShloMosaic.TcCoe Idealize.SL.Sem Idealize.ShloMosaic.ValueIdx Idealize.ShloMosaic.LibCountingSort
open Cert.KernelIdeal.ChainValues Cert.KernelIdeal.ChainCompose Cert.KernelIdeal.KernelRun

/-- The tile map: row b's tile, read off the reference's tile computation (one of 0, 1, 2, 3). -/
abbrev tiles (m' : (ℓ : Loc Cert.ReferenceIdeal.nD Cert.ReferenceIdeal.τ Cert.ReferenceIdeal.sig) → Buf (Elt Ideal) ℓ) (c : Dev Cert.KernelIdeal.nD) :
    Fin 65536 → Fin 4 :=
  Cert.ReferenceIdeal.RefTile.tileOf (F := Ideal) (StableHlo.launchContents m' c)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
include h1

/-- The kernel's tile words are the tile numbers. -/
theorem tile_words (b : Fin 65536) : tileAt m c (ix1 b) = BitVec.ofNat 32 (tiles m' c b).val := by
  rw [Cert.Proof.TileEq.tile_eq m m' c h1]
  exact Cert.ReferenceIdeal.RefTile.tile_word _ b

/-- The kernel's position words are the padded counting sort's positions. -/
theorem pos_words (b : Fin 65536) :
    Cert.KernelIdeal.Gen.V m c Cert.KernelIdeal.main_v49 (ix1 b) = BitVec.ofNat 32 (pos 1024 (tiles m' c) b) := by
  rw [v49_eq]
  exact pos_apply (tileAt m c) (tiles m' c) (tile_words m m' c h1) b

theorem pos_small (b : Fin 65536) : pos 1024 (tiles m' c) b < 69632 := by
  have := pos_lt_total 1024 (tiles m' c) (by decide) b
  omega

/-- The normalized position read signed is the position. -/
theorem place_eq (b : Fin 65536) :
    Cert.KernelIdeal.Placement.placeOf (Cert.KernelIdeal.Gen.V m c Cert.KernelIdeal.main_v49) b = (pos 1024 (tiles m' c) b : Int) :=
  place_apply _ (fun b => pos 1024 (tiles m' c) b) (pos_words m m' c h1) (pos_small m m' c h1) b

/-- THE COUNTING SORT'S THREE FACTS. -/
theorem counting_sort :
    (∀ b, 0 ≤ Cert.KernelIdeal.Placement.placeOf (Cert.KernelIdeal.Gen.V m c Cert.KernelIdeal.main_v49) b
        ∧ Cert.KernelIdeal.Placement.placeOf (Cert.KernelIdeal.Gen.V m c Cert.KernelIdeal.main_v49) b < 69632)
    ∧ (∀ b b', Cert.KernelIdeal.Placement.placeOf (Cert.KernelIdeal.Gen.V m c Cert.KernelIdeal.main_v49) b'
        = Cert.KernelIdeal.Placement.placeOf (Cert.KernelIdeal.Gen.V m c Cert.KernelIdeal.main_v49) b → b' = b)
    ∧ (∀ b, ∃ h : (Cert.KernelIdeal.Placement.placeOf (Cert.KernelIdeal.Gen.V m c Cert.KernelIdeal.main_v49) b).toNat / 1024 < 68,
        expert m ⟨(Cert.KernelIdeal.Placement.placeOf (Cert.KernelIdeal.Gen.V m c Cert.KernelIdeal.main_v49) b).toNat / 1024, h⟩ = tiles m' c b) := by
  refine ⟨fun b => ?_, fun b b' hbb => ?_, fun b => ?_⟩
  · rw [place_eq m m' c h1 b]
    have := pos_small m m' c h1 b
    omega
  · rw [place_eq m m' c h1 b, place_eq m m' c h1 b'] at hbb
    exact pos_injective 1024 (tiles m' c) (by decide) (by exact_mod_cast hbb)
  · have hp := pos_small m m' c h1 b
    have hnat : (Cert.KernelIdeal.Placement.placeOf (Cert.KernelIdeal.Gen.V m c Cert.KernelIdeal.main_v49) b).toNat = pos 1024 (tiles m' c) b := by
      rw [place_eq m m' c h1 b]; exact Int.toNat_natCast _
    have hj : (Cert.KernelIdeal.Placement.placeOf (Cert.KernelIdeal.Gen.V m c Cert.KernelIdeal.main_v49) b).toNat / 1024 < 68 := by
      rw [hnat]; omega
    refine ⟨hj, ?_⟩
    apply Fin.ext
    show (Cert.KernelIdeal.Gen.tbl m 0 (ix1 _)).toNat = (tiles m' c b).val
    have hc0 : c = (0 : Dev Cert.KernelIdeal.nD) := Subsingleton.elim _ _
    rw [tbl_eq, ← hc0]
    unfold tblTerm
    rw [table_apply (tileAt m c) (tiles m' c) (tile_words m m' c h1)]
    have hcard : (Finset.univ.filter fun e : Fin 4 => bound 1024 (tiles m' c) e
        ≤ (Cert.KernelIdeal.Placement.placeOf (Cert.KernelIdeal.Gen.V m c Cert.KernelIdeal.main_v49) b).toNat / 1024 * 1024).card = (tiles m' c b).val := by
      rw [hnat]
      exact card_bounds_le_block 1024 (tiles m' c) (by decide) b
    show (BitVec.ofNat 32 (min (Finset.univ.filter fun e : Fin 4 => bound 1024 (tiles m' c) e
        ≤ (Cert.KernelIdeal.Placement.placeOf (Cert.KernelIdeal.Gen.V m c Cert.KernelIdeal.main_v49) b).toNat / 1024 * 1024).card 3)).toNat = _
    rw [hcard, BitVec.toNat_ofNat]
    have := (tiles m' c b).isLt
    omega

end Cert.Proof.Routing

end
-- ==== Proof.lean ====
/-
  The certificate of the routed mixture-of-experts layer against its masked dense reference.

  The kernel's program sorts the 65536 rows into four expert buckets by a counting sort on the host (each bucket padded
  to whole 1024-row blocks, 69632 padded rows in all), multiplies each 1024-row block by the ONE expert weight matrix its
  bucket names — a per-block expert word prefetched into scalar memory picks the weight block — applies sin(30·), and
  gathers the rows back. The reference multiplies every row by all four experts, keeps the product of the row's own
  expert (zero for the others), sums the four, and applies sin(30·).

  The frames: the weight window's block index is read from the prefetched table, so the generated frames hold under
  the side condition that every table word names one of the four experts; that holds of every launch memory, because
  the table is a capped count (Proof/TableOkBits.lean at the word-level instance, Proof/TableOkIdeal.lean at the ideal
  one). The reference is host operations only, with called functions; its run is read back from the list of its
  operations (Proof/RefRun.lean). The idealization rewrote nothing, so `preserves` is trivial.

  The value claim. Kernel side: one grid point's block is the payload of the two staged blocks (Proof/BlockProduct.lean);
  the 68 blocks tile the padded output, which ends holding one whole-array function of the padded rows, the transposed
  weights and the table (Proof/PaddedOutput.lean); at the launch memory, with the host operations after the region, the
  kernel's run ends with its result the gather of that array at the rows' padded positions (Proof/KernelRun.lean); the
  padded rows are the scatter of the features at those positions and the staged weights the transposed weights
  (Proof/HostPrefix.lean); so, given the counting sort's facts about the positions, the result at (b, q) is
  sin (30 · Σ_k features[b, k] · weights[t(b), q, k]) (Proof/Placement.lean). The counting sort's facts: the host prefix
  read back as pure functions of the tile array (Proof/HostChain.lean, Proof/HostChainB.lean, Proof/ChainCompose.lean),
  each array of the chain at an index as a number (Proof/ChainValues.lean … Proof/ChainValuesE.lean), the kernel's tile
  array the reference's (Proof/TileEq.lean), and the arithmetic of a padded counting sort (Proof/LibCountingSort.lean),
  assembled in Proof/Routing.lean. Reference side: its result read back piece by piece (Proof/RefSegments.lean) is at
  (b, q) the same expression once the tile word is one of 0 … 3 (Proof/RefValueAt.lean), which it always is
  (Proof/RefTile.lean). The two meet in Proof/Bridge.lean. The general lemmas about the printed operations read at an index
  are the Proof/Lib*.lean files.
-/
import proofs.«132175_j34754875359890_2_alg».proof.Defs
import proofs.«132175_j34754875359890_2_alg».proof.Proof.TableOkBits
import proofs.«132175_j34754875359890_2_alg».proof.Proof.TableOkIdeal
import proofs.«132175_j34754875359890_2_alg».proof.Proof.RefRun
import proofs.«132175_j34754875359890_2_alg».proof.Proof.Bridge
import proofs.«132175_j34754875359890_2_alg».proof.Proof.Routing
import proofs.«132175_j34754875359890_2_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments: the generated frame, its table condition discharged. -/
theorem frame_k : Cert.frame_Kernel := fun m ρ _ => Cert.Kernel.Gen.frame m ρ (Cert.Kernel.TableOk.ok m)

/-- The idealized kernel likewise. -/
theorem frame_ki : Cert.frame_KernelIdeal := fun m ρ _ => Cert.KernelIdeal.Gen.frame m ρ (Cert.KernelIdeal.TableOk.ok m)

/-- The reference runs and keeps its arguments. -/
theorem frame_ri : Cert.frame_ReferenceIdeal := fun m ρ _ => Cert.ReferenceIdeal.RefRun.frame m ρ

/-- The ideal pass rewrote no operation. -/
theorem preserves : Cert.preserves_Kernel_KernelIdeal := trivial

/-- The reference's tile map is routed (Proof/Bridge.lean): its tile words by Proof/RefTile.lean, the positions' three facts
    by the counting sort's correctness for the kernel's host prefix (Proof/Routing.lean). -/
theorem routed (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Bridge.Routed m m' c (Routing.tiles m' c) := by
  obtain ⟨hr, hi, he⟩ := Routing.counting_sort m m' c h1
  exact ⟨fun b => Cert.ReferenceIdeal.RefTile.tile_word _ b, hr, hi, fun b => (he b).elim fun _ h => h⟩

/-- Routed and masked-dense agree: the routed kernel's run ends with its result named (Proof/KernelRun.lean), the
    reference's run with every buffer at its operations' fold (Proof/RefRun.lean), and under the routed tile map the two
    results are one array (Proof/Bridge.lean). No finiteness of the inputs is used. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c Cert.ReferenceIdeal.main_v55).trans
      (Bridge.results_eq m m' c (hagree c).1 (hagree c).2.2 (Routing.tiles m' c) (routed m m' c (hagree c).2.1)),
    (h c Cert.ReferenceIdeal.main_arg0).trans (Cert.ReferenceIdeal.RefRun.arg0_kept _),
    (h c Cert.ReferenceIdeal.main_arg1).trans (Cert.ReferenceIdeal.RefRun.arg1_kept _),
    (h c Cert.ReferenceIdeal.main_arg2).trans (Cert.ReferenceIdeal.RefRun.arg2_kept _)⟩)
    (Cert.ReferenceIdeal.RefRun.run_main m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
